-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S1 : Shape := ⟨1, ![1]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x8192 .f32) (main_arg1 : FVec F S1 .f32) (main_arg2 : FVec F S1 .f32) (main_arg3 : FVec F S1 .f32) (main_arg4 : FVec F S1 .f32) (main_arg5 : FVec F S1 .f32) (main_arg6 : FVec F S1 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_v13 main_v16
-- ==== Kernel.lean ====
abbrev S16x8192 : Shape := ⟨2, ![16, 8192]⟩
abbrev S1 : Shape := ⟨1, ![1]⟩
abbrev S2x2 : Shape := ⟨2, ![2, 2]⟩
abbrev S4x4 : Shape := ⟨2, ![4, 4]⟩
abbrev S_ : Shape := ⟨0, ![]⟩
abbrev S4 : Shape := ⟨1, ![4]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S1x4x1x4 : Shape := ⟨4, ![1, 4, 1, 4]⟩
abbrev S4x4x4x4 : Shape := ⟨4, ![4, 4, 4, 4]⟩
abbrev S2x2x2x2x2x2x2x2 : Shape := ⟨8, ![2, 2, 2, 2, 2, 2, 2, 2]⟩
abbrev S8192x8192 : Shape := ⟨2, ![8192, 8192]⟩
abbrev S16x2048 : Shape := ⟨2, ![16, 2048]⟩
abbrev S16x1024 : Shape := ⟨2, ![16, 1024]⟩
abbrev S2048x1024 : Shape := ⟨2, ![2048, 1024]⟩

abbrev nBuf : Space → Nat
  | .hbm => 182
  | .vmem => 6
  | .smem => 0
  | _ => 0

abbrev hbmTy0_0 (i : Nat) : BufTy := match i % 128 with
  | 0 => ⟨S16x8192, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S2x2, .f32⟩
  | 8 => ⟨S4x4, .f32⟩
  | 9 => ⟨S2x2, .f32⟩
  | 10 => ⟨S2x2, .f32⟩
  | 11 => ⟨S_, .f32⟩
  | 12 => ⟨S1, .f32⟩
  | 13 => ⟨S1, .f32⟩
  | 14 => ⟨S1, .f32⟩
  | 15 => ⟨S_, .f32⟩
  | 16 => ⟨S1, .f32⟩
  | 17 => ⟨S1, .f32⟩
  | 18 => ⟨S1, .f32⟩
  | 19 => ⟨S1, .f32⟩
  | 20 => ⟨S4, .f32⟩
  | 21 => ⟨S2x2, .f32⟩
  | 22 => ⟨S2x1x2x1, .f32⟩
  | 23 => ⟨S1x2x1x2, .f32⟩
  | 24 => ⟨S2x2x2x2, .f32⟩
  | 25 => ⟨S2x2x2x2, .f32⟩
  | 26 => ⟨S2x2x2x2, .f32⟩
  | 27 => ⟨S4x4, .f32⟩
  | 28 => ⟨S4x1x4x1, .f32⟩
  | 29 => ⟨S1x2x1x2, .f32⟩
  | 30 => ⟨S4x2x4x2, .f32⟩
  | 31 => ⟨S4x2x4x2, .f32⟩
  | 32 => ⟨S4x2x4x2, .f32⟩
  | 33 => ⟨S8x8, .f32⟩
  | 34 => ⟨S_, .f32⟩
  | 35 => ⟨S1, .f32⟩
  | 36 => ⟨S1, .f32⟩
  | 37 => ⟨S1, .f32⟩
  | 38 => ⟨S_, .f32⟩
  | 39 => ⟨S1, .f32⟩
  | 40 => ⟨S1, .f32⟩
  | 41 => ⟨S1, .f32⟩
  | 42 => ⟨S1, .f32⟩
  | 43 => ⟨S4, .f32⟩
  | 44 => ⟨S2x2, .f32⟩
  | 45 => ⟨S8x1x8x1, .f32⟩
  | 46 => ⟨S1x2x1x2, .f32⟩
  | 47 => ⟨S8x2x8x2, .f32⟩
  | 48 => ⟨S8x2x8x2, .f32⟩
  | 49 => ⟨S8x2x8x2, .f32⟩
  | 50 => ⟨S16x16, .f32⟩
  | 51 => ⟨S_, .f32⟩
  | 52 => ⟨S1, .f32⟩
  | 53 => ⟨S1, .f32⟩
  | 54 => ⟨S1, .f32⟩
  | 55 => ⟨S_, .f32⟩
  | 56 => ⟨S1, .f32⟩
  | 57 => ⟨S1, .f32⟩
  | 58 => ⟨S1, .f32⟩
  | 59 => ⟨S1, .f32⟩
  | 60 => ⟨S4, .f32⟩
  | 61 => ⟨S2x2, .f32⟩
  | 62 => ⟨S_, .f32⟩
  | 63 => ⟨S1, .f32⟩
  | 64 => ⟨S1, .f32⟩
  | 65 => ⟨S1, .f32⟩
  | 66 => ⟨S_, .f32⟩
  | 67 => ⟨S1, .f32⟩
  | 68 => ⟨S1, .f32⟩
  | 69 => ⟨S1, .f32⟩
  | 70 => ⟨S1, .f32⟩
  | 71 => ⟨S4, .f32⟩
  | 72 => ⟨S2x2, .f32⟩
  | 73 => ⟨S2x1x2x1, .f32⟩
  | 74 => ⟨S1x2x1x2, .f32⟩
  | 75 => ⟨S2x2x2x2, .f32⟩
  | 76 => ⟨S2x2x2x2, .f32⟩
  | 77 => ⟨S2x2x2x2, .f32⟩
  | 78 => ⟨S4x4, .f32⟩
  | 79 => ⟨S4x1x4x1, .f32⟩
  | 80 => ⟨S1x4x1x4, .f32⟩
  | 81 => ⟨S4x4x4x4, .f32⟩
  | 82 => ⟨S4x4x4x4, .f32⟩
  | 83 => ⟨S4x4x4x4, .f32⟩
  | 84 => ⟨S16x16, .f32⟩
  | 85 => ⟨S_, .f32⟩
  | 86 => ⟨S1, .f32⟩
  | 87 => ⟨S1, .f32⟩
  | 88 => ⟨S1, .f32⟩
  | 89 => ⟨S_, .f32⟩
  | 90 => ⟨S1, .f32⟩
  | 91 => ⟨S1, .f32⟩
  | 92 => ⟨S1, .f32⟩
  | 93 => ⟨S1, .f32⟩
  | 94 => ⟨S4, .f32⟩
  | 95 => ⟨S2x2, .f32⟩
  | 96 => ⟨S4x1x4x1, .f32⟩
  | 97 => ⟨S1x2x1x2, .f32⟩
  | 98 => ⟨S4x2x4x2, .f32⟩
  | 99 => ⟨S4x2x4x2, .f32⟩
  | 100 => ⟨S4x2x4x2, .f32⟩
  | 101 => ⟨S8x8, .f32⟩
  | 102 => ⟨S8x1x8x1, .f32⟩
  | 103 => ⟨S1x2x1x2, .f32⟩
  | 104 => ⟨S8x2x8x2, .f32⟩
  | 105 => ⟨S8x2x8x2, .f32⟩
  | 106 => ⟨S8x2x8x2, .f32⟩
  | 107 => ⟨S16x16, .f32⟩
  | 108 => ⟨S_, .f32⟩
  | 109 => ⟨S1, .f32⟩
  | 110 => ⟨S1, .f32⟩
  | 111 => ⟨S1, .f32⟩
  | 112 => ⟨S_, .f32⟩
  | 113 => ⟨S1, .f32⟩
  | 114 => ⟨S1, .f32⟩
  | 115 => ⟨S1, .f32⟩
  | 116 => ⟨S1, .f32⟩
  | 117 => ⟨S4, .f32⟩
  | 118 => ⟨S2x2, .f32⟩
  | 119 => ⟨S2x1x2x1, .f32⟩
  | 120 => ⟨S1x2x1x2, .f32⟩
  | 121 => ⟨S2x2x2x2, .f32⟩
  | 122 => ⟨S2x2x2x2, .f32⟩
  | 123 => ⟨S2x2x2x2, .f32⟩
  | 124 => ⟨S4x4, .f32⟩
  | 125 => ⟨S4x1x4x1, .f32⟩
  | 126 => ⟨S1x2x1x2, .f32⟩
  | 127 => ⟨S4x2x4x2, .f32⟩
  | _ => ⟨S16x8192, .f32⟩

abbrev hbmTy0_1 (i : Nat) : BufTy := match i % 128 with
  | 0 => ⟨S4x2x4x2, .f32⟩
  | 1 => ⟨S4x2x4x2, .f32⟩
  | 2 => ⟨S8x8, .f32⟩
  | 3 => ⟨S8x1x8x1, .f32⟩
  | 4 => ⟨S1x2x1x2, .f32⟩
  | 5 => ⟨S8x2x8x2, .f32⟩
  | 6 => ⟨S8x2x8x2, .f32⟩
  | 7 => ⟨S8x2x8x2, .f32⟩
  | 8 => ⟨S16x16, .f32⟩
  | 9 => ⟨S2x1x2x1, .f32⟩
  | 10 => ⟨S1x2x1x2, .f32⟩
  | 11 => ⟨S2x2x2x2, .f32⟩
  | 12 => ⟨S2x2x2x2, .f32⟩
  | 13 => ⟨S2x2x2x2, .f32⟩
  | 14 => ⟨S4x4, .f32⟩
  | 15 => ⟨S4x1x4x1, .f32⟩
  | 16 => ⟨S1x4x1x4, .f32⟩
  | 17 => ⟨S4x4x4x4, .f32⟩
  | 18 => ⟨S4x4x4x4, .f32⟩
  | 19 => ⟨S4x4x4x4, .f32⟩
  | 20 => ⟨S16x16, .f32⟩
  | 21 => ⟨S2x2x2x2x2x2x2x2, .f32⟩
  | 22 => ⟨S2x2x2x2x2x2x2x2, .f32⟩
  | 23 => ⟨S2x2x2x2x2x2x2x2, .f32⟩
  | 24 => ⟨S16x16, .f32⟩
  | 25 => ⟨S16x16, .f32⟩
  | 26 => ⟨S16x16, .f32⟩
  | 27 => ⟨S16x16, .f32⟩
  | 28 => ⟨S16x16, .f32⟩
  | 29 => ⟨S2x1x2x1, .f32⟩
  | 30 => ⟨S1x2x1x2, .f32⟩
  | 31 => ⟨S2x2x2x2, .f32⟩
  | 32 => ⟨S2x2x2x2, .f32⟩
  | 33 => ⟨S2x2x2x2, .f32⟩
  | 34 => ⟨S4x4, .f32⟩
  | 35 => ⟨S4x1x4x1, .f32⟩
  | 36 => ⟨S1x2x1x2, .f32⟩
  | 37 => ⟨S4x2x4x2, .f32⟩
  | 38 => ⟨S4x2x4x2, .f32⟩
  | 39 => ⟨S4x2x4x2, .f32⟩
  | 40 => ⟨S8x8, .f32⟩
  | 41 => ⟨S8x1x8x1, .f32⟩
  | 42 => ⟨S1x2x1x2, .f32⟩
  | 43 => ⟨S8x2x8x2, .f32⟩
  | 44 => ⟨S8x2x8x2, .f32⟩
  | 45 => ⟨S8x2x8x2, .f32⟩
  | 46 => ⟨S16x16, .f32⟩
  | 47 => ⟨S16x16, .f32⟩
  | 48 => ⟨S16x16, .f32⟩
  | 49 => ⟨S16x16, .f32⟩
  | 50 => ⟨S16x8192, .bf16⟩
  | 51 => ⟨S16x8192, .f32⟩
  | 52 => ⟨S16x8192, .bf16⟩
  | 53 => ⟨S8192x8192, .f32⟩
  | _ => ⟨S16x8192, .f32⟩

abbrev hbmTy (i : Nat) : BufTy := match i / 128 with
  | 0 => hbmTy0_0 i
  | 1 => hbmTy0_1 i
  | _ => ⟨S16x8192, .f32⟩

abbrev bufTy : (tb : Table) → Fin (tcTables nBuf tb) → BufTy
  | .hbm, ⟨i, _⟩ => hbmTy i
  | .local _ .vmem, ⟨0, _⟩ => ⟨S16x2048, .bf16⟩
  | .local _ .vmem, ⟨1, _⟩ => ⟨S16x2048, .bf16⟩
  | .local _ .vmem, ⟨2, _⟩ => ⟨S16x1024, .bf16⟩
  | .local _ .vmem, ⟨3, _⟩ => ⟨S16x1024, .bf16⟩
  | .local _ .vmem, ⟨4, _⟩ => ⟨S2048x1024, .f32⟩
  | .local _ .vmem, ⟨5, _⟩ => ⟨S2048x1024, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v10 : Ref sig .tc := ⟨.hbm, 33, rfl⟩
abbrev main_cst_5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_6 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v20 : Ref sig .tc := ⟨.hbm, 50, rfl⟩
abbrev main_cst_7 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_8 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_10 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v39 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_v40 : Ref sig .tc := ⟨.hbm, 84, rfl⟩
abbrev main_cst_11 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_12 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v50 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_v51 : Ref sig .tc := ⟨.hbm, 107, rfl⟩
abbrev main_cst_13 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_14 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v61 : Ref sig .tc := ⟨.hbm, 124, rfl⟩
abbrev main_call8_v0 : Ref sig .tc := ⟨.hbm, 125, rfl⟩
abbrev main_call8_v1 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_v62 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_call9_v3 : Ref sig .tc := ⟨.hbm, 134, rfl⟩
abbrev main_call9_v4 : Ref sig .tc := ⟨.hbm, 135, rfl⟩
abbrev main_v63 : Ref sig .tc := ⟨.hbm, 136, rfl⟩
abbrev main_call10_v0 : Ref sig .tc := ⟨.hbm, 137, rfl⟩
abbrev main_call10_v1 : Ref sig .tc := ⟨.hbm, 138, rfl⟩
abbrev main_call10_v2 : Ref sig .tc := ⟨.hbm, 139, rfl⟩
abbrev main_call10_v3 : Ref sig .tc := ⟨.hbm, 140, rfl⟩
abbrev main_call10_v4 : Ref sig .tc := ⟨.hbm, 141, rfl⟩
abbrev main_v64 : Ref sig .tc := ⟨.hbm, 142, rfl⟩
abbrev main_call11_v0 : Ref sig .tc := ⟨.hbm, 143, rfl⟩
abbrev main_call11_v1 : Ref sig .tc := ⟨.hbm, 144, rfl⟩
abbrev main_call11_v2 : Ref sig .tc := ⟨.hbm, 145, rfl⟩
abbrev main_call11_v3 : Ref sig .tc := ⟨.hbm, 146, rfl⟩
abbrev main_call11_v4 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_call12_v0 : Ref sig .tc := ⟨.hbm, 157, rfl⟩
abbrev main_call12_v1 : Ref sig .tc := ⟨.hbm, 158, rfl⟩
abbrev main_call12_v2 : Ref sig .tc := ⟨.hbm, 159, rfl⟩
abbrev main_call12_v3 : Ref sig .tc := ⟨.hbm, 160, rfl⟩
abbrev main_call12_v4 : Ref sig .tc := ⟨.hbm, 161, rfl⟩
abbrev main_v74 : Ref sig .tc := ⟨.hbm, 162, rfl⟩
abbrev main_call13_v0 : Ref sig .tc := ⟨.hbm, 163, rfl⟩
abbrev main_call13_v1 : Ref sig .tc := ⟨.hbm, 164, rfl⟩
abbrev main_call13_v2 : Ref sig .tc := ⟨.hbm, 165, rfl⟩
abbrev main_call13_v3 : Ref sig .tc := ⟨.hbm, 166, rfl⟩
abbrev main_call13_v4 : Ref sig .tc := ⟨.hbm, 167, rfl⟩
abbrev main_v75 : Ref sig .tc := ⟨.hbm, 168, rfl⟩
abbrev main_call14_v0 : Ref sig .tc := ⟨.hbm, 169, rfl⟩
abbrev main_call14_v1 : Ref sig .tc := ⟨.hbm, 170, rfl⟩
abbrev main_call14_v2 : Ref sig .tc := ⟨.hbm, 171, rfl⟩
abbrev main_call14_v3 : Ref sig .tc := ⟨.hbm, 172, rfl⟩
abbrev main_call14_v4 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1 : S_.BroadcastsInDim S1 (![] : Fin 0 → Fin S1.rank)
  concatenates_S1_S1_S1_S1_S4_d0 : Shape.Concatenates [S1, S1, S1, S1] S4 0
  shapeCasts_S4_S2x2 : S4.ShapeCasts S2x2
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S4x4_S1x4x1x4_1_3 : S4x4.BroadcastsInDim S1x4x1x4 (![1, 3] : Fin 2 → Fin S1x4x1x4.rank)
  bcast_S4x1x4x1_S4x4x4x4_0_1_2_3 : S4x1x4x1.BroadcastsInDim S4x4x4x4 (![0, 1, 2, 3] : Fin 4 → Fin S4x4x4x4.rank)
  bcast_S1x4x1x4_S4x4x4x4_0_1_2_3 : S1x4x1x4.BroadcastsInDim S4x4x4x4 (![0, 1, 2, 3] : Fin 4 → Fin S4x4x4x4.rank)
  shapeCasts_S4x4x4x4_S16x16 : S4x4x4x4.ShapeCasts S16x16
  shapeCasts_S16x16_S2x2x2x2x2x2x2x2 : S16x16.ShapeCasts S2x2x2x2x2x2x2x2
  transposes_S2x2x2x2x2x2x2x2_S2x2x2x2x2x2x2x2_0_2_1_3_4_5_6_7 : S2x2x2x2x2x2x2x2.Transposes [0, 2, 1, 3, 4, 5, 6, 7] S2x2x2x2x2x2x2x2
  transposes_S2x2x2x2x2x2x2x2_S2x2x2x2x2x2x2x2_0_1_2_3_4_6_5_7 : S2x2x2x2x2x2x2x2.Transposes [0, 1, 2, 3, 4, 6, 5, 7] S2x2x2x2x2x2x2x2
  shapeCasts_S2x2x2x2x2x2x2x2_S16x16 : S2x2x2x2x2x2x2x2.ShapeCasts S16x16
  transposes_S16x16_S16x16_1_0 : S16x16.Transposes [1, 0] S16x16
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S2048x1024_S2048x1024_0_0 : ∀ a, (![0, 0] : Fin 2 → Nat) a + S2048x1024.size a ≤ S2048x1024.size a
  h_S2048x1024 : 0 < S2048x1024.numel
  dot_S16x16_S16x16_S16x16_1_0_0_1_n_n_wf : DotDims.WF S16x16 S16x16 S16x16 [1] [0] [0] [1] [] []
  dot_S16x16_S16x8192_S16x8192_1_0_0_1_n_n_wf : DotDims.WF S16x16 S16x8192 S16x8192 [1] [0] [0] [1] [] []
  dot_S16x2048_S16x1024_S2048x1024_0_0_1_1_n_n_wf : DotDims.WF S16x2048 S16x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x8192.size a
  hwx0_0 : ∀ i : grid0.Coords, EltTy.bits .bf16 = 32 ∨ (Rect.block (s := S16x8192) S16x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x8192.size a
  hwx0_1 : ∀ i : grid0.Coords, EltTy.bits .bf16 = 32 ∨ (Rect.block (s := S16x8192) S16x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S16x2048_S16x1024_S2048x1024_0_0_1_1_n_n : DotDims S16x2048 S16x1024 S2048x1024 where
  lhsContracting := [0]
  rhsContracting := [0]
  lhsNonContracting := [1]
  rhsNonContracting := [1]
  lhsBatch := []
  rhsBatch := []
  wf := dot_S16x2048_S16x1024_S2048x1024_0_0_1_1_n_n_wf

abbrev win0_0 : Pipeline.Window sig grid0 :=
  Pipeline.Window.ofSpec (Memref.whole main_v80) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v83) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8192 : Shape := ⟨2, ![16, 8192]⟩
abbrev S1 : Shape := ⟨1, ![1]⟩
abbrev S2x2 : Shape := ⟨2, ![2, 2]⟩
abbrev S4x4 : Shape := ⟨2, ![4, 4]⟩
abbrev S_ : Shape := ⟨0, ![]⟩
abbrev S4 : Shape := ⟨1, ![4]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S1x4x1x4 : Shape := ⟨4, ![1, 4, 1, 4]⟩
abbrev S4x4x4x4 : Shape := ⟨4, ![4, 4, 4, 4]⟩
abbrev S2x2x2x2x2x2x2x2 : Shape := ⟨8, ![2, 2, 2, 2, 2, 2, 2, 2]⟩
abbrev S8192x16 : Shape := ⟨2, ![8192, 16]⟩
abbrev S8192x8192 : Shape := ⟨2, ![8192, 8192]⟩

abbrev nBuf : Space → Nat
  | .hbm => 179
  | .vmem => 0
  | .smem => 0
  | _ => 0

abbrev hbmTy0_0 (i : Nat) : BufTy := match i % 128 with
  | 0 => ⟨S16x8192, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S2x2, .f32⟩
  | 8 => ⟨S4x4, .f32⟩
  | 9 => ⟨S2x2, .f32⟩
  | 10 => ⟨S2x2, .f32⟩
  | 11 => ⟨S_, .f32⟩
  | 12 => ⟨S1, .f32⟩
  | 13 => ⟨S1, .f32⟩
  | 14 => ⟨S1, .f32⟩
  | 15 => ⟨S_, .f32⟩
  | 16 => ⟨S1, .f32⟩
  | 17 => ⟨S1, .f32⟩
  | 18 => ⟨S1, .f32⟩
  | 19 => ⟨S1, .f32⟩
  | 20 => ⟨S4, .f32⟩
  | 21 => ⟨S2x2, .f32⟩
  | 22 => ⟨S2x1x2x1, .f32⟩
  | 23 => ⟨S1x2x1x2, .f32⟩
  | 24 => ⟨S2x2x2x2, .f32⟩
  | 25 => ⟨S2x2x2x2, .f32⟩
  | 26 => ⟨S2x2x2x2, .f32⟩
  | 27 => ⟨S4x4, .f32⟩
  | 28 => ⟨S4x1x4x1, .f32⟩
  | 29 => ⟨S1x2x1x2, .f32⟩
  | 30 => ⟨S4x2x4x2, .f32⟩
  | 31 => ⟨S4x2x4x2, .f32⟩
  | 32 => ⟨S4x2x4x2, .f32⟩
  | 33 => ⟨S8x8, .f32⟩
  | 34 => ⟨S_, .f32⟩
  | 35 => ⟨S1, .f32⟩
  | 36 => ⟨S1, .f32⟩
  | 37 => ⟨S1, .f32⟩
  | 38 => ⟨S_, .f32⟩
  | 39 => ⟨S1, .f32⟩
  | 40 => ⟨S1, .f32⟩
  | 41 => ⟨S1, .f32⟩
  | 42 => ⟨S1, .f32⟩
  | 43 => ⟨S4, .f32⟩
  | 44 => ⟨S2x2, .f32⟩
  | 45 => ⟨S8x1x8x1, .f32⟩
  | 46 => ⟨S1x2x1x2, .f32⟩
  | 47 => ⟨S8x2x8x2, .f32⟩
  | 48 => ⟨S8x2x8x2, .f32⟩
  | 49 => ⟨S8x2x8x2, .f32⟩
  | 50 => ⟨S16x16, .f32⟩
  | 51 => ⟨S_, .f32⟩
  | 52 => ⟨S1, .f32⟩
  | 53 => ⟨S1, .f32⟩
  | 54 => ⟨S1, .f32⟩
  | 55 => ⟨S_, .f32⟩
  | 56 => ⟨S1, .f32⟩
  | 57 => ⟨S1, .f32⟩
  | 58 => ⟨S1, .f32⟩
  | 59 => ⟨S1, .f32⟩
  | 60 => ⟨S4, .f32⟩
  | 61 => ⟨S2x2, .f32⟩
  | 62 => ⟨S_, .f32⟩
  | 63 => ⟨S1, .f32⟩
  | 64 => ⟨S1, .f32⟩
  | 65 => ⟨S1, .f32⟩
  | 66 => ⟨S_, .f32⟩
  | 67 => ⟨S1, .f32⟩
  | 68 => ⟨S1, .f32⟩
  | 69 => ⟨S1, .f32⟩
  | 70 => ⟨S1, .f32⟩
  | 71 => ⟨S4, .f32⟩
  | 72 => ⟨S2x2, .f32⟩
  | 73 => ⟨S2x1x2x1, .f32⟩
  | 74 => ⟨S1x2x1x2, .f32⟩
  | 75 => ⟨S2x2x2x2, .f32⟩
  | 76 => ⟨S2x2x2x2, .f32⟩
  | 77 => ⟨S2x2x2x2, .f32⟩
  | 78 => ⟨S4x4, .f32⟩
  | 79 => ⟨S4x1x4x1, .f32⟩
  | 80 => ⟨S1x4x1x4, .f32⟩
  | 81 => ⟨S4x4x4x4, .f32⟩
  | 82 => ⟨S4x4x4x4, .f32⟩
  | 83 => ⟨S4x4x4x4, .f32⟩
  | 84 => ⟨S16x16, .f32⟩
  | 85 => ⟨S_, .f32⟩
  | 86 => ⟨S1, .f32⟩
  | 87 => ⟨S1, .f32⟩
  | 88 => ⟨S1, .f32⟩
  | 89 => ⟨S_, .f32⟩
  | 90 => ⟨S1, .f32⟩
  | 91 => ⟨S1, .f32⟩
  | 92 => ⟨S1, .f32⟩
  | 93 => ⟨S1, .f32⟩
  | 94 => ⟨S4, .f32⟩
  | 95 => ⟨S2x2, .f32⟩
  | 96 => ⟨S4x1x4x1, .f32⟩
  | 97 => ⟨S1x2x1x2, .f32⟩
  | 98 => ⟨S4x2x4x2, .f32⟩
  | 99 => ⟨S4x2x4x2, .f32⟩
  | 100 => ⟨S4x2x4x2, .f32⟩
  | 101 => ⟨S8x8, .f32⟩
  | 102 => ⟨S8x1x8x1, .f32⟩
  | 103 => ⟨S1x2x1x2, .f32⟩
  | 104 => ⟨S8x2x8x2, .f32⟩
  | 105 => ⟨S8x2x8x2, .f32⟩
  | 106 => ⟨S8x2x8x2, .f32⟩
  | 107 => ⟨S16x16, .f32⟩
  | 108 => ⟨S_, .f32⟩
  | 109 => ⟨S1, .f32⟩
  | 110 => ⟨S1, .f32⟩
  | 111 => ⟨S1, .f32⟩
  | 112 => ⟨S_, .f32⟩
  | 113 => ⟨S1, .f32⟩
  | 114 => ⟨S1, .f32⟩
  | 115 => ⟨S1, .f32⟩
  | 116 => ⟨S1, .f32⟩
  | 117 => ⟨S4, .f32⟩
  | 118 => ⟨S2x2, .f32⟩
  | 119 => ⟨S2x1x2x1, .f32⟩
  | 120 => ⟨S1x2x1x2, .f32⟩
  | 121 => ⟨S2x2x2x2, .f32⟩
  | 122 => ⟨S2x2x2x2, .f32⟩
  | 123 => ⟨S2x2x2x2, .f32⟩
  | 124 => ⟨S4x4, .f32⟩
  | 125 => ⟨S4x1x4x1, .f32⟩
  | 126 => ⟨S1x2x1x2, .f32⟩
  | 127 => ⟨S4x2x4x2, .f32⟩
  | _ => ⟨S16x8192, .f32⟩

abbrev hbmTy0_1 (i : Nat) : BufTy := match i % 128 with
  | 0 => ⟨S4x2x4x2, .f32⟩
  | 1 => ⟨S4x2x4x2, .f32⟩
  | 2 => ⟨S8x8, .f32⟩
  | 3 => ⟨S8x1x8x1, .f32⟩
  | 4 => ⟨S1x2x1x2, .f32⟩
  | 5 => ⟨S8x2x8x2, .f32⟩
  | 6 => ⟨S8x2x8x2, .f32⟩
  | 7 => ⟨S8x2x8x2, .f32⟩
  | 8 => ⟨S16x16, .f32⟩
  | 9 => ⟨S2x1x2x1, .f32⟩
  | 10 => ⟨S1x2x1x2, .f32⟩
  | 11 => ⟨S2x2x2x2, .f32⟩
  | 12 => ⟨S2x2x2x2, .f32⟩
  | 13 => ⟨S2x2x2x2, .f32⟩
  | 14 => ⟨S4x4, .f32⟩
  | 15 => ⟨S4x1x4x1, .f32⟩
  | 16 => ⟨S1x4x1x4, .f32⟩
  | 17 => ⟨S4x4x4x4, .f32⟩
  | 18 => ⟨S4x4x4x4, .f32⟩
  | 19 => ⟨S4x4x4x4, .f32⟩
  | 20 => ⟨S16x16, .f32⟩
  | 21 => ⟨S2x2x2x2x2x2x2x2, .f32⟩
  | 22 => ⟨S2x2x2x2x2x2x2x2, .f32⟩
  | 23 => ⟨S2x2x2x2x2x2x2x2, .f32⟩
  | 24 => ⟨S16x16, .f32⟩
  | 25 => ⟨S16x16, .f32⟩
  | 26 => ⟨S16x16, .f32⟩
  | 27 => ⟨S16x16, .f32⟩
  | 28 => ⟨S16x16, .f32⟩
  | 29 => ⟨S16x8192, .f32⟩
  | 30 => ⟨S2x1x2x1, .f32⟩
  | 31 => ⟨S1x2x1x2, .f32⟩
  | 32 => ⟨S2x2x2x2, .f32⟩
  | 33 => ⟨S2x2x2x2, .f32⟩
  | 34 => ⟨S2x2x2x2, .f32⟩
  | 35 => ⟨S4x4, .f32⟩
  | 36 => ⟨S4x1x4x1, .f32⟩
  | 37 => ⟨S1x2x1x2, .f32⟩
  | 38 => ⟨S4x2x4x2, .f32⟩
  | 39 => ⟨S4x2x4x2, .f32⟩
  | 40 => ⟨S4x2x4x2, .f32⟩
  | 41 => ⟨S8x8, .f32⟩
  | 42 => ⟨S8x1x8x1, .f32⟩
  | 43 => ⟨S1x2x1x2, .f32⟩
  | 44 => ⟨S8x2x8x2, .f32⟩
  | 45 => ⟨S8x2x8x2, .f32⟩
  | 46 => ⟨S8x2x8x2, .f32⟩
  | 47 => ⟨S16x16, .f32⟩
  | 48 => ⟨S8192x16, .f32⟩
  | 49 => ⟨S16x8192, .f32⟩
  | 50 => ⟨S8192x8192, .f32⟩
  | _ => ⟨S16x8192, .f32⟩

abbrev hbmTy (i : Nat) : BufTy := match i / 128 with
  | 0 => hbmTy0_0 i
  | 1 => hbmTy0_1 i
  | _ => ⟨S16x8192, .f32⟩

abbrev bufTy : (tb : Table) → Fin (tcTables nBuf tb) → BufTy
  | .hbm, ⟨i, _⟩ => hbmTy i
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v10 : Ref sig .tc := ⟨.hbm, 33, rfl⟩
abbrev main_cst_5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_6 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v20 : Ref sig .tc := ⟨.hbm, 50, rfl⟩
abbrev main_cst_7 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_8 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_10 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v39 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_v40 : Ref sig .tc := ⟨.hbm, 84, rfl⟩
abbrev main_cst_11 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_12 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v50 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_v51 : Ref sig .tc := ⟨.hbm, 107, rfl⟩
abbrev main_cst_13 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_14 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v61 : Ref sig .tc := ⟨.hbm, 124, rfl⟩
abbrev main_call8_v0 : Ref sig .tc := ⟨.hbm, 125, rfl⟩
abbrev main_call8_v1 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_v62 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_call9_v3 : Ref sig .tc := ⟨.hbm, 134, rfl⟩
abbrev main_call9_v4 : Ref sig .tc := ⟨.hbm, 135, rfl⟩
abbrev main_v63 : Ref sig .tc := ⟨.hbm, 136, rfl⟩
abbrev main_call10_v0 : Ref sig .tc := ⟨.hbm, 137, rfl⟩
abbrev main_call10_v1 : Ref sig .tc := ⟨.hbm, 138, rfl⟩
abbrev main_call10_v2 : Ref sig .tc := ⟨.hbm, 139, rfl⟩
abbrev main_call10_v3 : Ref sig .tc := ⟨.hbm, 140, rfl⟩
abbrev main_call10_v4 : Ref sig .tc := ⟨.hbm, 141, rfl⟩
abbrev main_v64 : Ref sig .tc := ⟨.hbm, 142, rfl⟩
abbrev main_call11_v0 : Ref sig .tc := ⟨.hbm, 143, rfl⟩
abbrev main_call11_v1 : Ref sig .tc := ⟨.hbm, 144, rfl⟩
abbrev main_call11_v2 : Ref sig .tc := ⟨.hbm, 145, rfl⟩
abbrev main_call11_v3 : Ref sig .tc := ⟨.hbm, 146, rfl⟩
abbrev main_call11_v4 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_call12_v0 : Ref sig .tc := ⟨.hbm, 158, rfl⟩
abbrev main_call12_v1 : Ref sig .tc := ⟨.hbm, 159, rfl⟩
abbrev main_call12_v2 : Ref sig .tc := ⟨.hbm, 160, rfl⟩
abbrev main_call12_v3 : Ref sig .tc := ⟨.hbm, 161, rfl⟩
abbrev main_call12_v4 : Ref sig .tc := ⟨.hbm, 162, rfl⟩
abbrev main_v75 : Ref sig .tc := ⟨.hbm, 163, rfl⟩
abbrev main_call13_v0 : Ref sig .tc := ⟨.hbm, 164, rfl⟩
abbrev main_call13_v1 : Ref sig .tc := ⟨.hbm, 165, rfl⟩
abbrev main_call13_v2 : Ref sig .tc := ⟨.hbm, 166, rfl⟩
abbrev main_call13_v3 : Ref sig .tc := ⟨.hbm, 167, rfl⟩
abbrev main_call13_v4 : Ref sig .tc := ⟨.hbm, 168, rfl⟩
abbrev main_v76 : Ref sig .tc := ⟨.hbm, 169, rfl⟩
abbrev main_call14_v0 : Ref sig .tc := ⟨.hbm, 170, rfl⟩
abbrev main_call14_v1 : Ref sig .tc := ⟨.hbm, 171, rfl⟩
abbrev main_call14_v2 : Ref sig .tc := ⟨.hbm, 172, rfl⟩
abbrev main_call14_v3 : Ref sig .tc := ⟨.hbm, 173, rfl⟩
abbrev main_call14_v4 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S1_S1_S4_d0 : Shape.Concatenates [S1, S1, S1, S1] S4 0
  shapeCasts_S4_S2x2 : S4.ShapeCasts S2x2
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S4x4_S1x4x1x4_1_3 : S4x4.BroadcastsInDim S1x4x1x4 (![1, 3] : Fin 2 → Fin S1x4x1x4.rank)
  bcast_S4x1x4x1_S4x4x4x4_0_1_2_3 : S4x1x4x1.BroadcastsInDim S4x4x4x4 (![0, 1, 2, 3] : Fin 4 → Fin S4x4x4x4.rank)
  bcast_S1x4x1x4_S4x4x4x4_0_1_2_3 : S1x4x1x4.BroadcastsInDim S4x4x4x4 (![0, 1, 2, 3] : Fin 4 → Fin S4x4x4x4.rank)
  shapeCasts_S4x4x4x4_S16x16 : S4x4x4x4.ShapeCasts S16x16
  shapeCasts_S16x16_S2x2x2x2x2x2x2x2 : S16x16.ShapeCasts S2x2x2x2x2x2x2x2
  transposes_S2x2x2x2x2x2x2x2_S2x2x2x2x2x2x2x2_0_2_1_3_4_5_6_7 : S2x2x2x2x2x2x2x2.Transposes [0, 2, 1, 3, 4, 5, 6, 7] S2x2x2x2x2x2x2x2
  transposes_S2x2x2x2x2x2x2x2_S2x2x2x2x2x2x2x2_0_1_2_3_4_6_5_7 : S2x2x2x2x2x2x2x2.Transposes [0, 1, 2, 3, 4, 6, 5, 7] S2x2x2x2x2x2x2x2
  shapeCasts_S2x2x2x2x2x2x2x2_S16x16 : S2x2x2x2x2x2x2x2.ShapeCasts S16x16
  transposes_S16x8192_S8192x16_1_0 : S16x8192.Transposes [1, 0] S8192x16
  dot_S16x16_S16x16_S16x16_1_0_0_1_n_n_wf : DotDims.WF S16x16 S16x16 S16x16 [1] [0] [0] [1] [] []
  dot_S16x16_S16x8192_S16x8192_1_0_0_1_n_n_wf : DotDims.WF S16x16 S16x8192 S16x8192 [1] [0] [0] [1] [] []
  dot_S8192x16_S16x8192_S8192x8192_1_0_0_1_n_n_wf : DotDims.WF S8192x16 S16x8192 S8192x8192 [1] [0] [0] [1] [] []

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.FrameBits.lean ====
/-
  The frame of the tiled outer product.  The program first forms, on the host, the 16 × 16 matrices and the two
  bf16 operand arrays; none of those steps writes an argument array.  It then runs one pipelined region over a
  4 × 8 grid of tiles: at tile (i, j) the body reads the 16 × 2048 block i of the left operand and the 16 × 1024
  block j of the right operand, contracts them over their sixteen rows, and stores the 2048 × 1024 product as
  block (i, j) of the output.  Every weakly fair execution terminates, the output array ends holding, tile by
  tile, that product of the operand blocks, and the seven argument arrays end as they began.
-/
import proofs.«119959_j15496242004747_1_alg».proof.Proof.Gen.Kernel.Launch
import proofs.«119959_j15496242004747_1_alg».proof.Proof.Gen.Kernel.Skeleton
import proofs.«119959_j15496242004747_1_alg».proof.Proof.Gen.Kernel.Points
import Idealize.ShloMosaic.Lib.Pipeline.FrameBody
import Idealize.ShloMosaic.Lib.Ring
import Idealize.ShloMosaic.Lib.Tactic

-- membership in a rectangle of 2048 × 1024 coordinates is decided by a recursion one level per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host steps before the region -/

/-- Core `c`'s buffers when the region is entered: the launch contents after all the host steps, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) b

/-! None of the host steps allocates: each writes a value computed from buffers already written. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

/-- The program up to the region: the host steps, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point, fetched there or not (between fetches the
    block index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The right operand's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- No window stages an argument array, so each ends as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses: each staging buffer whole -/

abbrev r0_0 : Rect S16x2048 := Rect.unit (s := S16x2048) ![0, 0] S16x2048.size inb_S16x2048_S16x2048_0_0
abbrev r0_1 : Rect S16x1024 := Rect.unit (s := S16x1024) ![0, 0] S16x1024.size inb_S16x1024_S16x1024_0_0
abbrev r0_2 : Rect S2048x1024 := Rect.unit (s := S2048x1024) ![0, 0] S2048x1024.size inb_S2048x1024_S2048x1024_0_0

/-! ## What the body leaves in the output's buffer -/

/-- The output tile after the body, from the two operand blocks: the one store, of their product. -/
def out0_2 (x0 : Vec F S16x2048 .bf16) (x1 : Vec F S16x1024 .bf16) : Vec F S2048x1024 .f32 :=
  View.canon [⟨r0_2, k0_pay1 (View.ld x0 r0_0) (View.ld x1 r0_1)⟩]

/-- The one store covers the whole tile. -/
theorem cover0_2 (p0 : Vec F S2048x1024 .f32) (y : S2048x1024.Idx) :
    ∃ pc ∈ ([⟨r0_2, p0⟩] : List (View.Piece (Elt F) S2048x1024 .f32)), y ∈ pc.1.set :=
  View.cover_of_tiled [⟨r0_2, p0⟩] S2048x1024.size (by rfl) y

/-! ## The body's triple -/

set_option maxHeartbeats 1000000 in
/-- On whole staging buffers, the operands' at contents `x0`, `x1` and the output's at anything, the body runs to
    the operands' as they were and the output's at `out0_2 x0 x1`. -/
theorem sound_kernel (c : Dev nD) (E : Set ℕ) (i : grid0.Coords) (arg2 : Memref sig .tc .vmem S16x2048 .bf16) (harg2 : arg2.IsWhole) (arg3 : Memref sig .tc .vmem S16x1024 .bf16) (harg3 : arg3.IsWhole) (arg4 : Memref sig .tc .vmem S2048x1024 .f32) (harg4 : arg4.IsWhole)
    (x0 : Vec F S16x2048 .bf16) (x1 : Vec F S16x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each operand's buffer at its
    block and the output's at the product of the two blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each operand's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters: every weakly fair execution of the program on the TensorCores terminates,
    every final state has every array of the pipeline at what the proof data compute and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.FrameIdeal.lean ====
/-
  The frame of the tiled outer product.  The program first forms, on the host, the 16 × 16 matrices and the two
  bf16 operand arrays; none of those steps writes an argument array.  It then runs one pipelined region over a
  4 × 8 grid of tiles: at tile (i, j) the body reads the 16 × 2048 block i of the left operand and the 16 × 1024
  block j of the right operand, contracts them over their sixteen rows, and stores the 2048 × 1024 product as
  block (i, j) of the output.  Every weakly fair execution terminates, the output array ends holding, tile by
  tile, that product of the operand blocks, and the seven argument arrays end as they began.
-/
import proofs.«119959_j15496242004747_1_alg».proof.Proof.Gen.KernelIdeal.Launch
import proofs.«119959_j15496242004747_1_alg».proof.Proof.Gen.KernelIdeal.Skeleton
import proofs.«119959_j15496242004747_1_alg».proof.Proof.Gen.KernelIdeal.Points
import Idealize.ShloMosaic.Lib.Pipeline.FrameBody
import Idealize.ShloMosaic.Lib.Ring
import Idealize.ShloMosaic.Lib.Tactic

-- membership in a rectangle of 2048 × 1024 coordinates is decided by a recursion one level per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host steps before the region -/

/-- Core `c`'s buffers when the region is entered: the launch contents after all the host steps, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) b

/-! None of the host steps allocates: each writes a value computed from buffers already written. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

/-- The program up to the region: the host steps, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point, fetched there or not (between fetches the
    block index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The right operand's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- No window stages an argument array, so each ends as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses: each staging buffer whole -/

abbrev r0_0 : Rect S16x2048 := Rect.unit (s := S16x2048) ![0, 0] S16x2048.size inb_S16x2048_S16x2048_0_0
abbrev r0_1 : Rect S16x1024 := Rect.unit (s := S16x1024) ![0, 0] S16x1024.size inb_S16x1024_S16x1024_0_0
abbrev r0_2 : Rect S2048x1024 := Rect.unit (s := S2048x1024) ![0, 0] S2048x1024.size inb_S2048x1024_S2048x1024_0_0

/-! ## What the body leaves in the output's buffer -/

/-- The output tile after the body, from the two operand blocks: the one store, of their product. -/
def out0_2 (x0 : Vec F S16x2048 .bf16) (x1 : Vec F S16x1024 .bf16) : Vec F S2048x1024 .f32 :=
  View.canon [⟨r0_2, k0_pay1 (View.ld x0 r0_0) (View.ld x1 r0_1)⟩]

/-- The one store covers the whole tile. -/
theorem cover0_2 (p0 : Vec F S2048x1024 .f32) (y : S2048x1024.Idx) :
    ∃ pc ∈ ([⟨r0_2, p0⟩] : List (View.Piece (Elt F) S2048x1024 .f32)), y ∈ pc.1.set :=
  View.cover_of_tiled [⟨r0_2, p0⟩] S2048x1024.size (by rfl) y

/-! ## The body's triple -/

set_option maxHeartbeats 1000000 in
/-- On whole staging buffers, the operands' at contents `x0`, `x1` and the output's at anything, the body runs to
    the operands' as they were and the output's at `out0_2 x0 x1`. -/
theorem sound_kernel (c : Dev nD) (E : Set ℕ) (i : grid0.Coords) (arg2 : Memref sig .tc .vmem S16x2048 .bf16) (harg2 : arg2.IsWhole) (arg3 : Memref sig .tc .vmem S16x1024 .bf16) (harg3 : arg3.IsWhole) (arg4 : Memref sig .tc .vmem S2048x1024 .f32) (harg4 : arg4.IsWhole)
    (x0 : Vec F S16x2048 .bf16) (x1 : Vec F S16x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each operand's buffer at its
    block and the output's at the product of the two blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each operand's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters: every weakly fair execution of the program on the TensorCores terminates,
    every final state has every array of the pipeline at what the proof data compute and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.BlockValue.lean ====
/-
  The kernel's result array as one function of the two arrays its windows read.

  The launch walks a 4 × 8 grid.  At the point (a, b) the body is handed columns 2048·a … 2048·a + 2047 of the first
  array (all sixteen rows) and columns 1024·b … 1024·b + 1023 of the second, and leaves in its output block the
  2048 × 1024 matrix of the sums ∑ₖ first[k, p] · second[k, q] over the sixteen rows k: a matrix product contracted on
  the leading axis of both operands, started from zero.  That block is written back at rows 2048·a …, columns 1024·b …
  of the result.  The thirty-two blocks tile the 8192 × 8192 result, so entry (i, j) of the result is the sum over k
  of first[k, i] · second[k, j].
-/
import proofs.«119959_j15496242004747_1_alg».proof.Proof.FrameIdeal
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry (i, j) of the result: the sum over the sixteen rows k of first[k, i] · second[k, j]. -/
def colProducts (a0 a1 : S16x8192.Idx → EReal) : S8192x8192.Idx → EReal :=
  fun i => ∑ k : Fin 16, a0 (ix2 k (i 0)) * a1 (ix2 k (i 1))

/-! ## One block -/

abbrev blockDot := dot_S16x2048_S16x1024_S2048x1024_0_0_1_1_n_n

theorem blockDot_rank : blockDot.contr.rank = 1 := rfl
theorem blockDot_size : blockDot.contr.size ⟨0, by decide⟩ = 16 := rfl

/-- The body's stored value at (p, q): the sum over the sixteen rows of the two loaded blocks' entries. -/
theorem payload_apply (x0 : FVec Ideal S16x2048 .bf16) (x1 : FVec Ideal S16x1024 .bf16) (p : Fin 2048) (q : Fin 1024) :
    k0_pay1 (F := Ideal) x0 x1 (ix2 p q) = ∑ k : Fin 16, x0 (ix2 k p) * x1 (ix2 k q) := by
  unfold k0_pay1
  simp only [shapeCast_self]
  refine (Ideal.matmul_constant_zero_apply (φ₁ := .bf16) (φ₂ := .bf16) blockDot none x0 x1 (ix2 p q)).trans ?_
  rw [← Equiv.sum_comp (contrEquiv1 blockDot 16 blockDot_rank blockDot_size).symm]
  refine Finset.sum_congr rfl fun k _ => ?_
  have hk := contrEquiv1_symm_val blockDot 16 blockDot_rank blockDot_size k
  congr 1
  · show x0 _ = x0 _
    refine congrArg x0 (funext fun a => Fin.ext ?_)
    match a with
    | ⟨0, _⟩ => exact (DotDims.lhsIdx_val_of_single blockDot rfl (ix2 p q) _).trans hk
    | ⟨1, _⟩ => rfl
  · show x1 _ = x1 _
    refine congrArg x1 (funext fun a => Fin.ext ?_)
    match a with
    | ⟨0, _⟩ => exact (DotDims.rhsIdx_val_of_single blockDot rfl (ix2 p q) _).trans hk
    | ⟨1, _⟩ => rfl

/-! ## From blocks to the array -/

theorem zeroOffset : (![0, 0] : Fin 2 → Nat) = fun _ => 0 := funext fun a => by fin_cases a <;> rfl

/-- Where the three windows' blocks sit at a grid point: the first input's block is at block column equal to the output's block
    row, the second input's at block column equal to the output's block column, both at block row zero; and the
    output's block row is below four, its block column below eight. -/
theorem blockPositions : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block position of the 4 × 8 tiling is some grid point's. -/
theorem everyBlock : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- The first input's block at a point, read at (k, p), is the first array at (k, 2048 · block row + p). -/
theorem firstBlock_apply (c : Dev nD) (t : Fin cfg0.N) (k : Fin 16) (p : Fin 2048) (i0 : Fin 8192)
    (h : i0.val = win0_2.index t (0 : Fin 2) * 2048 + p.val) :
    iblk m c 0 t (ix2 k p) = V m c main_v80 (ix2 k i0) := by
  obtain ⟨e0, e1, -, -, -, -⟩ := blockPositions t
  show V m c main_v80 (((cfg0.win 0).blk t).view.emb (ix2 k p)) = V m c main_v80 (ix2 k i0)
  refine congrArg (V m c main_v80) (funext fun a => Fin.ext ?_)
  match a with
  | ⟨0, _⟩ => show win0_0.index t (0 : Fin 2) * 16 + 1 * k.val = k.val; omega
  | ⟨1, _⟩ => show win0_0.index t (1 : Fin 2) * 2048 + 1 * p.val = i0.val; omega

/-- The second input's block at a point, read at (k, q), is the second array at (k, 1024 · block column + q). -/
theorem secondBlock_apply (c : Dev nD) (t : Fin cfg0.N) (k : Fin 16) (q : Fin 1024) (i1 : Fin 8192)
    (h : i1.val = win0_2.index t (1 : Fin 2) * 1024 + q.val) :
    iblk m c 1 t (ix2 k q) = V m c main_v82 (ix2 k i1) := by
  obtain ⟨-, -, e2, e3, -, -⟩ := blockPositions t
  show V m c main_v82 (((cfg0.win 1).blk t).view.emb (ix2 k q)) = V m c main_v82 (ix2 k i1)
  refine congrArg (V m c main_v82) (funext fun a => Fin.ext ?_)
  match a with
  | ⟨0, _⟩ => show win0_1.index t (0 : Fin 2) * 16 + 1 * k.val = k.val; omega
  | ⟨1, _⟩ => show win0_1.index t (1 : Fin 2) * 1024 + 1 * q.val = i1.val; omega

/-- What a grid point writes back is its block of the array of column products. -/
theorem flushed_eq (c : Dev nD) (t : Fin cfg0.N) :
    (dats m 0 c).flushed 2 t
      = ((cfg0.win 2).blk t).view.read (Elt Ideal) (colProducts (V m c main_v80) (V m c main_v82)) := by
  show (cfg0.win 2).cut (grid0.coords t) ((dats m 0 c).after 2 t) = _
  rw [after0_2]
  unfold out0_2
  rw [View.canon_unit_zero zeroOffset]
  simp only [View.ld_unit_zero (S := S16x2048) zeroOffset, View.ld_unit_zero (S := S16x1024) zeroOffset]
  funext j
  obtain ⟨p, q, rfl⟩ : ∃ (p : Fin 2048) (q : Fin 1024), j = ix2 p q := ⟨j 0, j 1, eq_ix2 j⟩
  show k0_pay1 (F := Ideal) (iblk m c 0 t) (iblk m c 1 t) (ix2 p q)
    = colProducts (V m c main_v80) (V m c main_v82) (((cfg0.win 2).blk t).view.emb (ix2 p q))
  refine (payload_apply (iblk m c 0 t) (iblk m c 1 t) p q).trans ?_
  obtain ⟨-, -, -, -, b0, b1⟩ := blockPositions t
  have h0 : ((((cfg0.win 2).blk t).view.emb (ix2 p q)) 0).val = win0_2.index t (0 : Fin 2) * 2048 + p.val := by
    show win0_2.index t (0 : Fin 2) * 2048 + 1 * p.val = _; omega
  have h1 : ((((cfg0.win 2).blk t).view.emb (ix2 p q)) 1).val = win0_2.index t (1 : Fin 2) * 1024 + q.val := by
    show win0_2.index t (1 : Fin 2) * 1024 + 1 * q.val = _; omega
  unfold colProducts
  refine Finset.sum_congr rfl fun k _ => ?_
  rw [firstBlock_apply m c t k p _ h0, secondBlock_apply m c t k q _ h1]

/-- An index of the result is in a point's block iff each coordinate is in the block's range on its axis. -/
theorem mem_block (t : Fin cfg0.N) (i : S8192x8192.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v83).slice (win0_2.rect t)).set ↔ _
  rw [View.set_slice_whole, Rect.mem_set_unit]
  exact Iff.rfl

/-- The thirty-two blocks cover the result: entry (i, j) lies in the block at (i / 2048, j / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := everyBlock ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The result array after the launch: the column products of the two arrays the windows read. -/
theorem result_eq (c : Dev nD) :
    (dats m 0 c).arrAt 2 cfg0.N = colProducts (V m c main_v80) (V m c main_v82) :=
  (dats m 0 c).arrAt_eq_of_cover 2 (colProducts (V m c main_v80) (V m c main_v82)) (fun t _ => flushed_eq m c t) covered

end Cert.KernelIdeal.BlockValue

end
-- ==== Proof.Spec.lean ====
/-
  The mathematics both programs compute, stated once.

  Six angles θ₁ … θ₆ give six plane rotations R(θ) = [[cos θ/2, −sin θ/2], [sin θ/2, cos θ/2]].  With X the bit flip,
  I the 2×2 identity, C the controlled-not on two qubits (a 4×4 permutation matrix) and Z = diag(1, −1), five 16×16
  layers are Kronecker products
      L₁ = X ⊗ X ⊗ R(θ₁) ⊗ R(θ₂),   L₂ = R(θ₃) ⊗ R(θ₄) ⊗ C,   L₃ = C ⊗ I ⊗ R(θ₅),   L₄ = I ⊗ R(θ₆) ⊗ I ⊗ I,
  and L₅ is I ⊗ I ⊗ C with two pairs of its eight binary axes exchanged.  The circuit is U = L₅ (L₄ (L₃ (L₂ L₁))) and
  the observable is M = I ⊗ I ⊗ I ⊗ Z.  For a 16 × 8192 array x of state columns the result is the 8192 × 8192 array
      out = (U x)ᵀ (M (U x)).
  One side forms it in that order; the other forms W = Uᵀ (M U) first, then β = W x, and then xᵀ β.  A Kronecker
  product a ⊗ b of an m×m and an n×n matrix is formed as the (m, n, m, n) array a[i, k] · b[j, l] read as an
  (mn) × (mn) matrix in row-major order.
-/
import proofs.«119959_j15496242004747_1_alg».proof.Proof.Gen.ReferenceIdeal
import Idealize.ShloMosaic.Lib.ValueIdx

noncomputable section

namespace Cert.QOuter

open Idealize.ShloMosaic Cert.ReferenceIdeal Cert.ReferenceIdeal.Facts₀

variable {F : FTy → Type} [FloatOps F]

/-- A 16 × 16 array transposes to a 16 × 16 array. -/
theorem transposes16 : S16x16.Transposes [1, 0] S16x16 := by decide

/-! ## The constant matrices -/

/-- The bit flip X = [[0, 1], [1, 0]]. -/
def matX : FVec F S2x2 .f32 := fun i => FloatOps.ofBits .f32 (lit0 (S2x2.rowMajor i))
/-- The controlled-not C on two qubits. -/
def matC : FVec F S4x4 .f32 := fun i => FloatOps.ofBits .f32 (lit1 (S4x4.rowMajor i))
/-- The 2 × 2 identity. -/
def matI : FVec F S2x2 .f32 := fun i => FloatOps.ofBits .f32 (lit2 (S2x2.rowMajor i))
/-- Z = diag(1, −1). -/
def matZ : FVec F S2x2 .f32 := fun i => FloatOps.ofBits .f32 (lit3 (S2x2.rowMajor i))

/-! ## A rotation -/

/-- Half the angle: θ / 2. -/
def half (θ : FVec F S1 .f32) : FVec F S1 .f32 :=
  Host.divf θ (broadcastInDim S1 ![] bcast_S_S1 (constant S_ .f32 0x40000000#32))

/-- The four entries cos θ/2, −sin θ/2, sin θ/2, cos θ/2 in a row. -/
def ryFlat (θ : FVec F S1 .f32) : FVec F S4 .f32 :=
  concatenate S4 0 [⟨S1, Host.cos (half θ)⟩, ⟨S1, Host.negf (Host.sin (half θ))⟩, ⟨S1, Host.sin (half θ)⟩, ⟨S1, Host.cos (half θ)⟩]
    concatenates_S1_S1_S1_S1_S4_d0

/-- The rotation R(θ) = [[cos θ/2, −sin θ/2], [sin θ/2, cos θ/2]]. -/
def ry (θ : FVec F S1 .f32) : FVec F S2x2 .f32 := shapeCast S2x2 (ryFlat θ) shapeCasts_S4_S2x2

/-! ## Kronecker products -/

/-- a ⊗ b for 2×2 and 2×2. -/
def kron22 (a b : FVec F S2x2 .f32) : FVec F S4x4 .f32 :=
  shapeCast S4x4 (mulf (broadcastInDim S2x2x2x2 ![0, 1, 2, 3] bcast_S2x1x2x1_S2x2x2x2_0_1_2_3 (broadcastInDim S2x1x2x1 ![0, 2] bcast_S2x2_S2x1x2x1_0_2 a))
    (broadcastInDim S2x2x2x2 ![0, 1, 2, 3] bcast_S1x2x1x2_S2x2x2x2_0_1_2_3 (broadcastInDim S1x2x1x2 ![1, 3] bcast_S2x2_S1x2x1x2_1_3 b))) shapeCasts_S2x2x2x2_S4x4

/-- a ⊗ b for 4×4 and 2×2. -/
def kron42 (a : FVec F S4x4 .f32) (b : FVec F S2x2 .f32) : FVec F S8x8 .f32 :=
  shapeCast S8x8 (mulf (broadcastInDim S4x2x4x2 ![0, 1, 2, 3] bcast_S4x1x4x1_S4x2x4x2_0_1_2_3 (broadcastInDim S4x1x4x1 ![0, 2] bcast_S4x4_S4x1x4x1_0_2 a))
    (broadcastInDim S4x2x4x2 ![0, 1, 2, 3] bcast_S1x2x1x2_S4x2x4x2_0_1_2_3 (broadcastInDim S1x2x1x2 ![1, 3] bcast_S2x2_S1x2x1x2_1_3 b))) shapeCasts_S4x2x4x2_S8x8

/-- a ⊗ b for 8×8 and 2×2. -/
def kron82 (a : FVec F S8x8 .f32) (b : FVec F S2x2 .f32) : FVec F S16x16 .f32 :=
  shapeCast S16x16 (mulf (broadcastInDim S8x2x8x2 ![0, 1, 2, 3] bcast_S8x1x8x1_S8x2x8x2_0_1_2_3 (broadcastInDim S8x1x8x1 ![0, 2] bcast_S8x8_S8x1x8x1_0_2 a))
    (broadcastInDim S8x2x8x2 ![0, 1, 2, 3] bcast_S1x2x1x2_S8x2x8x2_0_1_2_3 (broadcastInDim S1x2x1x2 ![1, 3] bcast_S2x2_S1x2x1x2_1_3 b))) shapeCasts_S8x2x8x2_S16x16

/-- a ⊗ b for 4×4 and 4×4. -/
def kron44 (a b : FVec F S4x4 .f32) : FVec F S16x16 .f32 :=
  shapeCast S16x16 (mulf (broadcastInDim S4x4x4x4 ![0, 1, 2, 3] bcast_S4x1x4x1_S4x4x4x4_0_1_2_3 (broadcastInDim S4x1x4x1 ![0, 2] bcast_S4x4_S4x1x4x1_0_2 a))
    (broadcastInDim S4x4x4x4 ![0, 1, 2, 3] bcast_S1x4x1x4_S4x4x4x4_0_1_2_3 (broadcastInDim S1x4x1x4 ![1, 3] bcast_S4x4_S1x4x1x4_1_3 b))) shapeCasts_S4x4x4x4_S16x16

/-! ## The layers, the circuit and the observable -/

/-- L₁ = X ⊗ X ⊗ R(θ₁) ⊗ R(θ₂). -/
def layer1 (θ1 θ2 : FVec F S1 .f32) : FVec F S16x16 .f32 := kron82 (kron42 (kron22 matX matX) (ry θ1)) (ry θ2)
/-- L₂ = R(θ₃) ⊗ R(θ₄) ⊗ C. -/
def layer2 (θ3 θ4 : FVec F S1 .f32) : FVec F S16x16 .f32 := kron44 (kron22 (ry θ3) (ry θ4)) matC
/-- L₃ = C ⊗ I ⊗ R(θ₅). -/
def layer3 (θ5 : FVec F S1 .f32) : FVec F S16x16 .f32 := kron82 (kron42 matC matI) (ry θ5)
/-- L₄ = I ⊗ R(θ₆) ⊗ I ⊗ I. -/
def layer4 (θ6 : FVec F S1 .f32) : FVec F S16x16 .f32 := kron82 (kron42 (kron22 matI (ry θ6)) matI) matI
/-- L₅: I ⊗ I ⊗ C read as a 2⁸ array, binary axes 1 ↔ 2 and 5 ↔ 6 exchanged, read back as 16 × 16. -/
def layer5 : FVec F S16x16 .f32 :=
  shapeCast S16x16
    (transpose S2x2x2x2x2x2x2x2 [0, 1, 2, 3, 4, 6, 5, 7]
      (transpose S2x2x2x2x2x2x2x2 [0, 2, 1, 3, 4, 5, 6, 7]
        (shapeCast S2x2x2x2x2x2x2x2 (kron44 (kron22 matI matI) matC) shapeCasts_S16x16_S2x2x2x2x2x2x2x2)
        transposes_S2x2x2x2x2x2x2x2_S2x2x2x2x2x2x2x2_0_2_1_3_4_5_6_7)
      transposes_S2x2x2x2x2x2x2x2_S2x2x2x2x2x2x2x2_0_1_2_3_4_6_5_7)
    shapeCasts_S2x2x2x2x2x2x2x2_S16x16

/-- The product of two 16 × 16 matrices. -/
def mm16 (a b : FVec F S16x16 .f32) : FVec F S16x16 .f32 := Host.dotGeneral dot_S16x16_S16x16_S16x16_1_0_0_1_n_n none a b
/-- A 16 × 16 matrix applied to the 16 × 8192 array of state columns. -/
def mmX (a : FVec F S16x16 .f32) (x : FVec F S16x8192 .f32) : FVec F S16x8192 .f32 :=
  Host.dotGeneral dot_S16x16_S16x8192_S16x8192_1_0_0_1_n_n none a x

/-- The circuit U = L₅ (L₄ (L₃ (L₂ L₁))). -/
def circuit (θ1 θ2 θ3 θ4 θ5 θ6 : FVec F S1 .f32) : FVec F S16x16 .f32 :=
  mm16 layer5 (mm16 (layer4 θ6) (mm16 (layer3 θ5) (mm16 (layer2 θ3 θ4) (layer1 θ1 θ2))))

/-- The observable M = I ⊗ I ⊗ I ⊗ Z. -/
def observable : FVec F S16x16 .f32 := kron82 (kron42 (kron22 matI matI) matI) matZ

/-! ## The two orders of evaluation -/

/-- (U x)ᵀ (M (U x)): the amplitudes α = U x first. -/
def amplitudesFirst (U M : FVec F S16x16 .f32) (x : FVec F S16x8192 .f32) : FVec F S8192x8192 .f32 :=
  Host.dotGeneral dot_S8192x16_S16x8192_S8192x8192_1_0_0_1_n_n none
    (transpose S8192x16 [1, 0] (mmX U x) transposes_S16x8192_S8192x16_1_0) (mmX M (mmX U x))

/-- W = Uᵀ (M U): the 16 × 16 matrix folded first. -/
def folded (U M : FVec F S16x16 .f32) : FVec F S16x16 .f32 := mm16 (transpose S16x16 [1, 0] U transposes16) (mm16 M U)

/-- β = W x. -/
def foldedColumns (U M : FVec F S16x16 .f32) (x : FVec F S16x8192 .f32) : FVec F S16x8192 .f32 := mmX (folded U M) x

/-- xᵀ β, entry by entry: out[i, j] = ∑ₖ x[k, i] · β[k, j] over the sixteen state components. -/
def outerSum (x β : FVec Ideal S16x8192 .f32) : FVec Ideal S8192x8192 .f32 :=
  fun i => ∑ k : Fin 16, x (ValueIdx.ix2 k (i 0)) * β (ValueIdx.ix2 k (i 1))

/-! ## Finiteness -/

/-- Every entry of an array of extended reals is a real number. -/
def AllReal {ι : Type} (v : ι → EReal) : Prop := ∀ i, ∃ r : ℝ, v i = (r : EReal)

end Cert.QOuter

end
-- ==== Proof.HostStages.lean ====
/-
  What the launch finds in the two arrays its input windows read.

  Before the launch the host forms, from the six angles, the 16 × 16 circuit matrix U (five Kronecker layers
  multiplied together), the observable M, the folded matrix W = Uᵀ (M U), and β = W x; the first window reads x and the
  second reads β, each after a change of float format that does nothing to an exact value.  The host's operations
  come in twenty-two stretches; the first eighteen end with U, the last four form M, W and β.  This module reads
  each of the two stages by itself.
-/
import proofs.«119959_j15496242004747_1_alg».proof.Proof.Gen.KernelIdeal.Launch
import proofs.«119959_j15496242004747_1_alg».proof.Proof.Spec
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.ShloMosaic.StableHlo

/-- The stretches that end with the circuit matrix U. -/
abbrev stage1 : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]
/-- The stretches that form the observable, the folded matrix and the second window's array. -/
abbrev stage2 : List (HloOp τ sig (Elt Ideal)) := List.flatten [hostOps0_18, hostOps0_19, hostOps0_20, hostOps0_21]

/-- All the host's operations before the launch are the two stages in turn. -/
theorem all_eq : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (HloOp τ sig (Elt Ideal))) = stage1 ++ stage2 := by
  simp only [stage1, stage2, List.flatten_cons, List.flatten_nil, List.append_assoc, List.append_nil]

/-! ## After the first stage -/

set_option maxHeartbeats 4000000 in
/-- The first stage leaves the circuit matrix of the six angles. -/
theorem stage1_circuit (V0 : Valuation τ sig (Elt Ideal)) :
    after stage1 V0 (no_index (Proc.devRef .tc main_v73)) =
      Cert.QOuter.circuit (F := Ideal) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) := by
  simp only [stage1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp
  rfl

set_option maxHeartbeats 4000000 in
/-- … the 2 × 2 identity table, -/
theorem stage1_matI (V0 : Valuation τ sig (Elt Ideal)) :
    after stage1 V0 (no_index (Proc.devRef .tc main_cst_1)) = Cert.QOuter.matI (F := Ideal) := by
  simp only [stage1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp
  rfl

set_option maxHeartbeats 4000000 in
/-- … the table of Z, -/
theorem stage1_matZ (V0 : Valuation τ sig (Elt Ideal)) :
    after stage1 V0 (no_index (Proc.devRef .tc main_cst_2)) = Cert.QOuter.matZ (F := Ideal) := by
  simp only [stage1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp
  rfl

set_option maxHeartbeats 4000000 in
/-- … and the state columns untouched. -/
theorem stage1_x (V0 : Valuation τ sig (Elt Ideal)) :
    after stage1 V0 (no_index (Proc.devRef .tc main_arg0)) = V0 (Proc.devRef .tc main_arg0) := by
  simp only [stage1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results_simp

/-! ## After the second stage -/

set_option maxHeartbeats 4000000 in
/-- The first window's array is the state columns (the change of format is the identity on exact values). -/
theorem stage2_x (W : Valuation τ sig (Elt Ideal)) :
    after stage2 W (no_index (Proc.devRef .tc main_v80)) = (W (Proc.devRef .tc main_arg0) : S16x8192.Idx → EReal) := by
  simp only [stage2, hostOps0_18, hostOps0_19, hostOps0_20, hostOps0_21, List.flatten_cons, List.flatten_nil, List.append_nil, List.cons_append, List.nil_append]
  after_results_simp
  rfl

set_option maxHeartbeats 4000000 in
/-- The second window's array is β = (Uᵀ (M U)) x, with M the Kronecker product of three identities and Z. -/
theorem stage2_beta (W : Valuation τ sig (Elt Ideal)) :
    after stage2 W (no_index (Proc.devRef .tc main_v82)) =
      (Cert.QOuter.foldedColumns (F := Ideal) (W (Proc.devRef .tc main_v73))
        (Cert.QOuter.kron82 (Cert.QOuter.kron42 (Cert.QOuter.kron22 (W (Proc.devRef .tc main_cst_1)) (W (Proc.devRef .tc main_cst_1))) (W (Proc.devRef .tc main_cst_1))) (W (Proc.devRef .tc main_cst_2)))
        (W (Proc.devRef .tc main_arg0)) : S16x8192.Idx → EReal) := by
  simp only [stage2, hostOps0_18, hostOps0_19, hostOps0_20, hostOps0_21, List.flatten_cons, List.flatten_nil, List.append_nil, List.cons_append, List.nil_append]
  after_results_simp
  rfl

end Cert.KernelIdeal.HostVal

end
-- ==== Proof.HostValue.lean ====
/-
  What the launch finds in the two arrays its input windows read: the state columns x in the first, and in the second
  β = (Uᵀ (M U)) x, with U the circuit matrix of the six angle arguments and M the observable — the host's two stages
  of operations read one after the other.
-/
import proofs.«119959_j15496242004747_1_alg».proof.Proof.HostStages
import Idealize.ShloMosaic.Lib.Pipeline.Frame

set_option maxRecDepth 16384

noncomputable section

namespace Cert.KernelIdeal.HostVal

open Cert.KernelIdeal Cert.KernelIdeal.Gen Idealize.ShloMosaic Idealize.ShloMosaic.TcCoe Idealize.ShloMosaic.StableHlo

/-! ## What the launch finds -/

/-- The first window reads the state columns x. -/
theorem entry_x (V0 : Valuation τ sig (Elt Ideal)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) V0 (Proc.devRef .tc main_v80) = (V0 (Proc.devRef .tc main_arg0) : S16x8192.Idx → EReal) := by
  rw [all_eq, StableHlo.after_append]
  exact (stage2_x _).trans (stage1_x V0)

/-- The second window reads β = W x, with W folded from the circuit of the six angles and the observable. -/
theorem entry_beta (V0 : Valuation τ sig (Elt Ideal)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) V0 (Proc.devRef .tc main_v82) =
      (Cert.QOuter.foldedColumns (F := Ideal)
        (Cert.QOuter.circuit (F := Ideal) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)))
        (Cert.QOuter.observable (F := Ideal)) (V0 (Proc.devRef .tc main_arg0)) : S16x8192.Idx → EReal) := by
  rw [all_eq, StableHlo.after_append]
  refine (stage2_beta _).trans ?_
  rw [stage1_circuit, stage1_matI, stage1_matZ, stage1_x]
  rfl

end Cert.KernelIdeal.HostVal

end
-- ==== Proof.KernelRun.lean ====
/-
  The idealized kernel program, run: the host forms x and β = (Uᵀ (M U)) x from the arguments, the launch leaves
  in the result array the column products of x and β, and no argument is written.
-/
import proofs.«119959_j15496242004747_1_alg».proof.Proof.FrameIdeal
import proofs.«119959_j15496242004747_1_alg».proof.Proof.BlockValue
import proofs.«119959_j15496242004747_1_alg».proof.Proof.HostValue
import proofs.«119959_j15496242004747_1_alg».proof.Proof.Spec

set_option maxRecDepth 16384

noncomputable section

namespace Cert.KernelIdeal.KRun

open Cert.KernelIdeal Cert.KernelIdeal.Gen Cert.KernelIdeal.Fr Idealize.ShloMosaic Idealize.ShloMosaic.TcCoe Idealize.SL.Sem

variable (m : (ℓ : Loc nD τ sig) → Buf (Elt Ideal) ℓ) (ρ : Dev nD → PrngReg)

/-- The result array as the specification writes it: the column products of the state columns and β, with β
    folded from the circuit of the six angle arguments and the observable. -/
theorem value_eq (c : Dev nD) :
    BlockValue.colProducts (V m c main_v80) (V m c main_v82)
      = Cert.QOuter.outerSum (m ((c.tc : Thread nD τ).loc main_arg0))
          (Cert.QOuter.foldedColumns (F := Ideal)
            (Cert.QOuter.circuit (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
            (Cert.QOuter.observable (F := Ideal)) (m ((c.tc : Thread nD τ).loc main_arg0))) := by
  have hx := HostVal.entry_x (fun b => m (c, b))
  have hβ := HostVal.entry_beta (fun b => m (c, b))
  show BlockValue.colProducts (StableHlo.after _ (fun b => m (c, b)) (Proc.devRef .tc main_v80))
      (StableHlo.after _ (fun b => m (c, b)) (Proc.devRef .tc main_v82)) = _
  rw [hx, hβ]
  rfl

/-- Every weakly fair execution of the idealized kernel program ends with the result array at the column products
    and the seven arguments as they were. -/
theorem run : θ_run defs (onTc (τ := τ) (main (F := Ideal))) ⟨m, fun _ => 0, ρ⟩ fun r => ∀ c : Dev nD,
      r.2.mem ((c.tc : Thread nD τ).loc main_v83)
        = Cert.QOuter.outerSum (m ((c.tc : Thread nD τ).loc main_arg0))
            (Cert.QOuter.foldedColumns (F := Ideal)
              (Cert.QOuter.circuit (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
              (Cert.QOuter.observable (F := Ideal)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 2).trans ((BlockValue.result_eq m c).trans (value_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KRun

end
-- ==== Proof.RefOps.lean ====
/-
  The reference program's @main read as a list of host operations, in order: each line of the program is one
  operation, each call of a Kronecker-product function is that function's six operations (two placements of the
  factors on interleaved axes, two broadcasts to the common shape, the entrywise product, the reading as a
  matrix) over the call's own buffers. Running the program is folding the operations' results over the
  contents the buffers had at launch.
-/
import proofs.«119959_j15496242004747_1_alg».proof.Proof.Gen.ReferenceIdeal
import Idealize.ShloMosaic.Lib.StableHlo.Run
import Idealize.ShloMosaic.Lib.Pipeline.Frame

set_option Elab.async false

noncomputable section

namespace Cert.ReferenceIdeal.Run

open Cert.ReferenceIdeal Cert.ReferenceIdeal.Facts₀ Idealize.ShloMosaic Idealize.ShloMosaic.TcCoe Idealize.SL.Sem Idealize.ShloMosaic.StableHlo

variable {F : FTy → Type} [FloatOps F]

/-- 15 operations: lines of @main (window 0). -/
abbrev seg0 : List (HloOp τ sig (Elt F)) :=
  [ StableHlo.nullary main_cst (fun i => FloatOps.ofBits .f32 (lit0 (S2x2.rowMajor i))),
    StableHlo.nullary main_cst_0 (fun i => FloatOps.ofBits .f32 (lit1 (S4x4.rowMajor i))),
    StableHlo.nullary main_cst_1 (fun i => FloatOps.ofBits .f32 (lit2 (S2x2.rowMajor i))),
    StableHlo.nullary main_cst_2 (fun i => FloatOps.ofBits .f32 (lit3 (S2x2.rowMajor i))),
    StableHlo.nullary main_cst_3 (constant S_ .f32 0x40000000#32),
    StableHlo.unary main_cst_3 main_v0 (broadcastInDim S1 ![] bcast_S_S1 : (⟨S_, .f32⟩ : BufTy).Contents (Elt F) → (⟨S1, .f32⟩ : BufTy).Contents (Elt F)),
    StableHlo.binary main_arg1 main_v0 main_v1 (Host.divf : (⟨S1, .f32⟩ : BufTy).Contents (Elt F) → (⟨S1, .f32⟩ : BufTy).Contents (Elt F) → (⟨S1, .f32⟩ : BufTy).Contents (Elt F)),
    StableHlo.unary main_v1 main_v2 (Host.cos : (⟨S1, .f32⟩ : BufTy).Contents (Elt F) → (⟨S1, .f32⟩ : BufTy).Contents (Elt F)),
    StableHlo.nullary main_cst_4 (constant S_ .f32 0x40000000#32),
    StableHlo.unary main_cst_4 main_v3 (broadcastInDim S1 ![] bcast_S_S1 : (⟨S_, .f32⟩ : BufTy).Contents (Elt F) → (⟨S1, .f32⟩ : BufTy).Contents (Elt F)),
    StableHlo.binary main_arg1 main_v3 main_v4 (Host.divf : (⟨S1, .f32⟩ : BufTy).Contents (Elt F) → (⟨S1, .f32⟩ : BufTy).Contents (Elt F) → (⟨S1, .f32⟩ : BufTy).Contents (Elt F)),
    StableHlo.unary main_v4 main_v5 (Host.sin : (⟨S1, .f32⟩ : BufTy).Contents (Elt F) → (⟨S1, .f32⟩ : BufTy).Contents (Elt F)),
    StableHlo.unary main_v5 main_v6 (Host.negf : (⟨S1, .f32⟩ : BufTy).Contents (Elt F) → (⟨S1, .f32⟩ : BufTy).Contents (Elt F)),
    StableHlo.nary ![main_v2, main_v6, main_v5, main_v2] main_v7 (fun u => concatenate S4 0 [⟨S1, u 0⟩, ⟨S1, u 1⟩, ⟨S1, u 2⟩, ⟨S1, u 3⟩] concatenates_S1_S1_S1_S1_S4_d0),
    StableHlo.reshape main_v7 main_v8 rfl shapeCasts_S4_S2x2 ]

/-- 6 operations: the six operations of main_call0 of @kron (window 0). -/
abbrev seg1 : List (HloOp τ sig (Elt F)) :=
  [ StableHlo.TRef.unary (.of main_cst : StableHlo.TRef sig ⟨S2x2, .f32⟩) (.of main_call0_v0 : StableHlo.TRef sig ⟨S2x1x2x1, .f32⟩) (broadcastInDim S2x1x2x1 ![0, 2] bcast_S2x2_S2x1x2x1_0_2),
    StableHlo.TRef.unary (.of main_cst : StableHlo.TRef sig ⟨S2x2, .f32⟩) (.of main_call0_v1 : StableHlo.TRef sig ⟨S1x2x1x2, .f32⟩) (broadcastInDim S1x2x1x2 ![1, 3] bcast_S2x2_S1x2x1x2_1_3),
    StableHlo.TRef.unary (.of main_call0_v0 : StableHlo.TRef sig ⟨S2x1x2x1, .f32⟩) (.of main_call0_v2 : StableHlo.TRef sig ⟨S2x2x2x2, .f32⟩) (broadcastInDim S2x2x2x2 ![0, 1, 2, 3] bcast_S2x1x2x1_S2x2x2x2_0_1_2_3),
    StableHlo.TRef.unary (.of main_call0_v1 : StableHlo.TRef sig ⟨S1x2x1x2, .f32⟩) (.of main_call0_v3 : StableHlo.TRef sig ⟨S2x2x2x2, .f32⟩) (broadcastInDim S2x2x2x2 ![0, 1, 2, 3] bcast_S1x2x1x2_S2x2x2x2_0_1_2_3),
    StableHlo.TRef.binary (.of main_call0_v2 : StableHlo.TRef sig ⟨S2x2x2x2, .f32⟩) (.of main_call0_v3 : StableHlo.TRef sig ⟨S2x2x2x2, .f32⟩) (.of main_call0_v4 : StableHlo.TRef sig ⟨S2x2x2x2, .f32⟩) mulf,
    StableHlo.TRef.reshape (.of main_call0_v4 : StableHlo.TRef sig ⟨S2x2x2x2, .f32⟩) (.of main_v9 : StableHlo.TRef sig ⟨S4x4, .f32⟩) rfl shapeCasts_S2x2x2x2_S4x4 ]

/-- 6 operations: the six operations of main_call1 of @kron_0 (window 0). -/
abbrev seg2 : List (HloOp τ sig (Elt F)) :=
  [ StableHlo.TRef.unary (.of main_v9 : StableHlo.TRef sig ⟨S4x4, .f32⟩) (.of main_call1_v0 : StableHlo.TRef sig ⟨S4x1x4x1, .f32⟩) (broadcastInDim S4x1x4x1 ![0, 2] bcast_S4x4_S4x1x4x1_0_2),
    StableHlo.TRef.unary (.of main_v8 : StableHlo.TRef sig ⟨S2x2, .f32⟩) (.of main_call1_v1 : StableHlo.TRef sig ⟨S1x2x1x2, .f32⟩) (broadcastInDim S1x2x1x2 ![1, 3] bcast_S2x2_S1x2x1x2_1_3),
    StableHlo.TRef.unary (.of main_call1_v0 : StableHlo.TRef sig ⟨S4x1x4x1, .f32⟩) (.of main_call1_v2 : StableHlo.TRef sig ⟨S4x2x4x2, .f32⟩) (broadcastInDim S4x2x4x2 ![0, 1, 2, 3] bcast_S4x1x4x1_S4x2x4x2_0_1_2_3),
    StableHlo.TRef.unary (.of main_call1_v1 : StableHlo.TRef sig ⟨S1x2x1x2, .f32⟩) (.of main_call1_v3 : StableHlo.TRef sig ⟨S4x2x4x2, .f32⟩) (broadcastInDim S4x2x4x2 ![0, 1, 2, 3] bcast_S1x2x1x2_S4x2x4x2_0_1_2_3),
    StableHlo.TRef.binary (.of main_call1_v2 : StableHlo.TRef sig ⟨S4x2x4x2, .f32⟩) (.of main_call1_v3 : StableHlo.TRef sig ⟨S4x2x4x2, .f32⟩) (.of main_call1_v4 : StableHlo.TRef sig ⟨S4x2x4x2, .f32⟩) mulf,
    StableHlo.TRef.reshape (.of main_call1_v4 : StableHlo.TRef sig ⟨S4x2x4x2, .f32⟩) (.of main_v10 : StableHlo.TRef sig ⟨S8x8, .f32⟩) rfl shapeCasts_S4x2x4x2_S8x8 ]

/-- 11 operations: lines of @main (window 0). -/
abbrev seg3 : List (HloOp τ sig (Elt F)) :=
  [ StableHlo.nullary main_cst_5 (constant S_ .f32 0x40000000#32),
    StableHlo.unary main_cst_5 main_v11 (broadcastInDim S1 ![] bcast_S_S1 : (⟨S_, .f32⟩ : BufTy).Contents (Elt F) → (⟨S1, .f32⟩ : BufTy).Contents (Elt F)),
    StableHlo.binary main_arg2 main_v11 main_v12 (Host.divf : (⟨S1, .f32⟩ : BufTy).Contents (Elt F) → (⟨S1, .f32⟩ : BufTy).Contents (Elt F) → (⟨S1, .f32⟩ : BufTy).Contents (Elt F)),
    StableHlo.unary main_v12 main_v13 (Host.cos : (⟨S1, .f32⟩ : BufTy).Contents (Elt F) → (⟨S1, .f32⟩ : BufTy).Contents (Elt F)),
    StableHlo.nullary main_cst_6 (constant S_ .f32 0x40000000#32),
    StableHlo.unary main_cst_6 main_v14 (broadcastInDim S1 ![] bcast_S_S1 : (⟨S_, .f32⟩ : BufTy).Contents (Elt F) → (⟨S1, .f32⟩ : BufTy).Contents (Elt F)),
    StableHlo.binary main_arg2 main_v14 main_v15 (Host.divf : (⟨S1, .f32⟩ : BufTy).Contents (Elt F) → (⟨S1, .f32⟩ : BufTy).Contents (Elt F) → (⟨S1, .f32⟩ : BufTy).Contents (Elt F)),
    StableHlo.unary main_v15 main_v16 (Host.sin : (⟨S1, .f32⟩ : BufTy).Contents (Elt F) → (⟨S1, .f32⟩ : BufTy).Contents (Elt F)),
    StableHlo.unary main_v16 main_v17 (Host.negf : (⟨S1, .f32⟩ : BufTy).Contents (Elt F) → (⟨S1, .f32⟩ : BufTy).Contents (Elt F)),
    StableHlo.nary ![main_v13, main_v17, main_v16, main_v13] main_v18 (fun u => concatenate S4 0 [⟨S1, u 0⟩, ⟨S1, u 1⟩, ⟨S1, u 2⟩, ⟨S1, u 3⟩] concatenates_S1_S1_S1_S1_S4_d0),
    StableHlo.reshape main_v18 main_v19 rfl shapeCasts_S4_S2x2 ]

/-- 6 operations: the six operations of main_call2 of @kron_1 (window 0). -/
abbrev seg4 : List (HloOp τ sig (Elt F)) :=
  [ StableHlo.TRef.unary (.of main_v10 : StableHlo.TRef sig ⟨S8x8, .f32⟩) (.of main_call2_v0 : StableHlo.TRef sig ⟨S8x1x8x1, .f32⟩) (broadcastInDim S8x1x8x1 ![0, 2] bcast_S8x8_S8x1x8x1_0_2),
    StableHlo.TRef.unary (.of main_v19 : StableHlo.TRef sig ⟨S2x2, .f32⟩) (.of main_call2_v1 : StableHlo.TRef sig ⟨S1x2x1x2, .f32⟩) (broadcastInDim S1x2x1x2 ![1, 3] bcast_S2x2_S1x2x1x2_1_3),
    StableHlo.TRef.unary (.of main_call2_v0 : StableHlo.TRef sig ⟨S8x1x8x1, .f32⟩) (.of main_call2_v2 : StableHlo.TRef sig ⟨S8x2x8x2, .f32⟩) (broadcastInDim S8x2x8x2 ![0, 1, 2, 3] bcast_S8x1x8x1_S8x2x8x2_0_1_2_3),
    StableHlo.TRef.unary (.of main_call2_v1 : StableHlo.TRef sig ⟨S1x2x1x2, .f32⟩) (.of main_call2_v3 : StableHlo.TRef sig ⟨S8x2x8x2, .f32⟩) (broadcastInDim S8x2x8x2 ![0, 1, 2, 3] bcast_S1x2x1x2_S8x2x8x2_0_1_2_3),
    StableHlo.TRef.binary (.of main_call2_v2 : StableHlo.TRef sig ⟨S8x2x8x2, .f32⟩) (.of main_call2_v3 : StableHlo.TRef sig ⟨S8x2x8x2, .f32⟩) (.of main_call2_v4 : StableHlo.TRef sig ⟨S8x2x8x2, .f32⟩) mulf,
    StableHlo.TRef.reshape (.of main_call2_v4 : StableHlo.TRef sig ⟨S8x2x8x2, .f32⟩) (.of main_v20 : StableHlo.TRef sig ⟨S16x16, .f32⟩) rfl shapeCasts_S8x2x8x2_S16x16 ]

/-- 11 operations: lines of @main (window 0). -/
abbrev seg5 : List (HloOp τ sig (Elt F)) :=
  [ StableHlo.nullary main_cst_7 (constant S_ .f32 0x40000000#32),
    StableHlo.unary main_cst_7 main_v21 (broadcastInDim S1 ![] bcast_S_S1 : (⟨S_, .f32⟩ : BufTy).Contents (Elt F) → (⟨S1, .f32⟩ : BufTy).Contents (Elt F)),
    StableHlo.binary main_arg3 main_v21 main_v22 (Host.divf : (⟨S1, .f32⟩ : BufTy).Contents (Elt F) → (⟨S1, .f32⟩ : BufTy).Contents (Elt F) → (⟨S1, .f32⟩ : BufTy).Contents (Elt F)),
    StableHlo.unary main_v22 main_v23 (Host.cos : (⟨S1, .f32⟩ : BufTy).Contents (Elt F) → (⟨S1, .f32⟩ : BufTy).Contents (Elt F)),
    StableHlo.nullary main_cst_8 (constant S_ .f32 0x40000000#32),
    StableHlo.unary main_cst_8 main_v24 (broadcastInDim S1 ![] bcast_S_S1 : (⟨S_, .f32⟩ : BufTy).Contents (Elt F) → (⟨S1, .f32⟩ : BufTy).Contents (Elt F)),
    StableHlo.binary main_arg3 main_v24 main_v25 (Host.divf : (⟨S1, .f32⟩ : BufTy).Contents (Elt F) → (⟨S1, .f32⟩ : BufTy).Contents (Elt F) → (⟨S1, .f32⟩ : BufTy).Contents (Elt F)),
    StableHlo.unary main_v25 main_v26 (Host.sin : (⟨S1, .f32⟩ : BufTy).Contents (Elt F) → (⟨S1, .f32⟩ : BufTy).Contents (Elt F)),
    StableHlo.unary main_v26 main_v27 (Host.negf : (⟨S1, .f32⟩ : BufTy).Contents (Elt F) → (⟨S1, .f32⟩ : BufTy).Contents (Elt F)),
    StableHlo.nary ![main_v23, main_v27, main_v26, main_v23] main_v28 (fun u => concatenate S4 0 [⟨S1, u 0⟩, ⟨S1, u 1⟩, ⟨S1, u 2⟩, ⟨S1, u 3⟩] concatenates_S1_S1_S1_S1_S4_d0),
    StableHlo.reshape main_v28 main_v29 rfl shapeCasts_S4_S2x2 ]

/-- 11 operations: lines of @main (window 0). -/
abbrev seg6 : List (HloOp τ sig (Elt F)) :=
  [ StableHlo.nullary main_cst_9 (constant S_ .f32 0x40000000#32),
    StableHlo.unary main_cst_9 main_v30 (broadcastInDim S1 ![] bcast_S_S1 : (⟨S_, .f32⟩ : BufTy).Contents (Elt F) → (⟨S1, .f32⟩ : BufTy).Contents (Elt F)),
    StableHlo.binary main_arg4 main_v30 main_v31 (Host.divf : (⟨S1, .f32⟩ : BufTy).Contents (Elt F) → (⟨S1, .f32⟩ : BufTy).Contents (Elt F) → (⟨S1, .f32⟩ : BufTy).Contents (Elt F)),
    StableHlo.unary main_v31 main_v32 (Host.cos : (⟨S1, .f32⟩ : BufTy).Contents (Elt F) → (⟨S1, .f32⟩ : BufTy).Contents (Elt F)),
    StableHlo.nullary main_cst_10 (constant S_ .f32 0x40000000#32),
    StableHlo.unary main_cst_10 main_v33 (broadcastInDim S1 ![] bcast_S_S1 : (⟨S_, .f32⟩ : BufTy).Contents (Elt F) → (⟨S1, .f32⟩ : BufTy).Contents (Elt F)),
    StableHlo.binary main_arg4 main_v33 main_v34 (Host.divf : (⟨S1, .f32⟩ : BufTy).Contents (Elt F) → (⟨S1, .f32⟩ : BufTy).Contents (Elt F) → (⟨S1, .f32⟩ : BufTy).Contents (Elt F)),
    StableHlo.unary main_v34 main_v35 (Host.sin : (⟨S1, .f32⟩ : BufTy).Contents (Elt F) → (⟨S1, .f32⟩ : BufTy).Contents (Elt F)),
    StableHlo.unary main_v35 main_v36 (Host.negf : (⟨S1, .f32⟩ : BufTy).Contents (Elt F) → (⟨S1, .f32⟩ : BufTy).Contents (Elt F)),
    StableHlo.nary ![main_v32, main_v36, main_v35, main_v32] main_v37 (fun u => concatenate S4 0 [⟨S1, u 0⟩, ⟨S1, u 1⟩, ⟨S1, u 2⟩, ⟨S1, u 3⟩] concatenates_S1_S1_S1_S1_S4_d0),
    StableHlo.reshape main_v37 main_v38 rfl shapeCasts_S4_S2x2 ]

/-- 6 operations: the six operations of main_call3 of @kron_2 (window 0). -/
abbrev seg7 : List (HloOp τ sig (Elt F)) :=
  [ StableHlo.TRef.unary (.of main_v29 : StableHlo.TRef sig ⟨S2x2, .f32⟩) (.of main_call3_v0 : StableHlo.TRef sig ⟨S2x1x2x1, .f32⟩) (broadcastInDim S2x1x2x1 ![0, 2] bcast_S2x2_S2x1x2x1_0_2),
    StableHlo.TRef.unary (.of main_v38 : StableHlo.TRef sig ⟨S2x2, .f32⟩) (.of main_call3_v1 : StableHlo.TRef sig ⟨S1x2x1x2, .f32⟩) (broadcastInDim S1x2x1x2 ![1, 3] bcast_S2x2_S1x2x1x2_1_3),
    StableHlo.TRef.unary (.of main_call3_v0 : StableHlo.TRef sig ⟨S2x1x2x1, .f32⟩) (.of main_call3_v2 : StableHlo.TRef sig ⟨S2x2x2x2, .f32⟩) (broadcastInDim S2x2x2x2 ![0, 1, 2, 3] bcast_S2x1x2x1_S2x2x2x2_0_1_2_3),
    StableHlo.TRef.unary (.of main_call3_v1 : StableHlo.TRef sig ⟨S1x2x1x2, .f32⟩) (.of main_call3_v3 : StableHlo.TRef sig ⟨S2x2x2x2, .f32⟩) (broadcastInDim S2x2x2x2 ![0, 1, 2, 3] bcast_S1x2x1x2_S2x2x2x2_0_1_2_3),
    StableHlo.TRef.binary (.of main_call3_v2 : StableHlo.TRef sig ⟨S2x2x2x2, .f32⟩) (.of main_call3_v3 : StableHlo.TRef sig ⟨S2x2x2x2, .f32⟩) (.of main_call3_v4 : StableHlo.TRef sig ⟨S2x2x2x2, .f32⟩) mulf,
    StableHlo.TRef.reshape (.of main_call3_v4 : StableHlo.TRef sig ⟨S2x2x2x2, .f32⟩) (.of main_v39 : StableHlo.TRef sig ⟨S4x4, .f32⟩) rfl shapeCasts_S2x2x2x2_S4x4 ]

/-- 6 operations: the six operations of main_call4 of @kron_3 (window 0). -/
abbrev seg8 : List (HloOp τ sig (Elt F)) :=
  [ StableHlo.TRef.unary (.of main_v39 : StableHlo.TRef sig ⟨S4x4, .f32⟩) (.of main_call4_v0 : StableHlo.TRef sig ⟨S4x1x4x1, .f32⟩) (broadcastInDim S4x1x4x1 ![0, 2] bcast_S4x4_S4x1x4x1_0_2),
    StableHlo.TRef.unary (.of main_cst_0 : StableHlo.TRef sig ⟨S4x4, .f32⟩) (.of main_call4_v1 : StableHlo.TRef sig ⟨S1x4x1x4, .f32⟩) (broadcastInDim S1x4x1x4 ![1, 3] bcast_S4x4_S1x4x1x4_1_3),
    StableHlo.TRef.unary (.of main_call4_v0 : StableHlo.TRef sig ⟨S4x1x4x1, .f32⟩) (.of main_call4_v2 : StableHlo.TRef sig ⟨S4x4x4x4, .f32⟩) (broadcastInDim S4x4x4x4 ![0, 1, 2, 3] bcast_S4x1x4x1_S4x4x4x4_0_1_2_3),
    StableHlo.TRef.unary (.of main_call4_v1 : StableHlo.TRef sig ⟨S1x4x1x4, .f32⟩) (.of main_call4_v3 : StableHlo.TRef sig ⟨S4x4x4x4, .f32⟩) (broadcastInDim S4x4x4x4 ![0, 1, 2, 3] bcast_S1x4x1x4_S4x4x4x4_0_1_2_3),
    StableHlo.TRef.binary (.of main_call4_v2 : StableHlo.TRef sig ⟨S4x4x4x4, .f32⟩) (.of main_call4_v3 : StableHlo.TRef sig ⟨S4x4x4x4, .f32⟩) (.of main_call4_v4 : StableHlo.TRef sig ⟨S4x4x4x4, .f32⟩) mulf,
    StableHlo.TRef.reshape (.of main_call4_v4 : StableHlo.TRef sig ⟨S4x4x4x4, .f32⟩) (.of main_v40 : StableHlo.TRef sig ⟨S16x16, .f32⟩) rfl shapeCasts_S4x4x4x4_S16x16 ]

/-- 7 operations: lines of @main (window 0). -/
abbrev seg9 : List (HloOp τ sig (Elt F)) :=
  [ StableHlo.nullary main_cst_11 (constant S_ .f32 0x40000000#32),
    StableHlo.unary main_cst_11 main_v41 (broadcastInDim S1 ![] bcast_S_S1 : (⟨S_, .f32⟩ : BufTy).Contents (Elt F) → (⟨S1, .f32⟩ : BufTy).Contents (Elt F)),
    StableHlo.binary main_arg5 main_v41 main_v42 (Host.divf : (⟨S1, .f32⟩ : BufTy).Contents (Elt F) → (⟨S1, .f32⟩ : BufTy).Contents (Elt F) → (⟨S1, .f32⟩ : BufTy).Contents (Elt F)),
    StableHlo.unary main_v42 main_v43 (Host.cos : (⟨S1, .f32⟩ : BufTy).Contents (Elt F) → (⟨S1, .f32⟩ : BufTy).Contents (Elt F)),
    StableHlo.nullary main_cst_12 (constant S_ .f32 0x40000000#32),
    StableHlo.unary main_cst_12 main_v44 (broadcastInDim S1 ![] bcast_S_S1 : (⟨S_, .f32⟩ : BufTy).Contents (Elt F) → (⟨S1, .f32⟩ : BufTy).Contents (Elt F)),
    StableHlo.binary main_arg5 main_v44 main_v45 (Host.divf : (⟨S1, .f32⟩ : BufTy).Contents (Elt F) → (⟨S1, .f32⟩ : BufTy).Contents (Elt F) → (⟨S1, .f32⟩ : BufTy).Contents (Elt F)) ]

/-- 4 operations: lines of @main (window 1). -/
abbrev seg10 : List (HloOp τ sig (Elt F)) :=
  [ StableHlo.unary main_v45 main_v46 (Host.sin : (⟨S1, .f32⟩ : BufTy).Contents (Elt F) → (⟨S1, .f32⟩ : BufTy).Contents (Elt F)),
    StableHlo.unary main_v46 main_v47 (Host.negf : (⟨S1, .f32⟩ : BufTy).Contents (Elt F) → (⟨S1, .f32⟩ : BufTy).Contents (Elt F)),
    StableHlo.nary ![main_v43, main_v47, main_v46, main_v43] main_v48 (fun u => concatenate S4 0 [⟨S1, u 0⟩, ⟨S1, u 1⟩, ⟨S1, u 2⟩, ⟨S1, u 3⟩] concatenates_S1_S1_S1_S1_S4_d0),
    StableHlo.reshape main_v48 main_v49 rfl shapeCasts_S4_S2x2 ]

/-- 6 operations: the six operations of main_call5 of @kron_4 (window 1). -/
abbrev seg11 : List (HloOp τ sig (Elt F)) :=
  [ StableHlo.TRef.unary (.of main_cst_0 : StableHlo.TRef sig ⟨S4x4, .f32⟩) (.of main_call5_v0 : StableHlo.TRef sig ⟨S4x1x4x1, .f32⟩) (broadcastInDim S4x1x4x1 ![0, 2] bcast_S4x4_S4x1x4x1_0_2),
    StableHlo.TRef.unary (.of main_cst_1 : StableHlo.TRef sig ⟨S2x2, .f32⟩) (.of main_call5_v1 : StableHlo.TRef sig ⟨S1x2x1x2, .f32⟩) (broadcastInDim S1x2x1x2 ![1, 3] bcast_S2x2_S1x2x1x2_1_3),
    StableHlo.TRef.unary (.of main_call5_v0 : StableHlo.TRef sig ⟨S4x1x4x1, .f32⟩) (.of main_call5_v2 : StableHlo.TRef sig ⟨S4x2x4x2, .f32⟩) (broadcastInDim S4x2x4x2 ![0, 1, 2, 3] bcast_S4x1x4x1_S4x2x4x2_0_1_2_3),
    StableHlo.TRef.unary (.of main_call5_v1 : StableHlo.TRef sig ⟨S1x2x1x2, .f32⟩) (.of main_call5_v3 : StableHlo.TRef sig ⟨S4x2x4x2, .f32⟩) (broadcastInDim S4x2x4x2 ![0, 1, 2, 3] bcast_S1x2x1x2_S4x2x4x2_0_1_2_3),
    StableHlo.TRef.binary (.of main_call5_v2 : StableHlo.TRef sig ⟨S4x2x4x2, .f32⟩) (.of main_call5_v3 : StableHlo.TRef sig ⟨S4x2x4x2, .f32⟩) (.of main_call5_v4 : StableHlo.TRef sig ⟨S4x2x4x2, .f32⟩) mulf,
    StableHlo.TRef.reshape (.of main_call5_v4 : StableHlo.TRef sig ⟨S4x2x4x2, .f32⟩) (.of main_v50 : StableHlo.TRef sig ⟨S8x8, .f32⟩) rfl shapeCasts_S4x2x4x2_S8x8 ]

/-- 6 operations: the six operations of main_call6 of @kron_1 (window 1). -/
abbrev seg12 : List (HloOp τ sig (Elt F)) :=
  [ StableHlo.TRef.unary (.of main_v50 : StableHlo.TRef sig ⟨S8x8, .f32⟩) (.of main_call6_v0 : StableHlo.TRef sig ⟨S8x1x8x1, .f32⟩) (broadcastInDim S8x1x8x1 ![0, 2] bcast_S8x8_S8x1x8x1_0_2),
    StableHlo.TRef.unary (.of main_v49 : StableHlo.TRef sig ⟨S2x2, .f32⟩) (.of main_call6_v1 : StableHlo.TRef sig ⟨S1x2x1x2, .f32⟩) (broadcastInDim S1x2x1x2 ![1, 3] bcast_S2x2_S1x2x1x2_1_3),
    StableHlo.TRef.unary (.of main_call6_v0 : StableHlo.TRef sig ⟨S8x1x8x1, .f32⟩) (.of main_call6_v2 : StableHlo.TRef sig ⟨S8x2x8x2, .f32⟩) (broadcastInDim S8x2x8x2 ![0, 1, 2, 3] bcast_S8x1x8x1_S8x2x8x2_0_1_2_3),
    StableHlo.TRef.unary (.of main_call6_v1 : StableHlo.TRef sig ⟨S1x2x1x2, .f32⟩) (.of main_call6_v3 : StableHlo.TRef sig ⟨S8x2x8x2, .f32⟩) (broadcastInDim S8x2x8x2 ![0, 1, 2, 3] bcast_S1x2x1x2_S8x2x8x2_0_1_2_3),
    StableHlo.TRef.binary (.of main_call6_v2 : StableHlo.TRef sig ⟨S8x2x8x2, .f32⟩) (.of main_call6_v3 : StableHlo.TRef sig ⟨S8x2x8x2, .f32⟩) (.of main_call6_v4 : StableHlo.TRef sig ⟨S8x2x8x2, .f32⟩) mulf,
    StableHlo.TRef.reshape (.of main_call6_v4 : StableHlo.TRef sig ⟨S8x2x8x2, .f32⟩) (.of main_v51 : StableHlo.TRef sig ⟨S16x16, .f32⟩) rfl shapeCasts_S8x2x8x2_S16x16 ]

/-- 11 operations: lines of @main (window 1). -/
abbrev seg13 : List (HloOp τ sig (Elt F)) :=
  [ StableHlo.nullary main_cst_13 (constant S_ .f32 0x40000000#32),
    StableHlo.unary main_cst_13 main_v52 (broadcastInDim S1 ![] bcast_S_S1 : (⟨S_, .f32⟩ : BufTy).Contents (Elt F) → (⟨S1, .f32⟩ : BufTy).Contents (Elt F)),
    StableHlo.binary main_arg6 main_v52 main_v53 (Host.divf : (⟨S1, .f32⟩ : BufTy).Contents (Elt F) → (⟨S1, .f32⟩ : BufTy).Contents (Elt F) → (⟨S1, .f32⟩ : BufTy).Contents (Elt F)),
    StableHlo.unary main_v53 main_v54 (Host.cos : (⟨S1, .f32⟩ : BufTy).Contents (Elt F) → (⟨S1, .f32⟩ : BufTy).Contents (Elt F)),
    StableHlo.nullary main_cst_14 (constant S_ .f32 0x40000000#32),
    StableHlo.unary main_cst_14 main_v55 (broadcastInDim S1 ![] bcast_S_S1 : (⟨S_, .f32⟩ : BufTy).Contents (Elt F) → (⟨S1, .f32⟩ : BufTy).Contents (Elt F)),
    StableHlo.binary main_arg6 main_v55 main_v56 (Host.divf : (⟨S1, .f32⟩ : BufTy).Contents (Elt F) → (⟨S1, .f32⟩ : BufTy).Contents (Elt F) → (⟨S1, .f32⟩ : BufTy).Contents (Elt F)),
    StableHlo.unary main_v56 main_v57 (Host.sin : (⟨S1, .f32⟩ : BufTy).Contents (Elt F) → (⟨S1, .f32⟩ : BufTy).Contents (Elt F)),
    StableHlo.unary main_v57 main_v58 (Host.negf : (⟨S1, .f32⟩ : BufTy).Contents (Elt F) → (⟨S1, .f32⟩ : BufTy).Contents (Elt F)),
    StableHlo.nary ![main_v54, main_v58, main_v57, main_v54] main_v59 (fun u => concatenate S4 0 [⟨S1, u 0⟩, ⟨S1, u 1⟩, ⟨S1, u 2⟩, ⟨S1, u 3⟩] concatenates_S1_S1_S1_S1_S4_d0),
    StableHlo.reshape main_v59 main_v60 rfl shapeCasts_S4_S2x2 ]

/-- 6 operations: the six operations of main_call7 of @kron_5 (window 1). -/
abbrev seg14 : List (HloOp τ sig (Elt F)) :=
  [ StableHlo.TRef.unary (.of main_cst_1 : StableHlo.TRef sig ⟨S2x2, .f32⟩) (.of main_call7_v0 : StableHlo.TRef sig ⟨S2x1x2x1, .f32⟩) (broadcastInDim S2x1x2x1 ![0, 2] bcast_S2x2_S2x1x2x1_0_2),
    StableHlo.TRef.unary (.of main_v60 : StableHlo.TRef sig ⟨S2x2, .f32⟩) (.of main_call7_v1 : StableHlo.TRef sig ⟨S1x2x1x2, .f32⟩) (broadcastInDim S1x2x1x2 ![1, 3] bcast_S2x2_S1x2x1x2_1_3),
    StableHlo.TRef.unary (.of main_call7_v0 : StableHlo.TRef sig ⟨S2x1x2x1, .f32⟩) (.of main_call7_v2 : StableHlo.TRef sig ⟨S2x2x2x2, .f32⟩) (broadcastInDim S2x2x2x2 ![0, 1, 2, 3] bcast_S2x1x2x1_S2x2x2x2_0_1_2_3),
    StableHlo.TRef.unary (.of main_call7_v1 : StableHlo.TRef sig ⟨S1x2x1x2, .f32⟩) (.of main_call7_v3 : StableHlo.TRef sig ⟨S2x2x2x2, .f32⟩) (broadcastInDim S2x2x2x2 ![0, 1, 2, 3] bcast_S1x2x1x2_S2x2x2x2_0_1_2_3),
    StableHlo.TRef.binary (.of main_call7_v2 : StableHlo.TRef sig ⟨S2x2x2x2, .f32⟩) (.of main_call7_v3 : StableHlo.TRef sig ⟨S2x2x2x2, .f32⟩) (.of main_call7_v4 : StableHlo.TRef sig ⟨S2x2x2x2, .f32⟩) mulf,
    StableHlo.TRef.reshape (.of main_call7_v4 : StableHlo.TRef sig ⟨S2x2x2x2, .f32⟩) (.of main_v61 : StableHlo.TRef sig ⟨S4x4, .f32⟩) rfl shapeCasts_S2x2x2x2_S4x4 ]

/-- 6 operations: the six operations of main_call8 of @kron_6 (window 1). -/
abbrev seg15 : List (HloOp τ sig (Elt F)) :=
  [ StableHlo.TRef.unary (.of main_v61 : StableHlo.TRef sig ⟨S4x4, .f32⟩) (.of main_call8_v0 : StableHlo.TRef sig ⟨S4x1x4x1, .f32⟩) (broadcastInDim S4x1x4x1 ![0, 2] bcast_S4x4_S4x1x4x1_0_2),
    StableHlo.TRef.unary (.of main_cst_1 : StableHlo.TRef sig ⟨S2x2, .f32⟩) (.of main_call8_v1 : StableHlo.TRef sig ⟨S1x2x1x2, .f32⟩) (broadcastInDim S1x2x1x2 ![1, 3] bcast_S2x2_S1x2x1x2_1_3),
    StableHlo.TRef.unary (.of main_call8_v0 : StableHlo.TRef sig ⟨S4x1x4x1, .f32⟩) (.of main_call8_v2 : StableHlo.TRef sig ⟨S4x2x4x2, .f32⟩) (broadcastInDim S4x2x4x2 ![0, 1, 2, 3] bcast_S4x1x4x1_S4x2x4x2_0_1_2_3),
    StableHlo.TRef.unary (.of main_call8_v1 : StableHlo.TRef sig ⟨S1x2x1x2, .f32⟩) (.of main_call8_v3 : StableHlo.TRef sig ⟨S4x2x4x2, .f32⟩) (broadcastInDim S4x2x4x2 ![0, 1, 2, 3] bcast_S1x2x1x2_S4x2x4x2_0_1_2_3),
    StableHlo.TRef.binary (.of main_call8_v2 : StableHlo.TRef sig ⟨S4x2x4x2, .f32⟩) (.of main_call8_v3 : StableHlo.TRef sig ⟨S4x2x4x2, .f32⟩) (.of main_call8_v4 : StableHlo.TRef sig ⟨S4x2x4x2, .f32⟩) mulf,
    StableHlo.TRef.reshape (.of main_call8_v4 : StableHlo.TRef sig ⟨S4x2x4x2, .f32⟩) (.of main_v62 : StableHlo.TRef sig ⟨S8x8, .f32⟩) rfl shapeCasts_S4x2x4x2_S8x8 ]

/-- 6 operations: the six operations of main_call9 of @kron_7 (window 1). -/
abbrev seg16 : List (HloOp τ sig (Elt F)) :=
  [ StableHlo.TRef.unary (.of main_v62 : StableHlo.TRef sig ⟨S8x8, .f32⟩) (.of main_call9_v0 : StableHlo.TRef sig ⟨S8x1x8x1, .f32⟩) (broadcastInDim S8x1x8x1 ![0, 2] bcast_S8x8_S8x1x8x1_0_2),
    StableHlo.TRef.unary (.of main_cst_1 : StableHlo.TRef sig ⟨S2x2, .f32⟩) (.of main_call9_v1 : StableHlo.TRef sig ⟨S1x2x1x2, .f32⟩) (broadcastInDim S1x2x1x2 ![1, 3] bcast_S2x2_S1x2x1x2_1_3),
    StableHlo.TRef.unary (.of main_call9_v0 : StableHlo.TRef sig ⟨S8x1x8x1, .f32⟩) (.of main_call9_v2 : StableHlo.TRef sig ⟨S8x2x8x2, .f32⟩) (broadcastInDim S8x2x8x2 ![0, 1, 2, 3] bcast_S8x1x8x1_S8x2x8x2_0_1_2_3),
    StableHlo.TRef.unary (.of main_call9_v1 : StableHlo.TRef sig ⟨S1x2x1x2, .f32⟩) (.of main_call9_v3 : StableHlo.TRef sig ⟨S8x2x8x2, .f32⟩) (broadcastInDim S8x2x8x2 ![0, 1, 2, 3] bcast_S1x2x1x2_S8x2x8x2_0_1_2_3),
    StableHlo.TRef.binary (.of main_call9_v2 : StableHlo.TRef sig ⟨S8x2x8x2, .f32⟩) (.of main_call9_v3 : StableHlo.TRef sig ⟨S8x2x8x2, .f32⟩) (.of main_call9_v4 : StableHlo.TRef sig ⟨S8x2x8x2, .f32⟩) mulf,
    StableHlo.TRef.reshape (.of main_call9_v4 : StableHlo.TRef sig ⟨S8x2x8x2, .f32⟩) (.of main_v63 : StableHlo.TRef sig ⟨S16x16, .f32⟩) rfl shapeCasts_S8x2x8x2_S16x16 ]

/-- 6 operations: the six operations of main_call10 of @kron (window 1). -/
abbrev seg17 : List (HloOp τ sig (Elt F)) :=
  [ StableHlo.TRef.unary (.of main_cst_1 : StableHlo.TRef sig ⟨S2x2, .f32⟩) (.of main_call10_v0 : StableHlo.TRef sig ⟨S2x1x2x1, .f32⟩) (broadcastInDim S2x1x2x1 ![0, 2] bcast_S2x2_S2x1x2x1_0_2),
    StableHlo.TRef.unary (.of main_cst_1 : StableHlo.TRef sig ⟨S2x2, .f32⟩) (.of main_call10_v1 : StableHlo.TRef sig ⟨S1x2x1x2, .f32⟩) (broadcastInDim S1x2x1x2 ![1, 3] bcast_S2x2_S1x2x1x2_1_3),
    StableHlo.TRef.unary (.of main_call10_v0 : StableHlo.TRef sig ⟨S2x1x2x1, .f32⟩) (.of main_call10_v2 : StableHlo.TRef sig ⟨S2x2x2x2, .f32⟩) (broadcastInDim S2x2x2x2 ![0, 1, 2, 3] bcast_S2x1x2x1_S2x2x2x2_0_1_2_3),
    StableHlo.TRef.unary (.of main_call10_v1 : StableHlo.TRef sig ⟨S1x2x1x2, .f32⟩) (.of main_call10_v3 : StableHlo.TRef sig ⟨S2x2x2x2, .f32⟩) (broadcastInDim S2x2x2x2 ![0, 1, 2, 3] bcast_S1x2x1x2_S2x2x2x2_0_1_2_3),
    StableHlo.TRef.binary (.of main_call10_v2 : StableHlo.TRef sig ⟨S2x2x2x2, .f32⟩) (.of main_call10_v3 : StableHlo.TRef sig ⟨S2x2x2x2, .f32⟩) (.of main_call10_v4 : StableHlo.TRef sig ⟨S2x2x2x2, .f32⟩) mulf,
    StableHlo.TRef.reshape (.of main_call10_v4 : StableHlo.TRef sig ⟨S2x2x2x2, .f32⟩) (.of main_v64 : StableHlo.TRef sig ⟨S4x4, .f32⟩) rfl shapeCasts_S2x2x2x2_S4x4 ]

/-- 6 operations: the six operations of main_call11 of @kron_3 (window 1). -/
abbrev seg18 : List (HloOp τ sig (Elt F)) :=
  [ StableHlo.TRef.unary (.of main_v64 : StableHlo.TRef sig ⟨S4x4, .f32⟩) (.of main_call11_v0 : StableHlo.TRef sig ⟨S4x1x4x1, .f32⟩) (broadcastInDim S4x1x4x1 ![0, 2] bcast_S4x4_S4x1x4x1_0_2),
    StableHlo.TRef.unary (.of main_cst_0 : StableHlo.TRef sig ⟨S4x4, .f32⟩) (.of main_call11_v1 : StableHlo.TRef sig ⟨S1x4x1x4, .f32⟩) (broadcastInDim S1x4x1x4 ![1, 3] bcast_S4x4_S1x4x1x4_1_3),
    StableHlo.TRef.unary (.of main_call11_v0 : StableHlo.TRef sig ⟨S4x1x4x1, .f32⟩) (.of main_call11_v2 : StableHlo.TRef sig ⟨S4x4x4x4, .f32⟩) (broadcastInDim S4x4x4x4 ![0, 1, 2, 3] bcast_S4x1x4x1_S4x4x4x4_0_1_2_3),
    StableHlo.TRef.unary (.of main_call11_v1 : StableHlo.TRef sig ⟨S1x4x1x4, .f32⟩) (.of main_call11_v3 : StableHlo.TRef sig ⟨S4x4x4x4, .f32⟩) (broadcastInDim S4x4x4x4 ![0, 1, 2, 3] bcast_S1x4x1x4_S4x4x4x4_0_1_2_3),
    StableHlo.TRef.binary (.of main_call11_v2 : StableHlo.TRef sig ⟨S4x4x4x4, .f32⟩) (.of main_call11_v3 : StableHlo.TRef sig ⟨S4x4x4x4, .f32⟩) (.of main_call11_v4 : StableHlo.TRef sig ⟨S4x4x4x4, .f32⟩) mulf,
    StableHlo.TRef.reshape (.of main_call11_v4 : StableHlo.TRef sig ⟨S4x4x4x4, .f32⟩) (.of main_v65 : StableHlo.TRef sig ⟨S16x16, .f32⟩) rfl shapeCasts_S4x4x4x4_S16x16 ]

/-- 9 operations: lines of @main (window 1). -/
abbrev seg19 : List (HloOp τ sig (Elt F)) :=
  [ StableHlo.reshape main_v65 main_v66 rfl shapeCasts_S16x16_S2x2x2x2x2x2x2x2,
    StableHlo.unary main_v66 main_v67 ((transpose S2x2x2x2x2x2x2x2 [0, 2, 1, 3, 4, 5, 6, 7] · transposes_S2x2x2x2x2x2x2x2_S2x2x2x2x2x2x2x2_0_2_1_3_4_5_6_7) : (⟨S2x2x2x2x2x2x2x2, .f32⟩ : BufTy).Contents (Elt F) → (⟨S2x2x2x2x2x2x2x2, .f32⟩ : BufTy).Contents (Elt F)),
    StableHlo.unary main_v67 main_v68 ((transpose S2x2x2x2x2x2x2x2 [0, 1, 2, 3, 4, 6, 5, 7] · transposes_S2x2x2x2x2x2x2x2_S2x2x2x2x2x2x2x2_0_1_2_3_4_6_5_7) : (⟨S2x2x2x2x2x2x2x2, .f32⟩ : BufTy).Contents (Elt F) → (⟨S2x2x2x2x2x2x2x2, .f32⟩ : BufTy).Contents (Elt F)),
    StableHlo.reshape main_v68 main_v69 rfl shapeCasts_S2x2x2x2x2x2x2x2_S16x16,
    StableHlo.binary main_v40 main_v20 main_v70 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v51 main_v70 main_v71 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v63 main_v71 main_v72 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v69 main_v72 main_v73 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v73 main_arg0 main_v74 ((fun l r => Host.dotGeneral dot_S16x16_S16x8192_S16x8192_1_0_0_1_n_n none l r) : (⟨S16x16, .f32⟩ : BufTy).Contents (Elt F) → (⟨S16x8192, .f32⟩ : BufTy).Contents (Elt F) → (⟨S16x8192, .f32⟩ : BufTy).Contents (Elt F)) ]

/-- 6 operations: the six operations of main_call12 of @kron (window 1). -/
abbrev seg20 : List (HloOp τ sig (Elt F)) :=
  [ StableHlo.TRef.unary (.of main_cst_1 : StableHlo.TRef sig ⟨S2x2, .f32⟩) (.of main_call12_v0 : StableHlo.TRef sig ⟨S2x1x2x1, .f32⟩) (broadcastInDim S2x1x2x1 ![0, 2] bcast_S2x2_S2x1x2x1_0_2),
    StableHlo.TRef.unary (.of main_cst_1 : StableHlo.TRef sig ⟨S2x2, .f32⟩) (.of main_call12_v1 : StableHlo.TRef sig ⟨S1x2x1x2, .f32⟩) (broadcastInDim S1x2x1x2 ![1, 3] bcast_S2x2_S1x2x1x2_1_3),
    StableHlo.TRef.unary (.of main_call12_v0 : StableHlo.TRef sig ⟨S2x1x2x1, .f32⟩) (.of main_call12_v2 : StableHlo.TRef sig ⟨S2x2x2x2, .f32⟩) (broadcastInDim S2x2x2x2 ![0, 1, 2, 3] bcast_S2x1x2x1_S2x2x2x2_0_1_2_3),
    StableHlo.TRef.unary (.of main_call12_v1 : StableHlo.TRef sig ⟨S1x2x1x2, .f32⟩) (.of main_call12_v3 : StableHlo.TRef sig ⟨S2x2x2x2, .f32⟩) (broadcastInDim S2x2x2x2 ![0, 1, 2, 3] bcast_S1x2x1x2_S2x2x2x2_0_1_2_3),
    StableHlo.TRef.binary (.of main_call12_v2 : StableHlo.TRef sig ⟨S2x2x2x2, .f32⟩) (.of main_call12_v3 : StableHlo.TRef sig ⟨S2x2x2x2, .f32⟩) (.of main_call12_v4 : StableHlo.TRef sig ⟨S2x2x2x2, .f32⟩) mulf,
    StableHlo.TRef.reshape (.of main_call12_v4 : StableHlo.TRef sig ⟨S2x2x2x2, .f32⟩) (.of main_v75 : StableHlo.TRef sig ⟨S4x4, .f32⟩) rfl shapeCasts_S2x2x2x2_S4x4 ]

/-- 6 operations: the six operations of main_call13 of @kron_6 (window 1). -/
abbrev seg21 : List (HloOp τ sig (Elt F)) :=
  [ StableHlo.TRef.unary (.of main_v75 : StableHlo.TRef sig ⟨S4x4, .f32⟩) (.of main_call13_v0 : StableHlo.TRef sig ⟨S4x1x4x1, .f32⟩) (broadcastInDim S4x1x4x1 ![0, 2] bcast_S4x4_S4x1x4x1_0_2),
    StableHlo.TRef.unary (.of main_cst_1 : StableHlo.TRef sig ⟨S2x2, .f32⟩) (.of main_call13_v1 : StableHlo.TRef sig ⟨S1x2x1x2, .f32⟩) (broadcastInDim S1x2x1x2 ![1, 3] bcast_S2x2_S1x2x1x2_1_3),
    StableHlo.TRef.unary (.of main_call13_v0 : StableHlo.TRef sig ⟨S4x1x4x1, .f32⟩) (.of main_call13_v2 : StableHlo.TRef sig ⟨S4x2x4x2, .f32⟩) (broadcastInDim S4x2x4x2 ![0, 1, 2, 3] bcast_S4x1x4x1_S4x2x4x2_0_1_2_3),
    StableHlo.TRef.unary (.of main_call13_v1 : StableHlo.TRef sig ⟨S1x2x1x2, .f32⟩) (.of main_call13_v3 : StableHlo.TRef sig ⟨S4x2x4x2, .f32⟩) (broadcastInDim S4x2x4x2 ![0, 1, 2, 3] bcast_S1x2x1x2_S4x2x4x2_0_1_2_3),
    StableHlo.TRef.binary (.of main_call13_v2 : StableHlo.TRef sig ⟨S4x2x4x2, .f32⟩) (.of main_call13_v3 : StableHlo.TRef sig ⟨S4x2x4x2, .f32⟩) (.of main_call13_v4 : StableHlo.TRef sig ⟨S4x2x4x2, .f32⟩) mulf,
    StableHlo.TRef.reshape (.of main_call13_v4 : StableHlo.TRef sig ⟨S4x2x4x2, .f32⟩) (.of main_v76 : StableHlo.TRef sig ⟨S8x8, .f32⟩) rfl shapeCasts_S4x2x4x2_S8x8 ]

/-- 6 operations: the six operations of main_call14 of @kron_7 (window 1). -/
abbrev seg22 : List (HloOp τ sig (Elt F)) :=
  [ StableHlo.TRef.unary (.of main_v76 : StableHlo.TRef sig ⟨S8x8, .f32⟩) (.of main_call14_v0 : StableHlo.TRef sig ⟨S8x1x8x1, .f32⟩) (broadcastInDim S8x1x8x1 ![0, 2] bcast_S8x8_S8x1x8x1_0_2),
    StableHlo.TRef.unary (.of main_cst_2 : StableHlo.TRef sig ⟨S2x2, .f32⟩) (.of main_call14_v1 : StableHlo.TRef sig ⟨S1x2x1x2, .f32⟩) (broadcastInDim S1x2x1x2 ![1, 3] bcast_S2x2_S1x2x1x2_1_3),
    StableHlo.TRef.unary (.of main_call14_v0 : StableHlo.TRef sig ⟨S8x1x8x1, .f32⟩) (.of main_call14_v2 : StableHlo.TRef sig ⟨S8x2x8x2, .f32⟩) (broadcastInDim S8x2x8x2 ![0, 1, 2, 3] bcast_S8x1x8x1_S8x2x8x2_0_1_2_3),
    StableHlo.TRef.unary (.of main_call14_v1 : StableHlo.TRef sig ⟨S1x2x1x2, .f32⟩) (.of main_call14_v3 : StableHlo.TRef sig ⟨S8x2x8x2, .f32⟩) (broadcastInDim S8x2x8x2 ![0, 1, 2, 3] bcast_S1x2x1x2_S8x2x8x2_0_1_2_3),
    StableHlo.TRef.binary (.of main_call14_v2 : StableHlo.TRef sig ⟨S8x2x8x2, .f32⟩) (.of main_call14_v3 : StableHlo.TRef sig ⟨S8x2x8x2, .f32⟩) (.of main_call14_v4 : StableHlo.TRef sig ⟨S8x2x8x2, .f32⟩) mulf,
    StableHlo.TRef.reshape (.of main_call14_v4 : StableHlo.TRef sig ⟨S8x2x8x2, .f32⟩) (.of main_v77 : StableHlo.TRef sig ⟨S16x16, .f32⟩) rfl shapeCasts_S8x2x8x2_S16x16 ]

/-- 3 operations: lines of @main (window 1). -/
abbrev seg23 : List (HloOp τ sig (Elt F)) :=
  [ StableHlo.unary main_v74 main_v78 ((transpose S8192x16 [1, 0] · transposes_S16x8192_S8192x16_1_0) : (⟨S16x8192, .f32⟩ : BufTy).Contents (Elt F) → (⟨S8192x16, .f32⟩ : BufTy).Contents (Elt F)),
    StableHlo.binary main_v77 main_v74 main_v79 ((fun l r => Host.dotGeneral dot_S16x16_S16x8192_S16x8192_1_0_0_1_n_n none l r) : (⟨S16x16, .f32⟩ : BufTy).Contents (Elt F) → (⟨S16x8192, .f32⟩ : BufTy).Contents (Elt F) → (⟨S16x8192, .f32⟩ : BufTy).Contents (Elt F)),
    StableHlo.binary main_v78 main_v79 main_v80 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)) ]

/-- @main's window 0: 85 operations. -/
abbrev ops_part0 : List (HloOp τ sig (Elt F)) :=
  [ StableHlo.nullary main_cst (fun i => FloatOps.ofBits .f32 (lit0 (S2x2.rowMajor i))),
    StableHlo.nullary main_cst_0 (fun i => FloatOps.ofBits .f32 (lit1 (S4x4.rowMajor i))),
    StableHlo.nullary main_cst_1 (fun i => FloatOps.ofBits .f32 (lit2 (S2x2.rowMajor i))),
    StableHlo.nullary main_cst_2 (fun i => FloatOps.ofBits .f32 (lit3 (S2x2.rowMajor i))),
    StableHlo.nullary main_cst_3 (constant S_ .f32 0x40000000#32),
    StableHlo.unary main_cst_3 main_v0 (broadcastInDim S1 ![] bcast_S_S1 : (⟨S_, .f32⟩ : BufTy).Contents (Elt F) → (⟨S1, .f32⟩ : BufTy).Contents (Elt F)),
    StableHlo.binary main_arg1 main_v0 main_v1 (Host.divf : (⟨S1, .f32⟩ : BufTy).Contents (Elt F) → (⟨S1, .f32⟩ : BufTy).Contents (Elt F) → (⟨S1, .f32⟩ : BufTy).Contents (Elt F)),
    StableHlo.unary main_v1 main_v2 (Host.cos : (⟨S1, .f32⟩ : BufTy).Contents (Elt F) → (⟨S1, .f32⟩ : BufTy).Contents (Elt F)),
    StableHlo.nullary main_cst_4 (constant S_ .f32 0x40000000#32),
    StableHlo.unary main_cst_4 main_v3 (broadcastInDim S1 ![] bcast_S_S1 : (⟨S_, .f32⟩ : BufTy).Contents (Elt F) → (⟨S1, .f32⟩ : BufTy).Contents (Elt F)),
    StableHlo.binary main_arg1 main_v3 main_v4 (Host.divf : (⟨S1, .f32⟩ : BufTy).Contents (Elt F) → (⟨S1, .f32⟩ : BufTy).Contents (Elt F) → (⟨S1, .f32⟩ : BufTy).Contents (Elt F)),
    StableHlo.unary main_v4 main_v5 (Host.sin : (⟨S1, .f32⟩ : BufTy).Contents (Elt F) → (⟨S1, .f32⟩ : BufTy).Contents (Elt F)),
    StableHlo.unary main_v5 main_v6 (Host.negf : (⟨S1, .f32⟩ : BufTy).Contents (Elt F) → (⟨S1, .f32⟩ : BufTy).Contents (Elt F)),
    StableHlo.nary ![main_v2, main_v6, main_v5, main_v2] main_v7 (fun u => concatenate S4 0 [⟨S1, u 0⟩, ⟨S1, u 1⟩, ⟨S1, u 2⟩, ⟨S1, u 3⟩] concatenates_S1_S1_S1_S1_S4_d0),
    StableHlo.reshape main_v7 main_v8 rfl shapeCasts_S4_S2x2,
    StableHlo.TRef.unary (.of main_cst : StableHlo.TRef sig ⟨S2x2, .f32⟩) (.of main_call0_v0 : StableHlo.TRef sig ⟨S2x1x2x1, .f32⟩) (broadcastInDim S2x1x2x1 ![0, 2] bcast_S2x2_S2x1x2x1_0_2),
    StableHlo.TRef.unary (.of main_cst : StableHlo.TRef sig ⟨S2x2, .f32⟩) (.of main_call0_v1 : StableHlo.TRef sig ⟨S1x2x1x2, .f32⟩) (broadcastInDim S1x2x1x2 ![1, 3] bcast_S2x2_S1x2x1x2_1_3),
    StableHlo.TRef.unary (.of main_call0_v0 : StableHlo.TRef sig ⟨S2x1x2x1, .f32⟩) (.of main_call0_v2 : StableHlo.TRef sig ⟨S2x2x2x2, .f32⟩) (broadcastInDim S2x2x2x2 ![0, 1, 2, 3] bcast_S2x1x2x1_S2x2x2x2_0_1_2_3),
    StableHlo.TRef.unary (.of main_call0_v1 : StableHlo.TRef sig ⟨S1x2x1x2, .f32⟩) (.of main_call0_v3 : StableHlo.TRef sig ⟨S2x2x2x2, .f32⟩) (broadcastInDim S2x2x2x2 ![0, 1, 2, 3] bcast_S1x2x1x2_S2x2x2x2_0_1_2_3),
    StableHlo.TRef.binary (.of main_call0_v2 : StableHlo.TRef sig ⟨S2x2x2x2, .f32⟩) (.of main_call0_v3 : StableHlo.TRef sig ⟨S2x2x2x2, .f32⟩) (.of main_call0_v4 : StableHlo.TRef sig ⟨S2x2x2x2, .f32⟩) mulf,
    StableHlo.TRef.reshape (.of main_call0_v4 : StableHlo.TRef sig ⟨S2x2x2x2, .f32⟩) (.of main_v9 : StableHlo.TRef sig ⟨S4x4, .f32⟩) rfl shapeCasts_S2x2x2x2_S4x4,
    StableHlo.TRef.unary (.of main_v9 : StableHlo.TRef sig ⟨S4x4, .f32⟩) (.of main_call1_v0 : StableHlo.TRef sig ⟨S4x1x4x1, .f32⟩) (broadcastInDim S4x1x4x1 ![0, 2] bcast_S4x4_S4x1x4x1_0_2),
    StableHlo.TRef.unary (.of main_v8 : StableHlo.TRef sig ⟨S2x2, .f32⟩) (.of main_call1_v1 : StableHlo.TRef sig ⟨S1x2x1x2, .f32⟩) (broadcastInDim S1x2x1x2 ![1, 3] bcast_S2x2_S1x2x1x2_1_3),
    StableHlo.TRef.unary (.of main_call1_v0 : StableHlo.TRef sig ⟨S4x1x4x1, .f32⟩) (.of main_call1_v2 : StableHlo.TRef sig ⟨S4x2x4x2, .f32⟩) (broadcastInDim S4x2x4x2 ![0, 1, 2, 3] bcast_S4x1x4x1_S4x2x4x2_0_1_2_3),
    StableHlo.TRef.unary (.of main_call1_v1 : StableHlo.TRef sig ⟨S1x2x1x2, .f32⟩) (.of main_call1_v3 : StableHlo.TRef sig ⟨S4x2x4x2, .f32⟩) (broadcastInDim S4x2x4x2 ![0, 1, 2, 3] bcast_S1x2x1x2_S4x2x4x2_0_1_2_3),
    StableHlo.TRef.binary (.of main_call1_v2 : StableHlo.TRef sig ⟨S4x2x4x2, .f32⟩) (.of main_call1_v3 : StableHlo.TRef sig ⟨S4x2x4x2, .f32⟩) (.of main_call1_v4 : StableHlo.TRef sig ⟨S4x2x4x2, .f32⟩) mulf,
    StableHlo.TRef.reshape (.of main_call1_v4 : StableHlo.TRef sig ⟨S4x2x4x2, .f32⟩) (.of main_v10 : StableHlo.TRef sig ⟨S8x8, .f32⟩) rfl shapeCasts_S4x2x4x2_S8x8,
    StableHlo.nullary main_cst_5 (constant S_ .f32 0x40000000#32),
    StableHlo.unary main_cst_5 main_v11 (broadcastInDim S1 ![] bcast_S_S1 : (⟨S_, .f32⟩ : BufTy).Contents (Elt F) → (⟨S1, .f32⟩ : BufTy).Contents (Elt F)),
    StableHlo.binary main_arg2 main_v11 main_v12 (Host.divf : (⟨S1, .f32⟩ : BufTy).Contents (Elt F) → (⟨S1, .f32⟩ : BufTy).Contents (Elt F) → (⟨S1, .f32⟩ : BufTy).Contents (Elt F)),
    StableHlo.unary main_v12 main_v13 (Host.cos : (⟨S1, .f32⟩ : BufTy).Contents (Elt F) → (⟨S1, .f32⟩ : BufTy).Contents (Elt F)),
    StableHlo.nullary main_cst_6 (constant S_ .f32 0x40000000#32),
    StableHlo.unary main_cst_6 main_v14 (broadcastInDim S1 ![] bcast_S_S1 : (⟨S_, .f32⟩ : BufTy).Contents (Elt F) → (⟨S1, .f32⟩ : BufTy).Contents (Elt F)),
    StableHlo.binary main_arg2 main_v14 main_v15 (Host.divf : (⟨S1, .f32⟩ : BufTy).Contents (Elt F) → (⟨S1, .f32⟩ : BufTy).Contents (Elt F) → (⟨S1, .f32⟩ : BufTy).Contents (Elt F)),
    StableHlo.unary main_v15 main_v16 (Host.sin : (⟨S1, .f32⟩ : BufTy).Contents (Elt F) → (⟨S1, .f32⟩ : BufTy).Contents (Elt F)),
    StableHlo.unary main_v16 main_v17 (Host.negf : (⟨S1, .f32⟩ : BufTy).Contents (Elt F) → (⟨S1, .f32⟩ : BufTy).Contents (Elt F)),
    StableHlo.nary ![main_v13, main_v17, main_v16, main_v13] main_v18 (fun u => concatenate S4 0 [⟨S1, u 0⟩, ⟨S1, u 1⟩, ⟨S1, u 2⟩, ⟨S1, u 3⟩] concatenates_S1_S1_S1_S1_S4_d0),
    StableHlo.reshape main_v18 main_v19 rfl shapeCasts_S4_S2x2,
    StableHlo.TRef.unary (.of main_v10 : StableHlo.TRef sig ⟨S8x8, .f32⟩) (.of main_call2_v0 : StableHlo.TRef sig ⟨S8x1x8x1, .f32⟩) (broadcastInDim S8x1x8x1 ![0, 2] bcast_S8x8_S8x1x8x1_0_2),
    StableHlo.TRef.unary (.of main_v19 : StableHlo.TRef sig ⟨S2x2, .f32⟩) (.of main_call2_v1 : StableHlo.TRef sig ⟨S1x2x1x2, .f32⟩) (broadcastInDim S1x2x1x2 ![1, 3] bcast_S2x2_S1x2x1x2_1_3),
    StableHlo.TRef.unary (.of main_call2_v0 : StableHlo.TRef sig ⟨S8x1x8x1, .f32⟩) (.of main_call2_v2 : StableHlo.TRef sig ⟨S8x2x8x2, .f32⟩) (broadcastInDim S8x2x8x2 ![0, 1, 2, 3] bcast_S8x1x8x1_S8x2x8x2_0_1_2_3),
    StableHlo.TRef.unary (.of main_call2_v1 : StableHlo.TRef sig ⟨S1x2x1x2, .f32⟩) (.of main_call2_v3 : StableHlo.TRef sig ⟨S8x2x8x2, .f32⟩) (broadcastInDim S8x2x8x2 ![0, 1, 2, 3] bcast_S1x2x1x2_S8x2x8x2_0_1_2_3),
    StableHlo.TRef.binary (.of main_call2_v2 : StableHlo.TRef sig ⟨S8x2x8x2, .f32⟩) (.of main_call2_v3 : StableHlo.TRef sig ⟨S8x2x8x2, .f32⟩) (.of main_call2_v4 : StableHlo.TRef sig ⟨S8x2x8x2, .f32⟩) mulf,
    StableHlo.TRef.reshape (.of main_call2_v4 : StableHlo.TRef sig ⟨S8x2x8x2, .f32⟩) (.of main_v20 : StableHlo.TRef sig ⟨S16x16, .f32⟩) rfl shapeCasts_S8x2x8x2_S16x16,
    StableHlo.nullary main_cst_7 (constant S_ .f32 0x40000000#32),
    StableHlo.unary main_cst_7 main_v21 (broadcastInDim S1 ![] bcast_S_S1 : (⟨S_, .f32⟩ : BufTy).Contents (Elt F) → (⟨S1, .f32⟩ : BufTy).Contents (Elt F)),
    StableHlo.binary main_arg3 main_v21 main_v22 (Host.divf : (⟨S1, .f32⟩ : BufTy).Contents (Elt F) → (⟨S1, .f32⟩ : BufTy).Contents (Elt F) → (⟨S1, .f32⟩ : BufTy).Contents (Elt F)),
    StableHlo.unary main_v22 main_v23 (Host.cos : (⟨S1, .f32⟩ : BufTy).Contents (Elt F) → (⟨S1, .f32⟩ : BufTy).Contents (Elt F)),
    StableHlo.nullary main_cst_8 (constant S_ .f32 0x40000000#32),
    StableHlo.unary main_cst_8 main_v24 (broadcastInDim S1 ![] bcast_S_S1 : (⟨S_, .f32⟩ : BufTy).Contents (Elt F) → (⟨S1, .f32⟩ : BufTy).Contents (Elt F)),
    StableHlo.binary main_arg3 main_v24 main_v25 (Host.divf : (⟨S1, .f32⟩ : BufTy).Contents (Elt F) → (⟨S1, .f32⟩ : BufTy).Contents (Elt F) → (⟨S1, .f32⟩ : BufTy).Contents (Elt F)),
    StableHlo.unary main_v25 main_v26 (Host.sin : (⟨S1, .f32⟩ : BufTy).Contents (Elt F) → (⟨S1, .f32⟩ : BufTy).Contents (Elt F)),
    StableHlo.unary main_v26 main_v27 (Host.negf : (⟨S1, .f32⟩ : BufTy).Contents (Elt F) → (⟨S1, .f32⟩ : BufTy).Contents (Elt F)),
    StableHlo.nary ![main_v23, main_v27, main_v26, main_v23] main_v28 (fun u => concatenate S4 0 [⟨S1, u 0⟩, ⟨S1, u 1⟩, ⟨S1, u 2⟩, ⟨S1, u 3⟩] concatenates_S1_S1_S1_S1_S4_d0),
    StableHlo.reshape main_v28 main_v29 rfl shapeCasts_S4_S2x2,
    StableHlo.nullary main_cst_9 (constant S_ .f32 0x40000000#32),
    StableHlo.unary main_cst_9 main_v30 (broadcastInDim S1 ![] bcast_S_S1 : (⟨S_, .f32⟩ : BufTy).Contents (Elt F) → (⟨S1, .f32⟩ : BufTy).Contents (Elt F)),
    StableHlo.binary main_arg4 main_v30 main_v31 (Host.divf : (⟨S1, .f32⟩ : BufTy).Contents (Elt F) → (⟨S1, .f32⟩ : BufTy).Contents (Elt F) → (⟨S1, .f32⟩ : BufTy).Contents (Elt F)),
    StableHlo.unary main_v31 main_v32 (Host.cos : (⟨S1, .f32⟩ : BufTy).Contents (Elt F) → (⟨S1, .f32⟩ : BufTy).Contents (Elt F)),
    StableHlo.nullary main_cst_10 (constant S_ .f32 0x40000000#32),
    StableHlo.unary main_cst_10 main_v33 (broadcastInDim S1 ![] bcast_S_S1 : (⟨S_, .f32⟩ : BufTy).Contents (Elt F) → (⟨S1, .f32⟩ : BufTy).Contents (Elt F)),
    StableHlo.binary main_arg4 main_v33 main_v34 (Host.divf : (⟨S1, .f32⟩ : BufTy).Contents (Elt F) → (⟨S1, .f32⟩ : BufTy).Contents (Elt F) → (⟨S1, .f32⟩ : BufTy).Contents (Elt F)),
    StableHlo.unary main_v34 main_v35 (Host.sin : (⟨S1, .f32⟩ : BufTy).Contents (Elt F) → (⟨S1, .f32⟩ : BufTy).Contents (Elt F)),
    StableHlo.unary main_v35 main_v36 (Host.negf : (⟨S1, .f32⟩ : BufTy).Contents (Elt F) → (⟨S1, .f32⟩ : BufTy).Contents (Elt F)),
    StableHlo.nary ![main_v32, main_v36, main_v35, main_v32] main_v37 (fun u => concatenate S4 0 [⟨S1, u 0⟩, ⟨S1, u 1⟩, ⟨S1, u 2⟩, ⟨S1, u 3⟩] concatenates_S1_S1_S1_S1_S4_d0),
    StableHlo.reshape main_v37 main_v38 rfl shapeCasts_S4_S2x2,
    StableHlo.TRef.unary (.of main_v29 : StableHlo.TRef sig ⟨S2x2, .f32⟩) (.of main_call3_v0 : StableHlo.TRef sig ⟨S2x1x2x1, .f32⟩) (broadcastInDim S2x1x2x1 ![0, 2] bcast_S2x2_S2x1x2x1_0_2),
    StableHlo.TRef.unary (.of main_v38 : StableHlo.TRef sig ⟨S2x2, .f32⟩) (.of main_call3_v1 : StableHlo.TRef sig ⟨S1x2x1x2, .f32⟩) (broadcastInDim S1x2x1x2 ![1, 3] bcast_S2x2_S1x2x1x2_1_3),
    StableHlo.TRef.unary (.of main_call3_v0 : StableHlo.TRef sig ⟨S2x1x2x1, .f32⟩) (.of main_call3_v2 : StableHlo.TRef sig ⟨S2x2x2x2, .f32⟩) (broadcastInDim S2x2x2x2 ![0, 1, 2, 3] bcast_S2x1x2x1_S2x2x2x2_0_1_2_3),
    StableHlo.TRef.unary (.of main_call3_v1 : StableHlo.TRef sig ⟨S1x2x1x2, .f32⟩) (.of main_call3_v3 : StableHlo.TRef sig ⟨S2x2x2x2, .f32⟩) (broadcastInDim S2x2x2x2 ![0, 1, 2, 3] bcast_S1x2x1x2_S2x2x2x2_0_1_2_3),
    StableHlo.TRef.binary (.of main_call3_v2 : StableHlo.TRef sig ⟨S2x2x2x2, .f32⟩) (.of main_call3_v3 : StableHlo.TRef sig ⟨S2x2x2x2, .f32⟩) (.of main_call3_v4 : StableHlo.TRef sig ⟨S2x2x2x2, .f32⟩) mulf,
    StableHlo.TRef.reshape (.of main_call3_v4 : StableHlo.TRef sig ⟨S2x2x2x2, .f32⟩) (.of main_v39 : StableHlo.TRef sig ⟨S4x4, .f32⟩) rfl shapeCasts_S2x2x2x2_S4x4,
    StableHlo.TRef.unary (.of main_v39 : StableHlo.TRef sig ⟨S4x4, .f32⟩) (.of main_call4_v0 : StableHlo.TRef sig ⟨S4x1x4x1, .f32⟩) (broadcastInDim S4x1x4x1 ![0, 2] bcast_S4x4_S4x1x4x1_0_2),
    StableHlo.TRef.unary (.of main_cst_0 : StableHlo.TRef sig ⟨S4x4, .f32⟩) (.of main_call4_v1 : StableHlo.TRef sig ⟨S1x4x1x4, .f32⟩) (broadcastInDim S1x4x1x4 ![1, 3] bcast_S4x4_S1x4x1x4_1_3),
    StableHlo.TRef.unary (.of main_call4_v0 : StableHlo.TRef sig ⟨S4x1x4x1, .f32⟩) (.of main_call4_v2 : StableHlo.TRef sig ⟨S4x4x4x4, .f32⟩) (broadcastInDim S4x4x4x4 ![0, 1, 2, 3] bcast_S4x1x4x1_S4x4x4x4_0_1_2_3),
    StableHlo.TRef.unary (.of main_call4_v1 : StableHlo.TRef sig ⟨S1x4x1x4, .f32⟩) (.of main_call4_v3 : StableHlo.TRef sig ⟨S4x4x4x4, .f32⟩) (broadcastInDim S4x4x4x4 ![0, 1, 2, 3] bcast_S1x4x1x4_S4x4x4x4_0_1_2_3),
    StableHlo.TRef.binary (.of main_call4_v2 : StableHlo.TRef sig ⟨S4x4x4x4, .f32⟩) (.of main_call4_v3 : StableHlo.TRef sig ⟨S4x4x4x4, .f32⟩) (.of main_call4_v4 : StableHlo.TRef sig ⟨S4x4x4x4, .f32⟩) mulf,
    StableHlo.TRef.reshape (.of main_call4_v4 : StableHlo.TRef sig ⟨S4x4x4x4, .f32⟩) (.of main_v40 : StableHlo.TRef sig ⟨S16x16, .f32⟩) rfl shapeCasts_S4x4x4x4_S16x16,
    StableHlo.nullary main_cst_11 (constant S_ .f32 0x40000000#32),
    StableHlo.unary main_cst_11 main_v41 (broadcastInDim S1 ![] bcast_S_S1 : (⟨S_, .f32⟩ : BufTy).Contents (Elt F) → (⟨S1, .f32⟩ : BufTy).Contents (Elt F)),
    StableHlo.binary main_arg5 main_v41 main_v42 (Host.divf : (⟨S1, .f32⟩ : BufTy).Contents (Elt F) → (⟨S1, .f32⟩ : BufTy).Contents (Elt F) → (⟨S1, .f32⟩ : BufTy).Contents (Elt F)),
    StableHlo.unary main_v42 main_v43 (Host.cos : (⟨S1, .f32⟩ : BufTy).Contents (Elt F) → (⟨S1, .f32⟩ : BufTy).Contents (Elt F)),
    StableHlo.nullary main_cst_12 (constant S_ .f32 0x40000000#32),
    StableHlo.unary main_cst_12 main_v44 (broadcastInDim S1 ![] bcast_S_S1 : (⟨S_, .f32⟩ : BufTy).Contents (Elt F) → (⟨S1, .f32⟩ : BufTy).Contents (Elt F)),
    StableHlo.binary main_arg5 main_v44 main_v45 (Host.divf : (⟨S1, .f32⟩ : BufTy).Contents (Elt F) → (⟨S1, .f32⟩ : BufTy).Contents (Elt F) → (⟨S1, .f32⟩ : BufTy).Contents (Elt F)) ]

/-- @main's window 1: 87 operations. -/
abbrev ops_part1 : List (HloOp τ sig (Elt F)) :=
  [ StableHlo.unary main_v45 main_v46 (Host.sin : (⟨S1, .f32⟩ : BufTy).Contents (Elt F) → (⟨S1, .f32⟩ : BufTy).Contents (Elt F)),
    StableHlo.unary main_v46 main_v47 (Host.negf : (⟨S1, .f32⟩ : BufTy).Contents (Elt F) → (⟨S1, .f32⟩ : BufTy).Contents (Elt F)),
    StableHlo.nary ![main_v43, main_v47, main_v46, main_v43] main_v48 (fun u => concatenate S4 0 [⟨S1, u 0⟩, ⟨S1, u 1⟩, ⟨S1, u 2⟩, ⟨S1, u 3⟩] concatenates_S1_S1_S1_S1_S4_d0),
    StableHlo.reshape main_v48 main_v49 rfl shapeCasts_S4_S2x2,
    StableHlo.TRef.unary (.of main_cst_0 : StableHlo.TRef sig ⟨S4x4, .f32⟩) (.of main_call5_v0 : StableHlo.TRef sig ⟨S4x1x4x1, .f32⟩) (broadcastInDim S4x1x4x1 ![0, 2] bcast_S4x4_S4x1x4x1_0_2),
    StableHlo.TRef.unary (.of main_cst_1 : StableHlo.TRef sig ⟨S2x2, .f32⟩) (.of main_call5_v1 : StableHlo.TRef sig ⟨S1x2x1x2, .f32⟩) (broadcastInDim S1x2x1x2 ![1, 3] bcast_S2x2_S1x2x1x2_1_3),
    StableHlo.TRef.unary (.of main_call5_v0 : StableHlo.TRef sig ⟨S4x1x4x1, .f32⟩) (.of main_call5_v2 : StableHlo.TRef sig ⟨S4x2x4x2, .f32⟩) (broadcastInDim S4x2x4x2 ![0, 1, 2, 3] bcast_S4x1x4x1_S4x2x4x2_0_1_2_3),
    StableHlo.TRef.unary (.of main_call5_v1 : StableHlo.TRef sig ⟨S1x2x1x2, .f32⟩) (.of main_call5_v3 : StableHlo.TRef sig ⟨S4x2x4x2, .f32⟩) (broadcastInDim S4x2x4x2 ![0, 1, 2, 3] bcast_S1x2x1x2_S4x2x4x2_0_1_2_3),
    StableHlo.TRef.binary (.of main_call5_v2 : StableHlo.TRef sig ⟨S4x2x4x2, .f32⟩) (.of main_call5_v3 : StableHlo.TRef sig ⟨S4x2x4x2, .f32⟩) (.of main_call5_v4 : StableHlo.TRef sig ⟨S4x2x4x2, .f32⟩) mulf,
    StableHlo.TRef.reshape (.of main_call5_v4 : StableHlo.TRef sig ⟨S4x2x4x2, .f32⟩) (.of main_v50 : StableHlo.TRef sig ⟨S8x8, .f32⟩) rfl shapeCasts_S4x2x4x2_S8x8,
    StableHlo.TRef.unary (.of main_v50 : StableHlo.TRef sig ⟨S8x8, .f32⟩) (.of main_call6_v0 : StableHlo.TRef sig ⟨S8x1x8x1, .f32⟩) (broadcastInDim S8x1x8x1 ![0, 2] bcast_S8x8_S8x1x8x1_0_2),
    StableHlo.TRef.unary (.of main_v49 : StableHlo.TRef sig ⟨S2x2, .f32⟩) (.of main_call6_v1 : StableHlo.TRef sig ⟨S1x2x1x2, .f32⟩) (broadcastInDim S1x2x1x2 ![1, 3] bcast_S2x2_S1x2x1x2_1_3),
    StableHlo.TRef.unary (.of main_call6_v0 : StableHlo.TRef sig ⟨S8x1x8x1, .f32⟩) (.of main_call6_v2 : StableHlo.TRef sig ⟨S8x2x8x2, .f32⟩) (broadcastInDim S8x2x8x2 ![0, 1, 2, 3] bcast_S8x1x8x1_S8x2x8x2_0_1_2_3),
    StableHlo.TRef.unary (.of main_call6_v1 : StableHlo.TRef sig ⟨S1x2x1x2, .f32⟩) (.of main_call6_v3 : StableHlo.TRef sig ⟨S8x2x8x2, .f32⟩) (broadcastInDim S8x2x8x2 ![0, 1, 2, 3] bcast_S1x2x1x2_S8x2x8x2_0_1_2_3),
    StableHlo.TRef.binary (.of main_call6_v2 : StableHlo.TRef sig ⟨S8x2x8x2, .f32⟩) (.of main_call6_v3 : StableHlo.TRef sig ⟨S8x2x8x2, .f32⟩) (.of main_call6_v4 : StableHlo.TRef sig ⟨S8x2x8x2, .f32⟩) mulf,
    StableHlo.TRef.reshape (.of main_call6_v4 : StableHlo.TRef sig ⟨S8x2x8x2, .f32⟩) (.of main_v51 : StableHlo.TRef sig ⟨S16x16, .f32⟩) rfl shapeCasts_S8x2x8x2_S16x16,
    StableHlo.nullary main_cst_13 (constant S_ .f32 0x40000000#32),
    StableHlo.unary main_cst_13 main_v52 (broadcastInDim S1 ![] bcast_S_S1 : (⟨S_, .f32⟩ : BufTy).Contents (Elt F) → (⟨S1, .f32⟩ : BufTy).Contents (Elt F)),
    StableHlo.binary main_arg6 main_v52 main_v53 (Host.divf : (⟨S1, .f32⟩ : BufTy).Contents (Elt F) → (⟨S1, .f32⟩ : BufTy).Contents (Elt F) → (⟨S1, .f32⟩ : BufTy).Contents (Elt F)),
    StableHlo.unary main_v53 main_v54 (Host.cos : (⟨S1, .f32⟩ : BufTy).Contents (Elt F) → (⟨S1, .f32⟩ : BufTy).Contents (Elt F)),
    StableHlo.nullary main_cst_14 (constant S_ .f32 0x40000000#32),
    StableHlo.unary main_cst_14 main_v55 (broadcastInDim S1 ![] bcast_S_S1 : (⟨S_, .f32⟩ : BufTy).Contents (Elt F) → (⟨S1, .f32⟩ : BufTy).Contents (Elt F)),
    StableHlo.binary main_arg6 main_v55 main_v56 (Host.divf : (⟨S1, .f32⟩ : BufTy).Contents (Elt F) → (⟨S1, .f32⟩ : BufTy).Contents (Elt F) → (⟨S1, .f32⟩ : BufTy).Contents (Elt F)),
    StableHlo.unary main_v56 main_v57 (Host.sin : (⟨S1, .f32⟩ : BufTy).Contents (Elt F) → (⟨S1, .f32⟩ : BufTy).Contents (Elt F)),
    StableHlo.unary main_v57 main_v58 (Host.negf : (⟨S1, .f32⟩ : BufTy).Contents (Elt F) → (⟨S1, .f32⟩ : BufTy).Contents (Elt F)),
    StableHlo.nary ![main_v54, main_v58, main_v57, main_v54] main_v59 (fun u => concatenate S4 0 [⟨S1, u 0⟩, ⟨S1, u 1⟩, ⟨S1, u 2⟩, ⟨S1, u 3⟩] concatenates_S1_S1_S1_S1_S4_d0),
    StableHlo.reshape main_v59 main_v60 rfl shapeCasts_S4_S2x2,
    StableHlo.TRef.unary (.of main_cst_1 : StableHlo.TRef sig ⟨S2x2, .f32⟩) (.of main_call7_v0 : StableHlo.TRef sig ⟨S2x1x2x1, .f32⟩) (broadcastInDim S2x1x2x1 ![0, 2] bcast_S2x2_S2x1x2x1_0_2),
    StableHlo.TRef.unary (.of main_v60 : StableHlo.TRef sig ⟨S2x2, .f32⟩) (.of main_call7_v1 : StableHlo.TRef sig ⟨S1x2x1x2, .f32⟩) (broadcastInDim S1x2x1x2 ![1, 3] bcast_S2x2_S1x2x1x2_1_3),
    StableHlo.TRef.unary (.of main_call7_v0 : StableHlo.TRef sig ⟨S2x1x2x1, .f32⟩) (.of main_call7_v2 : StableHlo.TRef sig ⟨S2x2x2x2, .f32⟩) (broadcastInDim S2x2x2x2 ![0, 1, 2, 3] bcast_S2x1x2x1_S2x2x2x2_0_1_2_3),
    StableHlo.TRef.unary (.of main_call7_v1 : StableHlo.TRef sig ⟨S1x2x1x2, .f32⟩) (.of main_call7_v3 : StableHlo.TRef sig ⟨S2x2x2x2, .f32⟩) (broadcastInDim S2x2x2x2 ![0, 1, 2, 3] bcast_S1x2x1x2_S2x2x2x2_0_1_2_3),
    StableHlo.TRef.binary (.of main_call7_v2 : StableHlo.TRef sig ⟨S2x2x2x2, .f32⟩) (.of main_call7_v3 : StableHlo.TRef sig ⟨S2x2x2x2, .f32⟩) (.of main_call7_v4 : StableHlo.TRef sig ⟨S2x2x2x2, .f32⟩) mulf,
    StableHlo.TRef.reshape (.of main_call7_v4 : StableHlo.TRef sig ⟨S2x2x2x2, .f32⟩) (.of main_v61 : StableHlo.TRef sig ⟨S4x4, .f32⟩) rfl shapeCasts_S2x2x2x2_S4x4,
    StableHlo.TRef.unary (.of main_v61 : StableHlo.TRef sig ⟨S4x4, .f32⟩) (.of main_call8_v0 : StableHlo.TRef sig ⟨S4x1x4x1, .f32⟩) (broadcastInDim S4x1x4x1 ![0, 2] bcast_S4x4_S4x1x4x1_0_2),
    StableHlo.TRef.unary (.of main_cst_1 : StableHlo.TRef sig ⟨S2x2, .f32⟩) (.of main_call8_v1 : StableHlo.TRef sig ⟨S1x2x1x2, .f32⟩) (broadcastInDim S1x2x1x2 ![1, 3] bcast_S2x2_S1x2x1x2_1_3),
    StableHlo.TRef.unary (.of main_call8_v0 : StableHlo.TRef sig ⟨S4x1x4x1, .f32⟩) (.of main_call8_v2 : StableHlo.TRef sig ⟨S4x2x4x2, .f32⟩) (broadcastInDim S4x2x4x2 ![0, 1, 2, 3] bcast_S4x1x4x1_S4x2x4x2_0_1_2_3),
    StableHlo.TRef.unary (.of main_call8_v1 : StableHlo.TRef sig ⟨S1x2x1x2, .f32⟩) (.of main_call8_v3 : StableHlo.TRef sig ⟨S4x2x4x2, .f32⟩) (broadcastInDim S4x2x4x2 ![0, 1, 2, 3] bcast_S1x2x1x2_S4x2x4x2_0_1_2_3),
    StableHlo.TRef.binary (.of main_call8_v2 : StableHlo.TRef sig ⟨S4x2x4x2, .f32⟩) (.of main_call8_v3 : StableHlo.TRef sig ⟨S4x2x4x2, .f32⟩) (.of main_call8_v4 : StableHlo.TRef sig ⟨S4x2x4x2, .f32⟩) mulf,
    StableHlo.TRef.reshape (.of main_call8_v4 : StableHlo.TRef sig ⟨S4x2x4x2, .f32⟩) (.of main_v62 : StableHlo.TRef sig ⟨S8x8, .f32⟩) rfl shapeCasts_S4x2x4x2_S8x8,
    StableHlo.TRef.unary (.of main_v62 : StableHlo.TRef sig ⟨S8x8, .f32⟩) (.of main_call9_v0 : StableHlo.TRef sig ⟨S8x1x8x1, .f32⟩) (broadcastInDim S8x1x8x1 ![0, 2] bcast_S8x8_S8x1x8x1_0_2),
    StableHlo.TRef.unary (.of main_cst_1 : StableHlo.TRef sig ⟨S2x2, .f32⟩) (.of main_call9_v1 : StableHlo.TRef sig ⟨S1x2x1x2, .f32⟩) (broadcastInDim S1x2x1x2 ![1, 3] bcast_S2x2_S1x2x1x2_1_3),
    StableHlo.TRef.unary (.of main_call9_v0 : StableHlo.TRef sig ⟨S8x1x8x1, .f32⟩) (.of main_call9_v2 : StableHlo.TRef sig ⟨S8x2x8x2, .f32⟩) (broadcastInDim S8x2x8x2 ![0, 1, 2, 3] bcast_S8x1x8x1_S8x2x8x2_0_1_2_3),
    StableHlo.TRef.unary (.of main_call9_v1 : StableHlo.TRef sig ⟨S1x2x1x2, .f32⟩) (.of main_call9_v3 : StableHlo.TRef sig ⟨S8x2x8x2, .f32⟩) (broadcastInDim S8x2x8x2 ![0, 1, 2, 3] bcast_S1x2x1x2_S8x2x8x2_0_1_2_3),
    StableHlo.TRef.binary (.of main_call9_v2 : StableHlo.TRef sig ⟨S8x2x8x2, .f32⟩) (.of main_call9_v3 : StableHlo.TRef sig ⟨S8x2x8x2, .f32⟩) (.of main_call9_v4 : StableHlo.TRef sig ⟨S8x2x8x2, .f32⟩) mulf,
    StableHlo.TRef.reshape (.of main_call9_v4 : StableHlo.TRef sig ⟨S8x2x8x2, .f32⟩) (.of main_v63 : StableHlo.TRef sig ⟨S16x16, .f32⟩) rfl shapeCasts_S8x2x8x2_S16x16,
    StableHlo.TRef.unary (.of main_cst_1 : StableHlo.TRef sig ⟨S2x2, .f32⟩) (.of main_call10_v0 : StableHlo.TRef sig ⟨S2x1x2x1, .f32⟩) (broadcastInDim S2x1x2x1 ![0, 2] bcast_S2x2_S2x1x2x1_0_2),
    StableHlo.TRef.unary (.of main_cst_1 : StableHlo.TRef sig ⟨S2x2, .f32⟩) (.of main_call10_v1 : StableHlo.TRef sig ⟨S1x2x1x2, .f32⟩) (broadcastInDim S1x2x1x2 ![1, 3] bcast_S2x2_S1x2x1x2_1_3),
    StableHlo.TRef.unary (.of main_call10_v0 : StableHlo.TRef sig ⟨S2x1x2x1, .f32⟩) (.of main_call10_v2 : StableHlo.TRef sig ⟨S2x2x2x2, .f32⟩) (broadcastInDim S2x2x2x2 ![0, 1, 2, 3] bcast_S2x1x2x1_S2x2x2x2_0_1_2_3),
    StableHlo.TRef.unary (.of main_call10_v1 : StableHlo.TRef sig ⟨S1x2x1x2, .f32⟩) (.of main_call10_v3 : StableHlo.TRef sig ⟨S2x2x2x2, .f32⟩) (broadcastInDim S2x2x2x2 ![0, 1, 2, 3] bcast_S1x2x1x2_S2x2x2x2_0_1_2_3),
    StableHlo.TRef.binary (.of main_call10_v2 : StableHlo.TRef sig ⟨S2x2x2x2, .f32⟩) (.of main_call10_v3 : StableHlo.TRef sig ⟨S2x2x2x2, .f32⟩) (.of main_call10_v4 : StableHlo.TRef sig ⟨S2x2x2x2, .f32⟩) mulf,
    StableHlo.TRef.reshape (.of main_call10_v4 : StableHlo.TRef sig ⟨S2x2x2x2, .f32⟩) (.of main_v64 : StableHlo.TRef sig ⟨S4x4, .f32⟩) rfl shapeCasts_S2x2x2x2_S4x4,
    StableHlo.TRef.unary (.of main_v64 : StableHlo.TRef sig ⟨S4x4, .f32⟩) (.of main_call11_v0 : StableHlo.TRef sig ⟨S4x1x4x1, .f32⟩) (broadcastInDim S4x1x4x1 ![0, 2] bcast_S4x4_S4x1x4x1_0_2),
    StableHlo.TRef.unary (.of main_cst_0 : StableHlo.TRef sig ⟨S4x4, .f32⟩) (.of main_call11_v1 : StableHlo.TRef sig ⟨S1x4x1x4, .f32⟩) (broadcastInDim S1x4x1x4 ![1, 3] bcast_S4x4_S1x4x1x4_1_3),
    StableHlo.TRef.unary (.of main_call11_v0 : StableHlo.TRef sig ⟨S4x1x4x1, .f32⟩) (.of main_call11_v2 : StableHlo.TRef sig ⟨S4x4x4x4, .f32⟩) (broadcastInDim S4x4x4x4 ![0, 1, 2, 3] bcast_S4x1x4x1_S4x4x4x4_0_1_2_3),
    StableHlo.TRef.unary (.of main_call11_v1 : StableHlo.TRef sig ⟨S1x4x1x4, .f32⟩) (.of main_call11_v3 : StableHlo.TRef sig ⟨S4x4x4x4, .f32⟩) (broadcastInDim S4x4x4x4 ![0, 1, 2, 3] bcast_S1x4x1x4_S4x4x4x4_0_1_2_3),
    StableHlo.TRef.binary (.of main_call11_v2 : StableHlo.TRef sig ⟨S4x4x4x4, .f32⟩) (.of main_call11_v3 : StableHlo.TRef sig ⟨S4x4x4x4, .f32⟩) (.of main_call11_v4 : StableHlo.TRef sig ⟨S4x4x4x4, .f32⟩) mulf,
    StableHlo.TRef.reshape (.of main_call11_v4 : StableHlo.TRef sig ⟨S4x4x4x4, .f32⟩) (.of main_v65 : StableHlo.TRef sig ⟨S16x16, .f32⟩) rfl shapeCasts_S4x4x4x4_S16x16,
    StableHlo.reshape main_v65 main_v66 rfl shapeCasts_S16x16_S2x2x2x2x2x2x2x2,
    StableHlo.unary main_v66 main_v67 ((transpose S2x2x2x2x2x2x2x2 [0, 2, 1, 3, 4, 5, 6, 7] · transposes_S2x2x2x2x2x2x2x2_S2x2x2x2x2x2x2x2_0_2_1_3_4_5_6_7) : (⟨S2x2x2x2x2x2x2x2, .f32⟩ : BufTy).Contents (Elt F) → (⟨S2x2x2x2x2x2x2x2, .f32⟩ : BufTy).Contents (Elt F)),
    StableHlo.unary main_v67 main_v68 ((transpose S2x2x2x2x2x2x2x2 [0, 1, 2, 3, 4, 6, 5, 7] · transposes_S2x2x2x2x2x2x2x2_S2x2x2x2x2x2x2x2_0_1_2_3_4_6_5_7) : (⟨S2x2x2x2x2x2x2x2, .f32⟩ : BufTy).Contents (Elt F) → (⟨S2x2x2x2x2x2x2x2, .f32⟩ : BufTy).Contents (Elt F)),
    StableHlo.reshape main_v68 main_v69 rfl shapeCasts_S2x2x2x2x2x2x2x2_S16x16,
    StableHlo.binary main_v40 main_v20 main_v70 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v51 main_v70 main_v71 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v63 main_v71 main_v72 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v69 main_v72 main_v73 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v73 main_arg0 main_v74 ((fun l r => Host.dotGeneral dot_S16x16_S16x8192_S16x8192_1_0_0_1_n_n none l r) : (⟨S16x16, .f32⟩ : BufTy).Contents (Elt F) → (⟨S16x8192, .f32⟩ : BufTy).Contents (Elt F) → (⟨S16x8192, .f32⟩ : BufTy).Contents (Elt F)),
    StableHlo.TRef.unary (.of main_cst_1 : StableHlo.TRef sig ⟨S2x2, .f32⟩) (.of main_call12_v0 : StableHlo.TRef sig ⟨S2x1x2x1, .f32⟩) (broadcastInDim S2x1x2x1 ![0, 2] bcast_S2x2_S2x1x2x1_0_2),
    StableHlo.TRef.unary (.of main_cst_1 : StableHlo.TRef sig ⟨S2x2, .f32⟩) (.of main_call12_v1 : StableHlo.TRef sig ⟨S1x2x1x2, .f32⟩) (broadcastInDim S1x2x1x2 ![1, 3] bcast_S2x2_S1x2x1x2_1_3),
    StableHlo.TRef.unary (.of main_call12_v0 : StableHlo.TRef sig ⟨S2x1x2x1, .f32⟩) (.of main_call12_v2 : StableHlo.TRef sig ⟨S2x2x2x2, .f32⟩) (broadcastInDim S2x2x2x2 ![0, 1, 2, 3] bcast_S2x1x2x1_S2x2x2x2_0_1_2_3),
    StableHlo.TRef.unary (.of main_call12_v1 : StableHlo.TRef sig ⟨S1x2x1x2, .f32⟩) (.of main_call12_v3 : StableHlo.TRef sig ⟨S2x2x2x2, .f32⟩) (broadcastInDim S2x2x2x2 ![0, 1, 2, 3] bcast_S1x2x1x2_S2x2x2x2_0_1_2_3),
    StableHlo.TRef.binary (.of main_call12_v2 : StableHlo.TRef sig ⟨S2x2x2x2, .f32⟩) (.of main_call12_v3 : StableHlo.TRef sig ⟨S2x2x2x2, .f32⟩) (.of main_call12_v4 : StableHlo.TRef sig ⟨S2x2x2x2, .f32⟩) mulf,
    StableHlo.TRef.reshape (.of main_call12_v4 : StableHlo.TRef sig ⟨S2x2x2x2, .f32⟩) (.of main_v75 : StableHlo.TRef sig ⟨S4x4, .f32⟩) rfl shapeCasts_S2x2x2x2_S4x4,
    StableHlo.TRef.unary (.of main_v75 : StableHlo.TRef sig ⟨S4x4, .f32⟩) (.of main_call13_v0 : StableHlo.TRef sig ⟨S4x1x4x1, .f32⟩) (broadcastInDim S4x1x4x1 ![0, 2] bcast_S4x4_S4x1x4x1_0_2),
    StableHlo.TRef.unary (.of main_cst_1 : StableHlo.TRef sig ⟨S2x2, .f32⟩) (.of main_call13_v1 : StableHlo.TRef sig ⟨S1x2x1x2, .f32⟩) (broadcastInDim S1x2x1x2 ![1, 3] bcast_S2x2_S1x2x1x2_1_3),
    StableHlo.TRef.unary (.of main_call13_v0 : StableHlo.TRef sig ⟨S4x1x4x1, .f32⟩) (.of main_call13_v2 : StableHlo.TRef sig ⟨S4x2x4x2, .f32⟩) (broadcastInDim S4x2x4x2 ![0, 1, 2, 3] bcast_S4x1x4x1_S4x2x4x2_0_1_2_3),
    StableHlo.TRef.unary (.of main_call13_v1 : StableHlo.TRef sig ⟨S1x2x1x2, .f32⟩) (.of main_call13_v3 : StableHlo.TRef sig ⟨S4x2x4x2, .f32⟩) (broadcastInDim S4x2x4x2 ![0, 1, 2, 3] bcast_S1x2x1x2_S4x2x4x2_0_1_2_3),
    StableHlo.TRef.binary (.of main_call13_v2 : StableHlo.TRef sig ⟨S4x2x4x2, .f32⟩) (.of main_call13_v3 : StableHlo.TRef sig ⟨S4x2x4x2, .f32⟩) (.of main_call13_v4 : StableHlo.TRef sig ⟨S4x2x4x2, .f32⟩) mulf,
    StableHlo.TRef.reshape (.of main_call13_v4 : StableHlo.TRef sig ⟨S4x2x4x2, .f32⟩) (.of main_v76 : StableHlo.TRef sig ⟨S8x8, .f32⟩) rfl shapeCasts_S4x2x4x2_S8x8,
    StableHlo.TRef.unary (.of main_v76 : StableHlo.TRef sig ⟨S8x8, .f32⟩) (.of main_call14_v0 : StableHlo.TRef sig ⟨S8x1x8x1, .f32⟩) (broadcastInDim S8x1x8x1 ![0, 2] bcast_S8x8_S8x1x8x1_0_2),
    StableHlo.TRef.unary (.of main_cst_2 : StableHlo.TRef sig ⟨S2x2, .f32⟩) (.of main_call14_v1 : StableHlo.TRef sig ⟨S1x2x1x2, .f32⟩) (broadcastInDim S1x2x1x2 ![1, 3] bcast_S2x2_S1x2x1x2_1_3),
    StableHlo.TRef.unary (.of main_call14_v0 : StableHlo.TRef sig ⟨S8x1x8x1, .f32⟩) (.of main_call14_v2 : StableHlo.TRef sig ⟨S8x2x8x2, .f32⟩) (broadcastInDim S8x2x8x2 ![0, 1, 2, 3] bcast_S8x1x8x1_S8x2x8x2_0_1_2_3),
    StableHlo.TRef.unary (.of main_call14_v1 : StableHlo.TRef sig ⟨S1x2x1x2, .f32⟩) (.of main_call14_v3 : StableHlo.TRef sig ⟨S8x2x8x2, .f32⟩) (broadcastInDim S8x2x8x2 ![0, 1, 2, 3] bcast_S1x2x1x2_S8x2x8x2_0_1_2_3),
    StableHlo.TRef.binary (.of main_call14_v2 : StableHlo.TRef sig ⟨S8x2x8x2, .f32⟩) (.of main_call14_v3 : StableHlo.TRef sig ⟨S8x2x8x2, .f32⟩) (.of main_call14_v4 : StableHlo.TRef sig ⟨S8x2x8x2, .f32⟩) mulf,
    StableHlo.TRef.reshape (.of main_call14_v4 : StableHlo.TRef sig ⟨S8x2x8x2, .f32⟩) (.of main_v77 : StableHlo.TRef sig ⟨S16x16, .f32⟩) rfl shapeCasts_S8x2x8x2_S16x16,
    StableHlo.unary main_v74 main_v78 ((transpose S8192x16 [1, 0] · transposes_S16x8192_S8192x16_1_0) : (⟨S16x8192, .f32⟩ : BufTy).Contents (Elt F) → (⟨S8192x16, .f32⟩ : BufTy).Contents (Elt F)),
    StableHlo.binary main_v77 main_v74 main_v79 ((fun l r => Host.dotGeneral dot_S16x16_S16x8192_S16x8192_1_0_0_1_n_n none l r) : (⟨S16x16, .f32⟩ : BufTy).Contents (Elt F) → (⟨S16x8192, .f32⟩ : BufTy).Contents (Elt F) → (⟨S16x8192, .f32⟩ : BufTy).Contents (Elt F)),
    StableHlo.binary main_v78 main_v79 main_v80 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)) ]

/-- @main's 172 operations, in order. -/
abbrev ops : List (HloOp τ sig (Elt F)) :=
  ops_part0 ++ (ops_part1)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl

/-- The operations, cut at the calls and at the rotations: the same list. -/
abbrev segs : List (List (HloOp τ sig (Elt F))) :=
  [seg0, seg1, seg2, seg3, seg4, seg5, seg6, seg7, seg8, seg9, seg10, seg11, seg12, seg13, seg14, seg15, seg16, seg17, seg18, seg19, seg20, seg21, seg22, seg23]
set_option maxRecDepth 8192 in
theorem ops_part0_segs : (ops_part0 : List (HloOp τ sig (Elt F))) = seg0 ++ (seg1 ++ (seg2 ++ (seg3 ++ (seg4 ++ (seg5 ++ (seg6 ++ (seg7 ++ (seg8 ++ (seg9))))))))) := rfl
set_option maxRecDepth 8192 in
theorem ops_part1_segs : (ops_part1 : List (HloOp τ sig (Elt F))) = seg10 ++ (seg11 ++ (seg12 ++ (seg13 ++ (seg14 ++ (seg15 ++ (seg16 ++ (seg17 ++ (seg18 ++ (seg19 ++ (seg20 ++ (seg21 ++ (seg22 ++ (seg23))))))))))))) := rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨StableHlo.nullary_bufs_sub .., StableHlo.nullary_bufs_sub .., StableHlo.nullary_bufs_sub .., StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub ..⟩
set_option maxRecDepth 8192 in
theorem ops_part1_sub : (ops_part1 : List (HloOp τ sig (Elt F))).Forall fun op => op.bufs ⊆ tcRefs τ sig :=
  ⟨StableHlo.unary_bufs_sub .., StableHlo.unary_bufs_sub .., StableHlo.nary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.reshape_bufs_sub .., StableHlo.unary_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.binary_bufs_sub .., StableHlo.binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

set_option maxRecDepth 8192 in
/-- On every device, for any float values, from any memory with zero counters: every weakly fair execution of
    @main terminates with each buffer at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.Run

end
-- ==== Proof.RefValue.lean ====
/-
  The reference program's result, read back as the formula of the specification.

  The program forms, from the six angles, the rotations R(θ), the five Kronecker layers and their product U, and
  applies U to the state columns x; then it forms the observable M = I ⊗ I ⊗ I ⊗ Z and the result (U x)ᵀ (M (U x)).
  Its operations are read in two stages: the first ends with the amplitudes U x, the second forms M and the result
  from whatever the first left.  No operation writes an argument.
-/
import proofs.«119959_j15496242004747_1_alg».proof.Proof.RefOps
import proofs.«119959_j15496242004747_1_alg».proof.Proof.Spec

set_option maxRecDepth 16384

noncomputable section

namespace Cert.ReferenceIdeal.Run

open Cert.ReferenceIdeal Cert.ReferenceIdeal.Facts₀ Idealize.ShloMosaic Idealize.ShloMosaic.TcCoe Idealize.SL.Sem Idealize.ShloMosaic.StableHlo

/-- The operations that end with the amplitudes U x. -/
abbrev stageU : List (HloOp τ sig (Elt Ideal)) := List.flatten [seg0, seg1, seg2, seg3, seg4, seg5, seg6, seg7, seg8, seg9, seg10, seg11, seg12, seg13, seg14, seg15, seg16, seg17, seg18, seg19]
/-- The operations that form the observable and the result. -/
abbrev stageM : List (HloOp τ sig (Elt Ideal)) := List.flatten [seg20, seg21, seg22, seg23]

/-- The program's operations are the two stages in turn. -/
theorem ops_eq : (ops : List (HloOp τ sig (Elt Ideal))) = stageU ++ stageM := by
  simp only [ops, ops_part0_segs, ops_part1_segs, stageU, stageM, List.flatten_cons, List.flatten_nil, List.append_assoc, List.append_nil]

/-! ## After the first stage -/

set_option maxHeartbeats 4000000 in
/-- The first stage leaves the amplitudes U x, U the circuit of the six angles, -/
theorem stageU_amplitudes (V0 : Valuation τ sig (Elt Ideal)) :
    after stageU V0 (no_index (Proc.devRef .tc main_v74)) =
      Cert.QOuter.mmX (F := Ideal)
        (Cert.QOuter.circuit (F := Ideal) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)))
        (V0 (Proc.devRef .tc main_arg0)) := by
  simp only [stageU, seg0, seg1, seg2, seg3, seg4, seg5, seg6, seg7, seg8, seg9, seg10, seg11, seg12, seg13, seg14, seg15, seg16, seg17, seg18, seg19, List.flatten_cons, List.flatten_nil, List.append_nil, List.cons_append, List.nil_append]
  after_results_simp
  rfl

set_option maxHeartbeats 4000000 in
/-- … the 2 × 2 identity table, -/
theorem stageU_matI (V0 : Valuation τ sig (Elt Ideal)) :
    after stageU V0 (no_index (Proc.devRef .tc main_cst_1)) = Cert.QOuter.matI (F := Ideal) := by
  simp only [stageU, seg0, seg1, seg2, seg3, seg4, seg5, seg6, seg7, seg8, seg9, seg10, seg11, seg12, seg13, seg14, seg15, seg16, seg17, seg18, seg19, List.flatten_cons, List.flatten_nil, List.append_nil, List.cons_append, List.nil_append]
  after_results_simp
  rfl

set_option maxHeartbeats 4000000 in
/-- … and the table of Z. -/
theorem stageU_matZ (V0 : Valuation τ sig (Elt Ideal)) :
    after stageU V0 (no_index (Proc.devRef .tc main_cst_2)) = Cert.QOuter.matZ (F := Ideal) := by
  simp only [stageU, seg0, seg1, seg2, seg3, seg4, seg5, seg6, seg7, seg8, seg9, seg10, seg11, seg12, seg13, seg14, seg15, seg16, seg17, seg18, seg19, List.flatten_cons, List.flatten_nil, List.append_nil, List.cons_append, List.nil_append]
  after_results_simp
  rfl

/-! ## After the second stage -/

/-- αᵀ (M α) for amplitudes α already formed: the specification's result, with α in place of U x. -/
def expectation (M : FVec Ideal S16x16 .f32) (α : FVec Ideal S16x8192 .f32) : FVec Ideal S8192x8192 .f32 :=
  Host.dotGeneral dot_S8192x16_S16x8192_S8192x8192_1_0_0_1_n_n none
    (transpose S8192x16 [1, 0] α transposes_S16x8192_S8192x16_1_0) (Cert.QOuter.mmX M α)

set_option maxHeartbeats 4000000 in
/-- From amplitudes α the second stage leaves αᵀ (M α), with M the Kronecker product of three identities and Z. -/
theorem stageM_result (W : Valuation τ sig (Elt Ideal)) :
    after stageM W (no_index (Proc.devRef .tc main_v80)) =
      expectation
        (Cert.QOuter.kron82 (F := Ideal) (Cert.QOuter.kron42 (Cert.QOuter.kron22 (W (Proc.devRef .tc main_cst_1)) (W (Proc.devRef .tc main_cst_1))) (W (Proc.devRef .tc main_cst_1))) (W (Proc.devRef .tc main_cst_2)))
        (W (Proc.devRef .tc main_v74)) := by
  simp only [stageM, seg20, seg21, seg22, seg23, List.flatten_cons, List.flatten_nil, List.append_nil, List.cons_append, List.nil_append]
  after_results_simp
  rfl

/-! ## The whole program -/

/-- The result buffer holds (U x)ᵀ (M (U x)) for the circuit U of the six angles, the observable M and the state columns x. -/
theorem result_eq (V0 : Valuation τ sig (Elt Ideal)) :
    after ops V0 (no_index (Proc.devRef .tc main_v80)) =
      Cert.QOuter.amplitudesFirst (F := Ideal)
        (Cert.QOuter.circuit (F := Ideal) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)))
        (Cert.QOuter.observable (F := Ideal)) (V0 (Proc.devRef .tc main_arg0)) := by
  rw [ops_eq, StableHlo.after_append]
  refine (stageM_result _).trans ?_
  rw [stageU_amplitudes, stageU_matI, stageU_matZ]
  rfl

set_option maxHeartbeats 4000000 in
/-- Argument 0 is not written. -/
theorem kept_arg0 (V0 : Valuation τ sig (Elt Ideal)) :
    after ops V0 (no_index (Proc.devRef .tc main_arg0)) = V0 (Proc.devRef .tc main_arg0) := by
  simp only [ops, ops_part0, ops_part1, List.cons_append, List.nil_append]
  after_results_simp

set_option maxHeartbeats 4000000 in
/-- Argument 1 is not written. -/
theorem kept_arg1 (V0 : Valuation τ sig (Elt Ideal)) :
    after ops V0 (no_index (Proc.devRef .tc main_arg1)) = V0 (Proc.devRef .tc main_arg1) := by
  simp only [ops, ops_part0, ops_part1, List.cons_append, List.nil_append]
  after_results_simp

set_option maxHeartbeats 4000000 in
/-- Argument 2 is not written. -/
theorem kept_arg2 (V0 : Valuation τ sig (Elt Ideal)) :
    after ops V0 (no_index (Proc.devRef .tc main_arg2)) = V0 (Proc.devRef .tc main_arg2) := by
  simp only [ops, ops_part0, ops_part1, List.cons_append, List.nil_append]
  after_results_simp

set_option maxHeartbeats 4000000 in
/-- Argument 3 is not written. -/
theorem kept_arg3 (V0 : Valuation τ sig (Elt Ideal)) :
    after ops V0 (no_index (Proc.devRef .tc main_arg3)) = V0 (Proc.devRef .tc main_arg3) := by
  simp only [ops, ops_part0, ops_part1, List.cons_append, List.nil_append]
  after_results_simp

set_option maxHeartbeats 4000000 in
/-- Argument 4 is not written. -/
theorem kept_arg4 (V0 : Valuation τ sig (Elt Ideal)) :
    after ops V0 (no_index (Proc.devRef .tc main_arg4)) = V0 (Proc.devRef .tc main_arg4) := by
  simp only [ops, ops_part0, ops_part1, List.cons_append, List.nil_append]
  after_results_simp

set_option maxHeartbeats 4000000 in
/-- Argument 5 is not written. -/
theorem kept_arg5 (V0 : Valuation τ sig (Elt Ideal)) :
    after ops V0 (no_index (Proc.devRef .tc main_arg5)) = V0 (Proc.devRef .tc main_arg5) := by
  simp only [ops, ops_part0, ops_part1, List.cons_append, List.nil_append]
  after_results_simp

set_option maxHeartbeats 4000000 in
/-- Argument 6 is not written. -/
theorem kept_arg6 (V0 : Valuation τ sig (Elt Ideal)) :
    after ops V0 (no_index (Proc.devRef .tc main_arg6)) = V0 (Proc.devRef .tc main_arg6) := by
  simp only [ops, ops_part0, ops_part1, List.cons_append, List.nil_append]
  after_results_simp

/-- On every device, from any memory with zero counters: every weakly fair execution of the reference program
    terminates with the result buffer at (U x)ᵀ (M (U x)) of the arguments' launch contents and the seven arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) =
        Cert.QOuter.amplitudesFirst (F := Ideal)
          (Cert.QOuter.circuit (F := Ideal) (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6)))
          (Cert.QOuter.observable (F := Ideal)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v80).trans (result_eq (launchContents m c)),
       (h c main_arg0).trans (kept_arg0 (launchContents m c)), (h c main_arg1).trans (kept_arg1 (launchContents m c)),
       (h c main_arg2).trans (kept_arg2 (launchContents m c)), (h c main_arg3).trans (kept_arg3 (launchContents m c)),
       (h c main_arg4).trans (kept_arg4 (launchContents m c)), (h c main_arg5).trans (kept_arg5 (launchContents m c)),
       (h c main_arg6).trans (kept_arg6 (launchContents m c))⟩)
    (run_all (F := Ideal) m ρ)

end Cert.ReferenceIdeal.Run

end
-- ==== Proof.MatAlg.lean ====
/-
  The one algebraic law behind the certificate, over abstract finite index types.

  For real square matrices U, M indexed by n and a real array x of columns (rows indexed by n, columns by B),
      xᵀ ((Uᵀ (M U)) x) = (U x)ᵀ (M (U x)),
  entry by entry.  On the extended reals the law fails in general (⊤ + ⊥ has no inverse), so it is stated for
  arrays all of whose entries are real numbers: the coercion ℝ → EReal is pushed outward through the products and
  the finite sums, and the identity is then associativity of the matrix product over ℝ.
-/
import Mathlib.Data.EReal.Inv
import Mathlib.Data.Matrix.Mul
import Mathlib.Algebra.BigOperators.Group.Finset.Basic

namespace Cert.QOuter.MatAlg

open Finset

/-- An extended real that is a real number. -/
def IsReal (x : EReal) : Prop := ∃ r : ℝ, x = (r : EReal)

/-- The coercion of a finite sum of reals is the sum of the coercions. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem isReal_coe (r : ℝ) : IsReal (r : EReal) := ⟨r, rfl⟩

theorem isReal_zero : IsReal 0 := ⟨0, rfl⟩

theorem isReal_one : IsReal 1 := ⟨1, rfl⟩

/-- A product of two reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A sum of two reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The negative of a real is real. -/
theorem isReal_neg {x : EReal} (hx : IsReal x) : IsReal (-x) := by
  obtain ⟨a, rfl⟩ := hx
  exact ⟨-a, (EReal.coe_neg a).symm⟩

/-- A finite sum of reals is real. -/
theorem isReal_sum {ι : Type*} (s : Finset ι) (f : ι → EReal) (h : ∀ i ∈ s, IsReal (f i)) :
    IsReal (∑ i ∈ s, f i) := by
  choose! g hg using h
  refine ⟨∑ i ∈ s, g i, ?_⟩
  rw [coe_sum]
  exact Finset.sum_congr rfl hg

/-- A finite sum of products of reals is real: an entry of a matrix product. -/
theorem isReal_sum_mul {ι : Type*} [Fintype ι] (f g : ι → EReal) (hf : ∀ i, IsReal (f i)) (hg : ∀ i, IsReal (g i)) :
    IsReal (∑ i, f i * g i) :=
  isReal_sum _ _ fun i _ => isReal_mul (hf i) (hg i)

/-- The law over the reals: xᵀ ((Uᵀ (M U)) x) = (U x)ᵀ (M (U x)), read at the entry (i, j). -/
theorem real_law {n B : Type*} [Fintype n] (U M : n → n → ℝ) (x : n → B → ℝ) (i j : B) :
    ∑ k, x k i * (∑ l, (∑ a, U a k * (∑ b, M a b * U b l)) * x l j)
      = ∑ a, (∑ k, U a k * x k i) * (∑ b, M a b * (∑ l, U b l * x l j)) := by
  let Um : Matrix n n ℝ := U
  let Mm : Matrix n n ℝ := M
  let Xm : Matrix n B ℝ := x
  have h : Xm.transpose * ((Um.transpose * (Mm * Um)) * Xm) = (Um * Xm).transpose * (Mm * (Um * Xm)) := by
    simp only [Matrix.transpose_mul, Matrix.mul_assoc]
  exact congrFun (congrFun h i) j

/-- The law over the extended reals, for arrays of real entries. -/
theorem ereal_law {n B : Type*} [Fintype n] (U M : n → n → EReal) (x : n → B → EReal)
    (hU : ∀ a k, IsReal (U a k)) (hM : ∀ a b, IsReal (M a b)) (hx : ∀ k i, IsReal (x k i)) (i j : B) :
    ∑ k, x k i * (∑ l, (∑ a, U a k * (∑ b, M a b * U b l)) * x l j)
      = ∑ a, (∑ k, U a k * x k i) * (∑ b, M a b * (∑ l, U b l * x l j)) := by
  choose u hu using hU
  choose m hm using hM
  choose xr hxr using hx
  simp only [hu, hm, hxr, ← EReal.coe_mul, ← coe_sum]
  exact congrArg _ (real_law u m xr i j)

end Cert.QOuter.MatAlg
-- ==== Proof.Bridge.lean ====
/-
  The two orders of evaluation agree on arrays of real entries.

  Every product in the specification is a plain matrix product, so each reads at an index as a sum over the sixteen
  state components, and a transposed matrix reads at (j, i) what the matrix holds at (i, j).  With these readings
  xᵀ ((Uᵀ (M U)) x) and (U x)ᵀ (M (U x)) are the two sides of the matrix law, entry by entry.
-/
import proofs.«119959_j15496242004747_1_alg».proof.Proof.Spec
import proofs.«119959_j15496242004747_1_alg».proof.Proof.MatAlg
import Idealize.ShloMosaic.Lib.StackMember
import Idealize.ShloMosaic.Lib.ValueLayout

noncomputable section

namespace Cert.QOuter

open Idealize.ShloMosaic Idealize.ShloMosaic.ValueIdx Cert.ReferenceIdeal Cert.ReferenceIdeal.Facts₀

/-- The product of two 16 × 16 matrices at (i, j): ∑ₖ a[i, k] · b[k, j]. -/
theorem mm16_apply (a b : FVec Ideal S16x16 .f32) (i j : Fin 16) :
    mm16 a b (ix2 i j) = ∑ c : Fin 16, a (ix2 i c) * b (ix2 c j) :=
  StackMember.dotGeneral_plain_apply (m := 16) (n := 16) (k := 16) none a b i j

/-- A 16 × 16 matrix applied to the state columns, at (i, j): ∑ₖ a[i, k] · x[k, j]. -/
theorem mmX_apply (a : FVec Ideal S16x16 .f32) (x : FVec Ideal S16x8192 .f32) (i : Fin 16) (j : Fin 8192) :
    mmX a x (ix2 i j) = ∑ c : Fin 16, a (ix2 i c) * x (ix2 c j) :=
  StackMember.dotGeneral_plain_apply (m := 16) (n := 8192) (k := 16) none a x i j

/-- The transposed 16 × 16 matrix at (j, i) is the matrix at (i, j). -/
theorem transpose16_apply (a : FVec Ideal S16x16 .f32) (j i : Fin 16) :
    transpose S16x16 [1, 0] a transposes16 (ix2 j i) = a (ix2 i j) :=
  transpose_ix2_apply a transposes16 j i

/-- The folded matrix W = Uᵀ (M U) at (k, l): ∑ₐ U[a, k] · ∑_b M[a, b] · U[b, l]. -/
theorem folded_apply (U M : FVec Ideal S16x16 .f32) (k l : Fin 16) :
    folded U M (ix2 k l) = ∑ a : Fin 16, U (ix2 a k) * (∑ b : Fin 16, M (ix2 a b) * U (ix2 b l)) := by
  unfold folded
  rw [mm16_apply]
  refine Finset.sum_congr rfl fun a _ => ?_
  rw [transpose16_apply, mm16_apply]

/-- xᵀ (W x) at (p, q), every product written out. -/
theorem outerSum_apply (U M : FVec Ideal S16x16 .f32) (x : FVec Ideal S16x8192 .f32) (p q : Fin 8192) :
    outerSum x (foldedColumns U M x) (ix2 p q)
      = ∑ k : Fin 16, x (ix2 k p) * (∑ l : Fin 16, (∑ a : Fin 16, U (ix2 a k) * (∑ b : Fin 16, M (ix2 a b) * U (ix2 b l))) * x (ix2 l q)) := by
  show ∑ k : Fin 16, x (ix2 k p) * foldedColumns U M x (ix2 k q) = _
  refine Finset.sum_congr rfl fun k _ => ?_
  unfold foldedColumns
  rw [mmX_apply]
  refine congrArg _ (Finset.sum_congr rfl fun l _ => ?_)
  rw [folded_apply]

/-- (U x)ᵀ (M (U x)) at (p, q), every product written out. -/
theorem amplitudesFirst_apply (U M : FVec Ideal S16x16 .f32) (x : FVec Ideal S16x8192 .f32) (p q : Fin 8192) :
    amplitudesFirst U M x (ix2 p q)
      = ∑ a : Fin 16, (∑ k : Fin 16, U (ix2 a k) * x (ix2 k p)) * (∑ b : Fin 16, M (ix2 a b) * (∑ l : Fin 16, U (ix2 b l) * x (ix2 l q))) := by
  unfold amplitudesFirst
  refine (StackMember.dotGeneral_plain_apply (m := 8192) (n := 8192) (k := 16) none _ _ p q).trans ?_
  refine Finset.sum_congr rfl fun a _ => ?_
  rw [transpose_ix2_apply, mmX_apply, mmX_apply]
  refine congrArg _ (Finset.sum_congr rfl fun b _ => ?_)
  rw [mmX_apply]

/-- The two orders of evaluation give the same 8192 × 8192 array when U, M and x have real entries. -/
theorem outerSum_eq (U M : FVec Ideal S16x16 .f32) (x : FVec Ideal S16x8192 .f32)
    (hU : AllReal U) (hM : AllReal M) (hx : AllReal x) :
    outerSum x (foldedColumns U M x) = amplitudesFirst U M x := by
  funext i
  obtain ⟨p, q, rfl⟩ : ∃ (p q : Fin 8192), i = ix2 p q := ⟨i 0, i 1, eq_ix2 i⟩
  rw [outerSum_apply, amplitudesFirst_apply]
  exact MatAlg.ereal_law (fun a k => U (ix2 a k)) (fun a b => M (ix2 a b)) (fun k j => x (ix2 k j))
    (fun a k => hU _) (fun a b => hM _) (fun k j => hx _) p q

end Cert.QOuter

end
-- ==== Proof.Finite.lean ====
/-
  Finiteness: with real angles, every entry of the circuit U and of the observable M is a real number.

  Each matrix is built from the angles and from constant tables by operations under which "every entry is real" is
  closed: a re-indexing (broadcast, reshape, transpose) reads the operand at some index; a concatenation reads one of
  its pieces at some index; a product of reals, the negative of a real, the sine and the cosine of a real, and a real
  divided by 2 are real; an entry of a matrix product is a finite sum of products of reals; and the tables hold only
  the numbers 0, 1 and −1.
-/
import proofs.«119959_j15496242004747_1_alg».proof.Proof.Spec
import proofs.«119959_j15496242004747_1_alg».proof.Proof.MatAlg
import Idealize.ShloMosaic.PureOps.Ideal.Laws

noncomputable section

namespace Cert.QOuter

open Idealize.ShloMosaic Cert.ReferenceIdeal Cert.ReferenceIdeal.Facts₀ Cert.QOuter.MatAlg

/-! ## Closure under the operations -/

section Closure
variable {s t : Shape} {φ : FTy}

/-- A broadcast reads the operand at some index. -/
theorem allReal_broadcastInDim (dims : Fin s.rank → Fin t.rank) (h : s.BroadcastsInDim t dims) {x : FVec Ideal s φ}
    (hx : AllReal x) : AllReal (broadcastInDim t dims h x) := fun _ => hx _

/-- A reshape reads the operand at some index. -/
theorem allReal_shapeCast (h : s.ShapeCasts t) {x : FVec Ideal s φ} (hx : AllReal x) : AllReal (shapeCast t x h) :=
  fun _ => hx _

/-- A transpose reads the operand at some index. -/
theorem allReal_transpose (perm : List (Fin s.rank)) (h : s.Transposes perm t) {x : FVec Ideal s φ} (hx : AllReal x) :
    AllReal (transpose t perm x h) := fun _ => hx _

/-- A concatenation reads one of its pieces at some index. -/
theorem allReal_concatenate (a : Fin t.rank) (xs : List ((s : Shape) × (s.Idx → EReal)))
    (h : Shape.Concatenates (xs.map (·.1)) t a) (hxs : ∀ p ∈ xs, AllReal p.2) : AllReal (concatenate t a xs h) := by
  intro j
  unfold concatenate
  exact hxs _ (List.getElem_mem _) _

/-- An entrywise product of real arrays is real. -/
theorem allReal_mulf {x y : FVec Ideal s φ} (hx : AllReal x) (hy : AllReal y) : AllReal (mulf x y) :=
  fun i => isReal_mul (hx i) (hy i)

/-- The negative of a real array is real. -/
theorem allReal_negf {x : FVec Ideal s φ} (hx : AllReal x) : AllReal (Host.negf x) :=
  fun i => isReal_neg (hx i)

/-- The sine of a real array is real. -/
theorem allReal_sin {x : FVec Ideal s φ} (hx : AllReal x) : AllReal (Host.sin x) := by
  intro i
  obtain ⟨r, hr⟩ := hx i
  refine ⟨Real.sin r, ?_⟩
  show Ideal.sin (x i) = _
  rw [hr]; rfl

/-- The cosine of a real array is real. -/
theorem allReal_cos {x : FVec Ideal s φ} (hx : AllReal x) : AllReal (Host.cos x) := by
  intro i
  obtain ⟨r, hr⟩ := hx i
  refine ⟨Real.cos r, ?_⟩
  show Ideal.cos (x i) = _
  rw [hr]; rfl

/-- An entry of a matrix product is a finite sum of products of reals. -/
theorem allReal_dotGeneral {sl sr so : Shape} (d : DotDims sl sr so) (prec : Option ContractPrecision)
    {a : FVec Ideal sl .f32} {b : FVec Ideal sr .f32} (ha : AllReal a) (hb : AllReal b) :
    AllReal (Host.dotGeneral d prec a b) := by
  intro j
  show IsReal (FloatOps.dotGeneral d prec .single a b j)
  rw [Ideal.dotGeneral_apply]
  exact isReal_sum_mul _ _ (fun _ => ha _) (fun _ => hb _)

end Closure

/-! ## The constants -/

/-- The word of +0.0 denotes 0. -/
theorem ofBits_word_zero : Ideal.ofBits .f32 0x00000000#32 = ((0 : ℝ) : EReal) := by
  simp [Ideal.ofBits, Ideal.ieee]

/-- The word of 1.0 denotes 1. -/
theorem ofBits_word_one : Ideal.ofBits .f32 0x3F800000#32 = ((1 : ℝ) : EReal) := by
  simp [Ideal.ofBits, Ideal.ieee, -EReal.coe_mul]; norm_num

/-- The word of −1.0 denotes −1. -/
theorem ofBits_word_negOne : Ideal.ofBits .f32 0xBF800000#32 = ((-1 : ℝ) : EReal) := by
  simp [Ideal.ofBits, Ideal.ieee, -EReal.coe_mul]; norm_num

/-- The word of 2.0 denotes 2. -/
theorem ofBits_word_two : Ideal.ofBits .f32 0x40000000#32 = ((2 : ℝ) : EReal) := by
  simp [Ideal.ofBits, Ideal.ieee, -EReal.coe_mul]; norm_num

/-- A word that is one of 0.0, 1.0, −1.0 denotes a real. -/
theorem isReal_ofBits_of_mem {w : BitVec 32}
    (h : w = 0x00000000#32 ∨ w = 0x3F800000#32 ∨ w = 0xBF800000#32) : IsReal (Ideal.ofBits .f32 w) := by
  rcases h with rfl | rfl | rfl
  · exact ⟨_, ofBits_word_zero⟩
  · exact ⟨_, ofBits_word_one⟩
  · exact ⟨_, ofBits_word_negOne⟩

theorem lit0_mem : ∀ k : Fin 4, lit0 k = 0x00000000#32 ∨ lit0 k = 0x3F800000#32 ∨ lit0 k = 0xBF800000#32 := by decide
theorem lit1_mem : ∀ k : Fin 16, lit1 k = 0x00000000#32 ∨ lit1 k = 0x3F800000#32 ∨ lit1 k = 0xBF800000#32 := by decide
theorem lit2_mem : ∀ k : Fin 4, lit2 k = 0x00000000#32 ∨ lit2 k = 0x3F800000#32 ∨ lit2 k = 0xBF800000#32 := by decide
theorem lit3_mem : ∀ k : Fin 4, lit3 k = 0x00000000#32 ∨ lit3 k = 0x3F800000#32 ∨ lit3 k = 0xBF800000#32 := by decide

/-- The bit flip has real entries. -/
theorem matX_allReal : AllReal (matX (F := Ideal)) := fun _ => isReal_ofBits_of_mem (lit0_mem _)
/-- The controlled-not has real entries. -/
theorem matC_allReal : AllReal (matC (F := Ideal)) := fun _ => isReal_ofBits_of_mem (lit1_mem _)
/-- The identity has real entries. -/
theorem matI_allReal : AllReal (matI (F := Ideal)) := fun _ => isReal_ofBits_of_mem (lit2_mem _)
/-- Z has real entries. -/
theorem matZ_allReal : AllReal (matZ (F := Ideal)) := fun _ => isReal_ofBits_of_mem (lit3_mem _)

/-! ## A rotation -/

/-- Half a real angle is real. -/
theorem half_allReal {θ : FVec Ideal S1 .f32} (hθ : AllReal θ) : AllReal (half θ) := by
  intro i
  obtain ⟨r, hr⟩ := hθ i
  refine ⟨r * (1 / 2 : ℝ), ?_⟩
  show Ideal.div (θ i) (Ideal.ofBits .f32 0x40000000#32) = _
  rw [ofBits_word_two, Ideal.div_coe (by norm_num : (2 : ℝ) ≠ 0), hr, ← EReal.coe_mul]

/-- The four entries of a rotation by a real angle are real. -/
theorem ryFlat_allReal {θ : FVec Ideal S1 .f32} (hθ : AllReal θ) : AllReal (ryFlat θ) := by
  have hh := half_allReal hθ
  refine allReal_concatenate _ _ _ fun p hp => ?_
  simp only [List.mem_cons, List.not_mem_nil, or_false] at hp
  rcases hp with rfl | rfl | rfl | rfl
  · exact allReal_cos hh
  · exact allReal_negf (allReal_sin hh)
  · exact allReal_sin hh
  · exact allReal_cos hh

/-- A rotation by a real angle has real entries. -/
theorem ry_allReal {θ : FVec Ideal S1 .f32} (hθ : AllReal θ) : AllReal (ry θ) :=
  allReal_shapeCast _ (ryFlat_allReal hθ)

/-! ## Kronecker products -/

theorem kron22_allReal {a b : FVec Ideal S2x2 .f32} (ha : AllReal a) (hb : AllReal b) : AllReal (kron22 a b) :=
  allReal_shapeCast _ (allReal_mulf (allReal_broadcastInDim _ _ (allReal_broadcastInDim _ _ ha))
    (allReal_broadcastInDim _ _ (allReal_broadcastInDim _ _ hb)))

theorem kron42_allReal {a : FVec Ideal S4x4 .f32} {b : FVec Ideal S2x2 .f32} (ha : AllReal a) (hb : AllReal b) :
    AllReal (kron42 a b) :=
  allReal_shapeCast _ (allReal_mulf (allReal_broadcastInDim _ _ (allReal_broadcastInDim _ _ ha))
    (allReal_broadcastInDim _ _ (allReal_broadcastInDim _ _ hb)))

theorem kron82_allReal {a : FVec Ideal S8x8 .f32} {b : FVec Ideal S2x2 .f32} (ha : AllReal a) (hb : AllReal b) :
    AllReal (kron82 a b) :=
  allReal_shapeCast _ (allReal_mulf (allReal_broadcastInDim _ _ (allReal_broadcastInDim _ _ ha))
    (allReal_broadcastInDim _ _ (allReal_broadcastInDim _ _ hb)))

theorem kron44_allReal {a b : FVec Ideal S4x4 .f32} (ha : AllReal a) (hb : AllReal b) : AllReal (kron44 a b) :=
  allReal_shapeCast _ (allReal_mulf (allReal_broadcastInDim _ _ (allReal_broadcastInDim _ _ ha))
    (allReal_broadcastInDim _ _ (allReal_broadcastInDim _ _ hb)))

/-! ## The layers, the circuit and the observable -/

theorem layer1_allReal {θ1 θ2 : FVec Ideal S1 .f32} (h1 : AllReal θ1) (h2 : AllReal θ2) : AllReal (layer1 θ1 θ2) :=
  kron82_allReal (kron42_allReal (kron22_allReal matX_allReal matX_allReal) (ry_allReal h1)) (ry_allReal h2)

theorem layer2_allReal {θ3 θ4 : FVec Ideal S1 .f32} (h3 : AllReal θ3) (h4 : AllReal θ4) : AllReal (layer2 θ3 θ4) :=
  kron44_allReal (kron22_allReal (ry_allReal h3) (ry_allReal h4)) matC_allReal

theorem layer3_allReal {θ5 : FVec Ideal S1 .f32} (h5 : AllReal θ5) : AllReal (layer3 θ5) :=
  kron82_allReal (kron42_allReal matC_allReal matI_allReal) (ry_allReal h5)

theorem layer4_allReal {θ6 : FVec Ideal S1 .f32} (h6 : AllReal θ6) : AllReal (layer4 θ6) :=
  kron82_allReal (kron42_allReal (kron22_allReal matI_allReal (ry_allReal h6)) matI_allReal) matI_allReal

theorem layer5_allReal : AllReal (layer5 (F := Ideal)) :=
  allReal_shapeCast _ (allReal_transpose _ _ (allReal_transpose _ _
    (allReal_shapeCast _ (kron44_allReal (kron22_allReal matI_allReal matI_allReal) matC_allReal))))

theorem mm16_allReal {a b : FVec Ideal S16x16 .f32} (ha : AllReal a) (hb : AllReal b) : AllReal (mm16 a b) :=
  allReal_dotGeneral _ _ ha hb

theorem mmX_allReal {a : FVec Ideal S16x16 .f32} {x : FVec Ideal S16x8192 .f32} (ha : AllReal a) (hx : AllReal x) :
    AllReal (mmX a x) :=
  allReal_dotGeneral _ _ ha hx

/-- With real angles every entry of the circuit is real. -/
theorem circuit_allReal {θ1 θ2 θ3 θ4 θ5 θ6 : FVec Ideal S1 .f32} (h1 : AllReal θ1) (h2 : AllReal θ2) (h3 : AllReal θ3)
    (h4 : AllReal θ4) (h5 : AllReal θ5) (h6 : AllReal θ6) : AllReal (circuit (F := Ideal) θ1 θ2 θ3 θ4 θ5 θ6) :=
  mm16_allReal layer5_allReal (mm16_allReal (layer4_allReal h6) (mm16_allReal (layer3_allReal h5)
    (mm16_allReal (layer2_allReal h3 h4) (layer1_allReal h1 h2))))

/-- Every entry of the observable is real. -/
theorem observable_allReal : AllReal (observable (F := Ideal)) :=
  kron82_allReal (kron42_allReal (kron22_allReal matI_allReal matI_allReal) matI_allReal) matZ_allReal

end Cert.QOuter

end
-- ==== Proof.PreFinite.lean ====
/-
  The precondition, read back: every entry of the state columns and every angle is a real number.

  The precondition asks, for each of the seven arrays, that |v| < +∞ at every entry, and joins the seven answers.
  An extended real whose absolute value is below +∞ is neither +∞ nor −∞, so it is a real number.
-/
import proofs.«119959_j15496242004747_1_alg».proof.Proof.Spec
import proofs.«119959_j15496242004747_1_alg».proof.Proof.MatAlg
import proofs.«119959_j15496242004747_1_alg».proof.Proof.Gen.Pre_finite_inputs
import Idealize.ShloMosaic.Lib.ReduceAll
import Idealize.ShloMosaic.PureOps.Ideal.Laws

noncomputable section

namespace Cert.QOuter

open Idealize.ShloMosaic Cert.QOuter.MatAlg

/-- The scalar shape has one index. -/
instance subsingleton_scalarIdx : Subsingleton Cert.Pre_finite_inputs.S_.Idx := ⟨fun _ _ => funext fun d => d.elim0⟩

/-- The word of +∞ denotes ⊤. -/
theorem ofBits_word_inf : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_word_inf] at h
  induction x using EReal.rec with
  | bot => simp [Ideal.cmp] at h
  | top => simp [Ideal.cmp] at h
  | coe r => exact ⟨r, rfl⟩

/-- The precondition gives: every entry of x and each of the six angles is real. -/
theorem pre_allReal (x : FVec Ideal Cert.Pre_finite_inputs.S16x8192 .f32)
    (θ1 θ2 θ3 θ4 θ5 θ6 : FVec Ideal Cert.Pre_finite_inputs.S1 .f32)
    (h : Cert.Pre_finite_inputs.fn (F := Ideal) x θ1 θ2 θ3 θ4 θ5 θ6 = (fun _ => 1#1)) :
    AllReal x ∧ AllReal θ1 ∧ AllReal θ2 ∧ AllReal θ3 ∧ AllReal θ4 ∧ AllReal θ5 ∧ AllReal θ6 := by
  have e := congrFun h ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  refine ⟨fun i => ?_, fun i => ?_, fun i => ?_, fun i => ?_, fun i => ?_, fun i => ?_, fun i => ?_⟩
  · exact isReal_of_abs_lt_inf _ (Host.reduce_andi_all _ _ _ _ _ h0 i)
  · exact isReal_of_abs_lt_inf _ (Host.reduce_andi_all _ _ _ _ _ h1 i)
  · exact isReal_of_abs_lt_inf _ (Host.reduce_andi_all _ _ _ _ _ h2 i)
  · exact isReal_of_abs_lt_inf _ (Host.reduce_andi_all _ _ _ _ _ h3 i)
  · exact isReal_of_abs_lt_inf _ (Host.reduce_andi_all _ _ _ _ _ h4 i)
  · exact isReal_of_abs_lt_inf _ (Host.reduce_andi_all _ _ _ _ _ h5 i)
  · exact isReal_of_abs_lt_inf _ (Host.reduce_andi_all _ _ _ _ _ h6 i)

end Cert.QOuter

end
-- ==== Proof.lean ====
/-
  Both programs compute out = (U x)ᵀ (M (U x)) for the 16 × 16 circuit matrix U of six plane rotations (five Kronecker
  layers multiplied together), the observable M = I ⊗ I ⊗ I ⊗ Z and the 16 × 8192 array x of state columns.

  The reference forms α = U x, then αᵀ (M α).  The kernel's program folds W = Uᵀ (M U) on the host, forms β = W x,
  and its launch computes xᵀ β block by block over a 4 × 8 grid: entry (i, j) of the result is ∑ₖ x[k, i] · β[k, j].
  Over exact extended reals a change of float format is the identity, so the two results are
      ∑ₖ x[k, i] · ∑ₗ (∑ₐ U[a, k] · ∑_b M[a, b] · U[b, l]) · x[l, j]   and   ∑ₐ (∑ₖ U[a, k] · x[k, i]) · ∑_b M[a, b] · ∑ₗ U[b, l] · x[l, j],
  which are equal by distributivity and by exchanging finite sums.  Distributivity fails at infinities, so the
  precondition is used: every input is finite, hence x is real, the rotations' entries (sines and cosines of real
  half angles) are real, and so are all entries of U and of the constant matrix M.

  The frames: each program terminates without fault and leaves its seven arguments as they were.  For the two kernel
  programs this is the launch run over the grid with the body's one store covering its output block; for the
  reference it is the straight line of host operations, none of which writes an argument.
-/
import proofs.«119959_j15496242004747_1_alg».proof.Defs
import proofs.«119959_j15496242004747_1_alg».proof.Proof.Gen.Kernel
import proofs.«119959_j15496242004747_1_alg».proof.Proof.Gen.KernelIdeal
import proofs.«119959_j15496242004747_1_alg».proof.Proof.Gen.ReferenceIdeal
import proofs.«119959_j15496242004747_1_alg».proof.Proof.Gen.Pre_finite_inputs
import proofs.«119959_j15496242004747_1_alg».proof.Proof.FrameBits
import proofs.«119959_j15496242004747_1_alg».proof.Proof.FrameIdeal
import proofs.«119959_j15496242004747_1_alg».proof.Proof.KernelRun
import proofs.«119959_j15496242004747_1_alg».proof.Proof.RefValue
import proofs.«119959_j15496242004747_1_alg».proof.Proof.Bridge
import proofs.«119959_j15496242004747_1_alg».proof.Proof.Finite
import proofs.«119959_j15496242004747_1_alg».proof.Proof.PreFinite

noncomputable section

namespace Cert.Proof

open Idealize.ShloMosaic Idealize.SL.Sem

/-- The kernel's program as printed runs and leaves its arguments unchanged. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Run.run m ρ)

/-- The two idealized programs, from memories agreeing on the arguments, end with equal results: xᵀ ((Uᵀ (M U)) x) on
    one side, (U x)ᵀ (M (U x)) on the other, equal because every entry of x, U and M is a real number. -/
theorem algebraic : Cert.algebraic_KernelIdeal_ReferenceIdeal := by
  intro m ρ m' ρ' hpre hagree
  refine ⟨fun c => Cert.QOuter.outerSum (m ((c.tc : Thread Cert.KernelIdeal.nD Cert.KernelIdeal.τ).loc Cert.KernelIdeal.main_arg0))
      (Cert.QOuter.foldedColumns (F := Ideal)
        (Cert.QOuter.circuit (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        (Cert.QOuter.observable (F := Ideal)) (m ((c.tc : Thread Cert.KernelIdeal.nD Cert.KernelIdeal.τ).loc Cert.KernelIdeal.main_arg0))),
    Cert.KernelIdeal.KRun.run m ρ, ?_⟩
  refine (θ_run Cert.ReferenceIdeal.defs _ _).mono (fun _ h c => ⟨(h c).1.trans ?_, (h c).2⟩)
    (Cert.ReferenceIdeal.Run.run m' ρ')
  obtain ⟨e0, e1, e2, e3, e4, e5, e6⟩ := hagree c
  rw [e0, e1, e2, e3, e4, e5, e6]
  obtain ⟨hx, h1, h2, h3, h4, h5, h6⟩ := Cert.QOuter.pre_allReal _ _ _ _ _ _ _ (hpre c)
  exact (Cert.QOuter.outerSum_eq _ _ _ (Cert.QOuter.circuit_allReal h1 h2 h3 h4 h5 h6) Cert.QOuter.observable_allReal hx).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
